-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x768 : Shape := ⟨2, ![2048, 768]⟩
abbrev S2048x2 : Shape := ⟨2, ![2048, 2]⟩
abbrev S2048 : Shape := ⟨1, ![2048]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x768 .f32) (main_arg1 : FVec F S2048x2 .f32) (main_arg2 : IVec S2048 32) (main_arg3 : IVec S2048 32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  main_v8
-- ==== Kernel.lean ====
abbrev S2048x768 : Shape := ⟨2, ![2048, 768]⟩
abbrev S2048x2 : Shape := ⟨2, ![2048, 2]⟩
abbrev S2048 : Shape := ⟨1, ![2048]⟩
abbrev S2048x2048 : Shape := ⟨2, ![2048, 2048]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S768x512 : Shape := ⟨2, ![768, 512]⟩
abbrev S16 : Shape := ⟨1, ![16]⟩
abbrev S1x2048 : Shape := ⟨2, ![1, 2048]⟩
abbrev S16x1 : Shape := ⟨2, ![16, 1]⟩
abbrev S16x2048 : Shape := ⟨2, ![16, 2048]⟩
abbrev S_ : Shape := ⟨0, ![]⟩
abbrev S2048x16 : Shape := ⟨2, ![2048, 16]⟩
abbrev S1x16 : Shape := ⟨2, ![1, 16]⟩
abbrev S256x256 : Shape := ⟨2, ![256, 256]⟩
abbrev S16x256 : Shape := ⟨2, ![16, 256]⟩
abbrev S1x256x256 : Shape := ⟨3, ![1, 256, 256]⟩
abbrev S16x256x1 : Shape := ⟨3, ![16, 256, 1]⟩
abbrev S16x256x256 : Shape := ⟨3, ![16, 256, 256]⟩
abbrev S16x1x256 : Shape := ⟨3, ![16, 1, 256]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 124
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x2, .f32⟩
  | .hbm, ⟨2, _⟩ => ⟨S2048, .i32⟩
  | .hbm, ⟨3, _⟩ => ⟨S2048, .i32⟩
  | .hbm, ⟨4, _⟩ => ⟨S2048x2048, .f32⟩
  | .hbm, ⟨5, _⟩ => ⟨S16, .i32⟩
  | .hbm, ⟨6, _⟩ => ⟨S1x2048, .i32⟩
  | .hbm, ⟨7, _⟩ => ⟨S16x1, .i32⟩
  | .hbm, ⟨8, _⟩ => ⟨S16x2048, .i32⟩
  | .hbm, ⟨9, _⟩ => ⟨S16x2048, .i32⟩
  | .hbm, ⟨10, _⟩ => ⟨S16x2048, .i1⟩
  | .hbm, ⟨11, _⟩ => ⟨S1x2048, .i32⟩
  | .hbm, ⟨12, _⟩ => ⟨S_, .i32⟩
  | .hbm, ⟨13, _⟩ => ⟨S1x2048, .i32⟩
  | .hbm, ⟨14, _⟩ => ⟨S1x2048, .i1⟩
  | .hbm, ⟨15, _⟩ => ⟨S16x2048, .i1⟩
  | .hbm, ⟨16, _⟩ => ⟨S16x2048, .i1⟩
  | .hbm, ⟨17, _⟩ => ⟨S1x2048, .i32⟩
  | .hbm, ⟨18, _⟩ => ⟨S16x1, .i32⟩
  | .hbm, ⟨19, _⟩ => ⟨S16x2048, .i32⟩
  | .hbm, ⟨20, _⟩ => ⟨S16x2048, .i32⟩
  | .hbm, ⟨21, _⟩ => ⟨S16x2048, .i1⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S16x2048, .i1⟩
  | .hbm, ⟨27, _⟩ => ⟨S16x2048, .i1⟩
  | .hbm, ⟨28, _⟩ => ⟨S16x2048, .i32⟩
  | .hbm, ⟨29, _⟩ => ⟨S_, .i32⟩
  | .hbm, ⟨30, _⟩ => ⟨S16, .i32⟩
  | .hbm, ⟨31, _⟩ => ⟨S16x2048, .i32⟩
  | .hbm, ⟨32, _⟩ => ⟨S_, .i32⟩
  | .hbm, ⟨33, _⟩ => ⟨S16, .i32⟩
  | .hbm, ⟨34, _⟩ => ⟨S16x2048, .i32⟩
  | .hbm, ⟨35, _⟩ => ⟨S_, .i1⟩
  | .hbm, ⟨36, _⟩ => ⟨S_, .i32⟩
  | .hbm, ⟨37, _⟩ => ⟨S16, .i1⟩
  | .hbm, ⟨38, _⟩ => ⟨S16, .i32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S16x1, .i32⟩
  | .hbm, ⟨47, _⟩ => ⟨S2048x16, .f32⟩
  | .hbm, ⟨48, _⟩ => ⟨S16x2048, .f32⟩
  | .hbm, ⟨49, _⟩ => ⟨S16x2048, .f32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16, .f32⟩
  | .hbm, ⟨57, _⟩ => ⟨S_, .i32⟩
  | .hbm, ⟨58, _⟩ => ⟨S16, .i32⟩
  | .hbm, ⟨59, _⟩ => ⟨S16, .i1⟩
  | .hbm, ⟨60, _⟩ => ⟨S_, .i32⟩
  | .hbm, ⟨61, _⟩ => ⟨S16, .i32⟩
  | .hbm, ⟨62, _⟩ => ⟨S16, .i1⟩
  | .hbm, ⟨63, _⟩ => ⟨S16, .i1⟩
  | .hbm, ⟨64, _⟩ => ⟨S1x16, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S2048x1, .f32⟩
  | .hbm, ⟨82, _⟩ => ⟨S2048x2, .f32⟩
  | .hbm, ⟨83, _⟩ => ⟨S2048x2, .f32⟩
  | .hbm, ⟨84, _⟩ => ⟨S2048x2, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x1, .f32⟩
  | .hbm, ⟨89, _⟩ => ⟨S2048x2, .f32⟩
  | .hbm, ⟨90, _⟩ => ⟨S2048x2, .f32⟩
  | .hbm, ⟨91, _⟩ => ⟨S2048x1, .i32⟩
  | .hbm, ⟨92, _⟩ => ⟨S_, .i32⟩
  | .hbm, ⟨93, _⟩ => ⟨S2048x1, .i32⟩
  | .hbm, ⟨94, _⟩ => ⟨S2048x1, .i1⟩
  | .hbm, ⟨95, _⟩ => ⟨S_, .i32⟩
  | .hbm, ⟨96, _⟩ => ⟨S2048x1, .i32⟩
  | .hbm, ⟨97, _⟩ => ⟨S2048x1, .i32⟩
  | .hbm, ⟨98, _⟩ => ⟨S2048x1, .i32⟩
  | .hbm, ⟨99, _⟩ => ⟨S2048x1x1, .i32⟩
  | .hbm, ⟨100, _⟩ => ⟨S1, .i32⟩
  | .hbm, ⟨101, _⟩ => ⟨S_, .i32⟩
  | .hbm, ⟨102, _⟩ => ⟨S2048x1x1, .i32⟩
  | .hbm, ⟨103, _⟩ => ⟨S2048x1x1, .i1⟩
  | .hbm, ⟨104, _⟩ => ⟨S1x1x1, .i32⟩
  | .hbm, ⟨105, _⟩ => ⟨S2048x1x1, .i32⟩
  | .hbm, ⟨106, _⟩ => ⟨S2048x1x1, .i1⟩
  | .hbm, ⟨107, _⟩ => ⟨S2048x1x1, .i1⟩
  | .hbm, ⟨108, _⟩ => ⟨S_, .i1⟩
  | .hbm, ⟨109, _⟩ => ⟨S2048x1, .i1⟩
  | .hbm, ⟨110, _⟩ => ⟨S2048x1, .f32⟩
  | .hbm, ⟨111, _⟩ => ⟨S_, .f32⟩
  | .hbm, ⟨112, _⟩ => ⟨S2048x1, .f32⟩
  | .hbm, ⟨113, _⟩ => ⟨S2048x1, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x512, .f32⟩
  | .local _ .vmem, ⟨5, _⟩ => ⟨S512x512, .f32⟩
  | .local _ .vmem, ⟨6, _⟩ => ⟨S256x256, .f32⟩
  | .local _ .vmem, ⟨7, _⟩ => ⟨S256x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S1x16, .f32⟩
  | .local _ .vmem, ⟨15, _⟩ => ⟨S1x16, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_call0_v0 : Ref sig .tc := ⟨.hbm, 34, rfl⟩
abbrev main_call0_c : Ref sig .tc := ⟨.hbm, 35, rfl⟩
abbrev main_call0_c_0 : Ref sig .tc := ⟨.hbm, 36, rfl⟩
abbrev main_call0_v1_0 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_call2_cst_0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_cst_1 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_v53 : Ref sig .tc := ⟨.hbm, 90, rfl⟩
abbrev main_v54 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v55 : Ref sig .tc := ⟨.hbm, 113, rfl⟩
abbrev main_cst_11 : Ref sig .tc := ⟨.hbm, 114, rfl⟩
abbrev main_v56 : Ref sig .tc := ⟨.hbm, 115, rfl⟩
abbrev main_cst_12 : Ref sig .tc := ⟨.hbm, 116, rfl⟩
abbrev main_v57 : Ref sig .tc := ⟨.hbm, 117, rfl⟩
abbrev main_v58 : Ref sig .tc := ⟨.hbm, 118, rfl⟩
abbrev main_cst_13 : Ref sig .tc := ⟨.hbm, 119, rfl⟩
abbrev main_v59 : Ref sig .tc := ⟨.hbm, 120, rfl⟩
abbrev main_cst_14 : Ref sig .tc := ⟨.hbm, 121, rfl⟩
abbrev main_v60 : Ref sig .tc := ⟨.hbm, 122, rfl⟩
abbrev main_v61 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v36 : BitVec 1 := Scalar.cmpi .eq arg0 c7_i32
  let arg1 : BitVec 32 := BitVec.ofNat 32 (i 1).val
  let c7_i32_16 : BitVec 32 := 7#32
  let v37 : BitVec 1 := Scalar.cmpi .eq arg1 c7_i32_16
  let v38 : BitVec 1 := Scalar.andi v36 v37
  let v39 : BitVec 32 := Scalar.extui v38
  let c0_i32_17 : BitVec 32 := 0#32
  let v40 : BitVec 1 := Scalar.cmpi .ne v39 c0_i32_17
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  inb_S512x768_S512x768_0_0 : ∀ a, (![0, 0] : Fin 2 → Nat) a + S512x768.size a ≤ S512x768.size a
  h_S512x768 : 0 < S512x768.numel
  reduces_S512x768_S512 : S512x768.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x768_p1_0_S768x512 : S512x768.Transposes [1, 0] S768x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S_S1x2048 : S_.BroadcastsInDim S1x2048 (![] : Fin 0 → Fin S1x2048.rank)
  natLt_1_32 : 1 < 32
  reducesTo_S16x2048_S16_d1 : S16x2048.ReducesTo [1] S16
  h_S_ : 0 < S_.numel
  bcast_S_S16 : S_.BroadcastsInDim S16 (![] : Fin 0 → Fin S16.rank)
  transposes_S2048x16_S16x2048_1_0 : S2048x16.Transposes [1, 0] S16x2048
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S256x256_S1x256x256 : S256x256.ShapeCasts S1x256x256
  shapeCasts_S16x256_S16x256x1 : S16x256.ShapeCasts S16x256x1
  broadcasts_S1x256x256_S16x256x256 : S1x256x256.Broadcasts S16x256x256
  broadcasts_S16x256x1_S16x256x256 : S16x256x1.Broadcasts S16x256x256
  shapeCasts_S16x256_S16x1x256 : S16x256.ShapeCasts S16x1x256
  broadcasts_S16x1x256_S16x256x256 : S16x1x256.Broadcasts S16x256x256
  reduces_S16x256x256_S16x256 : S16x256x256.Reduces [2] S16x256
  reduces_S16x256_S16 : S16x256.Reduces [1] S16
  shapeCasts_S16_S1x16 : S16.ShapeCasts S1x16
  shapeCasts_S1x16_S16 : S1x16.ShapeCasts S16
  reducesTo_S16_S_d0 : S16.ReducesTo [0] S_
  reducesTo_S2048x2_S2048_d1 : S2048x2.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2_0_1 : S2048x1.BroadcastsInDim S2048x2 (![0, 1] : Fin 2 → Fin S2048x2.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  reducesTo_S2048x1_S_d0_1 : S2048x1.ReducesTo [0, 1] S_
  dot_S512x768_S768x512_S512x512_1_0_0_1_n_n_wf : DotDims.WF S512x768 S768x512 S512x512 [1] [0] [0] [1] [] []
  gather_S2048x2048_S16x1_S2048x16_0_1_n_n_1_1_20481_wf : GatherDims.WF S2048x2048 S16x1 S2048x16 [0] [1] [] [1] [] 1 ![2048, 1]
  gather_S2048x2_S2048x1x1_S2048x1_n_1_0_0_1_2_11_wf : GatherDims.WF S2048x2 S2048x1x1 S2048x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S2048x768.size a
  hwx0_0 : ∀ i : grid0.Coords, EltTy.bits .f32 = 32 ∨ (Rect.block (s := S2048x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S2048x768.size a
  hwx0_1 : ∀ i : grid0.Coords, EltTy.bits .f32 = 32 ∨ (Rect.block (s := S2048x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S2048x2048.size a
  hwx1_0 : ∀ i : grid1.Coords, EltTy.bits .f32 = 32 ∨ (Rect.block (s := S2048x2048) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S16x2048.size a
  hwx1_1 : ∀ i : grid1.Coords, EltTy.bits .f32 = 32 ∨ (Rect.block (s := S16x2048) S16x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x2048.size a
  hwx1_2 : ∀ i : grid1.Coords, EltTy.bits .f32 = 32 ∨ (Rect.block (s := S16x2048) S16x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x2048.size a
  hwx1_3 : ∀ i : grid1.Coords, EltTy.bits .f32 = 32 ∨ (Rect.block (s := S16x2048) S16x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S2048x2048_S16x1_S2048x16_0_1_n_n_1_1_20481 : GatherDims S2048x2048 S16x1 S2048x16 where
  offsetDims := [0]
  collapsedSliceDims := [1]
  operandBatchingDims := []
  startIndicesBatchingDims := []
  startIndexMap := [1]
  indexVectorDim := 1
  sliceSizes := ![2048, 1]
  wf := gather_S2048x2048_S16x1_S2048x16_0_1_n_n_1_1_20481_wf
def gather_S2048x2_S2048x1x1_S2048x1_n_1_0_0_1_2_11 : GatherDims S2048x2 S2048x1x1 S2048x1 where
  offsetDims := []
  collapsedSliceDims := [1]
  operandBatchingDims := [0]
  startIndicesBatchingDims := [0]
  startIndexMap := [1]
  indexVectorDim := 2
  sliceSizes := ![1, 1]
  wf := gather_S2048x2_S2048x1x1_S2048x1_n_1_0_0_1_2_11_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S16x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S16x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x16.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2048x768 : Shape := ⟨2, ![2048, 768]⟩
abbrev S2048x2 : Shape := ⟨2, ![2048, 2]⟩
abbrev S2048 : Shape := ⟨1, ![2048]⟩
abbrev S_ : Shape := ⟨0, ![]⟩
abbrev S768x2048 : Shape := ⟨2, ![768, 2048]⟩
abbrev S2048x2048 : Shape := ⟨2, ![2048, 2048]⟩
abbrev S2048x1 : Shape := ⟨2, ![2048, 1]⟩
abbrev S1x2048 : Shape := ⟨2, ![1, 2048]⟩
abbrev S16 : Shape := ⟨1, ![16]⟩
abbrev S16x1 : Shape := ⟨2, ![16, 1]⟩
abbrev S16x2048 : Shape := ⟨2, ![16, 2048]⟩
abbrev S2048x16 : Shape := ⟨2, ![2048, 16]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S1x2048x2048 : Shape := ⟨3, ![1, 2048, 2048]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 177
  | .vmem => 0
  | .smem => 0
  | _ => 0

abbrev hbmTy0_0 (i : Nat) : BufTy := match i % 128 with
  | 0 => ⟨S2048x768, .f32⟩
  | 1 => ⟨S2048x2, .f32⟩
  | 2 => ⟨S2048, .i32⟩
  | 3 => ⟨S2048, .i32⟩
  | 4 => ⟨S2048x768, .f32⟩
  | 5 => ⟨S_, .f32⟩
  | 6 => ⟨S2048, .f32⟩
  | 7 => ⟨S_, .f32⟩
  | 8 => ⟨S2048, .f32⟩
  | 9 => ⟨S768x2048, .f32⟩
  | 10 => ⟨S2048x2048, .f32⟩
  | 11 => ⟨S2048x1, .f32⟩
  | 12 => ⟨S1x2048, .f32⟩
  | 13 => ⟨S2048x2048, .f32⟩
  | 14 => ⟨S2048x2048, .f32⟩
  | 15 => ⟨S2048x2048, .f32⟩
  | 16 => ⟨S_, .f32⟩
  | 17 => ⟨S2048x2048, .f32⟩
  | 18 => ⟨S2048x2048, .f32⟩
  | 19 => ⟨S2048x2048, .f32⟩
  | 20 => ⟨S2048x1, .f32⟩
  | 21 => ⟨S1x2048, .f32⟩
  | 22 => ⟨S2048x2048, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S2048x2048, .f32⟩
  | 29 => ⟨S_, .f32⟩
  | 30 => ⟨S2048x2048, .f32⟩
  | 31 => ⟨S2048x2048, .f32⟩
  | 32 => ⟨S_, .f32⟩
  | 33 => ⟨S2048x2048, .f32⟩
  | 34 => ⟨S2048x2048, .f32⟩
  | 35 => ⟨S2048x2048, .f32⟩
  | 36 => ⟨S_, .f32⟩
  | 37 => ⟨S2048x2048, .f32⟩
  | 38 => ⟨S2048x2048, .f32⟩
  | 39 => ⟨S16, .i32⟩
  | 40 => ⟨S1x2048, .i32⟩
  | 41 => ⟨S16x1, .i32⟩
  | 42 => ⟨S16x2048, .i32⟩
  | 43 => ⟨S16x2048, .i32⟩
  | 44 => ⟨S16x2048, .i1⟩
  | 45 => ⟨S1x2048, .i32⟩
  | 46 => ⟨S_, .i32⟩
  | 47 => ⟨S1x2048, .i32⟩
  | 48 => ⟨S1x2048, .i1⟩
  | 49 => ⟨S16x2048, .i1⟩
  | 50 => ⟨S16x2048, .i1⟩
  | 51 => ⟨S1x2048, .i32⟩
  | 52 => ⟨S16x1, .i32⟩
  | 53 => ⟨S16x2048, .i32⟩
  | 54 => ⟨S16x2048, .i32⟩
  | 55 => ⟨S16x2048, .i1⟩
  | 56 => ⟨S1x2048, .i32⟩
  | 57 => ⟨S_, .i32⟩
  | 58 => ⟨S1x2048, .i32⟩
  | 59 => ⟨S1x2048, .i1⟩
  | 60 => ⟨S16x2048, .i1⟩
  | 61 => ⟨S16x2048, .i1⟩
  | 62 => ⟨S16x2048, .i32⟩
  | 63 => ⟨S_, .i32⟩
  | 64 => ⟨S16, .i32⟩
  | 65 => ⟨S16x2048, .i32⟩
  | 66 => ⟨S_, .i32⟩
  | 67 => ⟨S16, .i32⟩
  | 68 => ⟨S16x2048, .i32⟩
  | 69 => ⟨S_, .i1⟩
  | 70 => ⟨S_, .i32⟩
  | 71 => ⟨S16, .i1⟩
  | 72 => ⟨S16, .i32⟩
  | 73 => ⟨S_, .i32⟩
  | 74 => ⟨S16, .i32⟩
  | 75 => ⟨S16, .i1⟩
  | 76 => ⟨S_, .i32⟩
  | 77 => ⟨S16, .i32⟩
  | 78 => ⟨S16, .i32⟩
  | 79 => ⟨S16, .i32⟩
  | 80 => ⟨S16x1, .i32⟩
  | 81 => ⟨S2048x16, .f32⟩
  | 82 => ⟨S16x2048, .f32⟩
  | 83 => ⟨S16x2048x1, .i1⟩
  | 84 => ⟨S16x1x2048, .i1⟩
  | 85 => ⟨S16x2048x2048, .i1⟩
  | 86 => ⟨S16x2048x2048, .i1⟩
  | 87 => ⟨S16x2048x2048, .i1⟩
  | 88 => ⟨S1x2048x2048, .f32⟩
  | 89 => ⟨S_, .f32⟩
  | 90 => ⟨S1x2048x2048, .f32⟩
  | 91 => ⟨S1x2048x2048, .f32⟩
  | 92 => ⟨S16x2048x1, .f32⟩
  | 93 => ⟨S16x2048x2048, .f32⟩
  | 94 => ⟨S16x2048x2048, .f32⟩
  | 95 => ⟨S16x2048x2048, .f32⟩
  | 96 => ⟨S_, .f32⟩
  | 97 => ⟨S16x2048x2048, .f32⟩
  | 98 => ⟨S16x2048x2048, .f32⟩
  | 99 => ⟨S_, .f32⟩
  | 100 => ⟨S_, .f32⟩
  | 101 => ⟨S16x2048x2048, .f32⟩
  | 102 => ⟨S16x2048x2048, .f32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S_, .i32⟩
  | 117 => ⟨S16, .i32⟩
  | 118 => ⟨S16, .i1⟩
  | 119 => ⟨S_, .i32⟩
  | 120 => ⟨S16, .i32⟩
  | 121 => ⟨S16, .i1⟩
  | 122 => ⟨S16, .i1⟩
  | 123 => ⟨S_, .f32⟩
  | 124 => ⟨S_, .f32⟩
  | 125 => ⟨S16, .f32⟩
  | 126 => ⟨S16, .f32⟩
  | 127 => ⟨S_, .f32⟩
  | _ => ⟨S2048x768, .f32⟩

abbrev hbmTy0_1 (i : Nat) : BufTy := match i % 128 with
  | 0 => ⟨S_, .f32⟩
  | 1 => ⟨S_, .f32⟩
  | 2 => ⟨S2048, .f32⟩
  | 3 => ⟨S_, .f32⟩
  | 4 => ⟨S2048, .f32⟩
  | 5 => ⟨S2048, .f32⟩
  | 6 => ⟨S2048x1, .f32⟩
  | 7 => ⟨S2048x2, .f32⟩
  | 8 => ⟨S2048x2, .f32⟩
  | 9 => ⟨S2048x2, .f32⟩
  | 10 => ⟨S_, .f32⟩
  | 11 => ⟨S2048, .f32⟩
  | 12 => ⟨S2048x1, .f32⟩
  | 13 => ⟨S2048x1, .f32⟩
  | 14 => ⟨S2048x2, .f32⟩
  | 15 => ⟨S2048x2, .f32⟩
  | 16 => ⟨S2048x1, .i32⟩
  | 17 => ⟨S_, .i32⟩
  | 18 => ⟨S2048x1, .i32⟩
  | 19 => ⟨S2048x1, .i1⟩
  | 20 => ⟨S_, .i32⟩
  | 21 => ⟨S2048x1, .i32⟩
  | 22 => ⟨S2048x1, .i32⟩
  | 23 => ⟨S2048x1, .i32⟩
  | 24 => ⟨S2048x1x1, .i32⟩
  | 25 => ⟨S1, .i32⟩
  | 26 => ⟨S_, .i32⟩
  | 27 => ⟨S2048x1x1, .i32⟩
  | 28 => ⟨S2048x1x1, .i1⟩
  | 29 => ⟨S1x1x1, .i32⟩
  | 30 => ⟨S2048x1x1, .i32⟩
  | 31 => ⟨S2048x1x1, .i1⟩
  | 32 => ⟨S2048x1x1, .i1⟩
  | 33 => ⟨S_, .i1⟩
  | 34 => ⟨S2048x1, .i1⟩
  | 35 => ⟨S2048x1, .f32⟩
  | 36 => ⟨S_, .f32⟩
  | 37 => ⟨S2048x1, .f32⟩
  | 38 => ⟨S2048x1, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_c_8 : Ref sig .tc := ⟨.hbm, 66, rfl⟩
abbrev main_v52 : Ref sig .tc := ⟨.hbm, 67, rfl⟩
abbrev main_call0_v0 : Ref sig .tc := ⟨.hbm, 68, rfl⟩
abbrev main_call0_c : Ref sig .tc := ⟨.hbm, 69, rfl⟩
abbrev main_call0_c_0 : Ref sig .tc := ⟨.hbm, 70, rfl⟩
abbrev main_call0_v1_0 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_call1_v0 : Ref sig .tc := ⟨.hbm, 100, rfl⟩
abbrev main_call1_v1 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_c_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_c_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_20 : Ref sig .tc := ⟨.hbm, 123, rfl⟩
abbrev main_call2_v0 : Ref sig .tc := ⟨.hbm, 124, rfl⟩
abbrev main_call2_v1 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v93 : Ref sig .tc := ⟨.hbm, 143, rfl⟩
abbrev main_v94 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_c_1 : Ref sig .tc := ⟨.hbm, 153, rfl⟩
abbrev main_call4_c_2 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_c_3 : Ref sig .tc := ⟨.hbm, 161, rfl⟩
abbrev main_call4_v12 : Ref sig .tc := ⟨.hbm, 162, rfl⟩
abbrev main_call4_v13 : Ref sig .tc := ⟨.hbm, 163, rfl⟩
abbrev main_call4_cst : Ref sig .tc := ⟨.hbm, 164, rfl⟩
abbrev main_call4_v14 : Ref sig .tc := ⟨.hbm, 165, rfl⟩
abbrev main_v95 : Ref sig .tc := ⟨.hbm, 166, rfl⟩
abbrev main_cst_22 : Ref sig .tc := ⟨.hbm, 167, rfl⟩
abbrev main_v96 : Ref sig .tc := ⟨.hbm, 168, rfl⟩
abbrev main_cst_23 : Ref sig .tc := ⟨.hbm, 169, rfl⟩
abbrev main_v97 : Ref sig .tc := ⟨.hbm, 170, rfl⟩
abbrev main_v98 : Ref sig .tc := ⟨.hbm, 171, rfl⟩
abbrev main_cst_24 : Ref sig .tc := ⟨.hbm, 172, rfl⟩
abbrev main_v99 : Ref sig .tc := ⟨.hbm, 173, rfl⟩
abbrev main_cst_25 : Ref sig .tc := ⟨.hbm, 174, rfl⟩
abbrev main_v100 : Ref sig .tc := ⟨.hbm, 175, rfl⟩
abbrev main_v101 : Ref sig .tc := ⟨.hbm, 176, rfl⟩

abbrev nD : Nat := 1
abbrev τ : Topo := Topo.v7x

variable {F : FTy → Type} [FloatOps F]

class Facts₀ : Prop where
  reducesTo_S2048x768_S2048_d1 : S2048x768.ReducesTo [1] S2048
  h_S_ : 0 < S_.numel
  transposes_S2048x768_S768x2048_1_0 : S2048x768.Transposes [1, 0] S768x2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S_S1x2048 : S_.BroadcastsInDim S1x2048 (![] : Fin 0 → Fin S1x2048.rank)
  natLt_1_32 : 1 < 32
  reducesTo_S16x2048_S16_d1 : S16x2048.ReducesTo [1] S16
  bcast_S_S16 : S_.BroadcastsInDim S16 (![] : Fin 0 → Fin S16.rank)
  transposes_S2048x16_S16x2048_1_0 : S2048x16.Transposes [1, 0] S16x2048
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S2048x2048_S1x2048x2048_1_2 : S2048x2048.BroadcastsInDim S1x2048x2048 (![1, 2] : Fin 2 → Fin S1x2048x2048.rank)
  bcast_S_S1x2048x2048 : S_.BroadcastsInDim S1x2048x2048 (![] : Fin 0 → Fin S1x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16_d1_2 : S16x2048x2048.ReducesTo [1, 2] S16
  reducesTo_S16_S_d0 : S16.ReducesTo [0] S_
  reducesTo_S2048x2_S2048_d1 : S2048x2.ReducesTo [1] S2048
  bcast_S_S2048 : S_.BroadcastsInDim S2048 (![] : Fin 0 → Fin S2048.rank)
  bcast_S2048x1_S2048x2_0_1 : S2048x1.BroadcastsInDim S2048x2 (![0, 1] : Fin 2 → Fin S2048x2.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  reducesTo_S2048x1_S_d0_1 : S2048x1.ReducesTo [0, 1] S_
  dot_S2048x768_S768x2048_S2048x2048_1_0_0_1_n_n_wf : DotDims.WF S2048x768 S768x2048 S2048x2048 [1] [0] [0] [1] [] []
  gather_S2048x2048_S16x1_S2048x16_0_1_n_n_1_1_20481_wf : GatherDims.WF S2048x2048 S16x1 S2048x16 [0] [1] [] [1] [] 1 ![2048, 1]
  gather_S2048x2_S2048x1x1_S2048x1_n_1_0_0_1_2_11_wf : GatherDims.WF S2048x2 S2048x1x1 S2048x1 [] [1] [0] [1] [0] 2 ![1, 1]

variable [Facts₀]

def dot_S2048x768_S768x2048_S2048x2048_1_0_0_1_n_n : DotDims S2048x768 S768x2048 S2048x2048 where
  lhsContracting := [1]
  rhsContracting := [0]
  lhsNonContracting := [0]
  rhsNonContracting := [1]
  lhsBatch := []
  rhsBatch := []
  wf := dot_S2048x768_S768x2048_S2048x2048_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S2048x2048_S16x1_S2048x16_0_1_n_n_1_1_20481 : GatherDims S2048x2048 S16x1 S2048x16 where
  offsetDims := [0]
  collapsedSliceDims := [1]
  operandBatchingDims := []
  startIndicesBatchingDims := []
  startIndexMap := [1]
  indexVectorDim := 1
  sliceSizes := ![2048, 1]
  wf := gather_S2048x2048_S16x1_S2048x16_0_1_n_n_1_1_20481_wf
def gather_S2048x2_S2048x1x1_S2048x1_n_1_0_0_1_2_11 : GatherDims S2048x2 S2048x1x1 S2048x1 where
  offsetDims := []
  collapsedSliceDims := [1]
  operandBatchingDims := [0]
  startIndicesBatchingDims := [0]
  startIndexMap := [1]
  indexVectorDim := 2
  sliceSizes := ![1, 1]
  wf := gather_S2048x2_S2048x1x1_S2048x1_n_1_0_0_1_2_11_wf

class Facts : Prop extends Facts₀ where

variable [Facts]
-- ==== Proof.SharedArrays.lean ====
/-
  Two input windows on one array. Both pallas_calls hand one array to two of their input windows (the rows of x read
  as row block i and as row block j; the membership weights read at columns i and at columns j). The launch holds every
  unscoped buffer whole; a pipeline wants each window's array at that window's share. So at a region's entry the shared
  array's full share is cut in its two halves, one per window, and at the exit the halves — both still at the entry
  contents, inputs being only read — are joined back; the other arrays pass at the full share.
-/
import proofs.«148920_j31516470018602_1_alg».proof.Proof.Gen.KernelIdeal.Launch
import Idealize.ShloMosaic.Lib.Pipeline.Frame
import Idealize.ShloMosaic.Lib.Pipeline.Regions
import Idealize.ShloMosaic.Lib.Pipeline.RegionsLoop
import Idealize.ShloMosaic.Lib.Tactic

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind region 0's three windows: the rows' array (twice) and the distance matrix. -/
theorem image0 : (Finset.univ.image (Pipeline.arrRef spec0) : Finset (Ref sig .tc)) = {main_arg0, main_v0} := by decide
/-- The buffers behind region 1's five windows: the distance matrix, the weights (twice), the anchor distances, the sums. -/
theorem image1 : (Finset.univ.image (Pipeline.arrRef spec1) : Finset (Ref sig .tc)) = {main_v0, main_v35, main_v34, main_v46} := by decide

section R0
variable (c : Dev nD) (dat : Dat τ (Elt F) Unit ℕ (UR sig nD τ) ℕ cfg0 c)
  (hq0 : dat.q 0 = fullShare.left) (hq1 : dat.q 1 = fullShare.right)
include hq0 hq1

theorem share0_0 : dat.share 0 = fullShare.left := by unfold Pipeline.Dat.share; rw [if_neg (by decide)]; exact hq0
theorem share0_1 : dat.share 1 = fullShare.right := by unfold Pipeline.Dat.share; rw [if_neg (by decide)]; exact hq1
omit hq0 hq1 in
theorem share0_2 : dat.share 2 = fullShare := by unfold Pipeline.Dat.share; rw [if_pos (by decide)]

/-- ENTRY: the two buffers whole make region 0's arrays at the windows' shares, the rows' array cut in halves. -/
theorem hsplit0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  obtain rfl : G = fun w => V (Pipeline.arrRef spec0 w) := funext hG
  unfold Pipeline.Dat.arrays Pipeline.arrBufs
  rw [bigSep_W0, image0, bigSep_insert (by decide), bigSep_singleton,
    share0_0 c dat hq0 hq1, share0_1 c dat hq0 hq1, share0_2 c dat,
    (arr_whole0 0).set_eq_univ, (arr_whole0 2).set_eq_univ]
  exact (sep_mono (pointsTo_share (PosShare.mem_left_op_right fullShare)).1 .rfl).trans sep_assoc.1

/-- EXIT: region 0's arrays at the windows' shares make the two buffers whole, the halves joined. -/
theorem hjoin0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G ⊢ (Pipeline.arrBufs (Ix := Unit) (Name := ℕ) (U := UR sig nD τ) (Lvl := ℕ) spec0 c V : sProp 𝕄) := by
  obtain rfl : G = fun w => V (Pipeline.arrRef spec0 w) := funext hG
  unfold Pipeline.Dat.arrays Pipeline.arrBufs
  rw [bigSep_W0, image0, bigSep_insert (by decide), bigSep_singleton,
    share0_0 c dat hq0 hq1, share0_1 c dat hq0 hq1, share0_2 c dat,
    (arr_whole0 0).set_eq_univ, (arr_whole0 2).set_eq_univ]
  exact sep_assoc.2.trans (sep_mono (pointsTo_share (PosShare.mem_left_op_right fullShare)).2 .rfl)

end R0

theorem nmem1_a : main_v0 ∉ ({main_v35, main_v34, main_v46} : Finset (Ref sig .tc)) := by
  simp only [Finset.mem_insert, Finset.mem_singleton, not_or]; exact ⟨by decide, by decide, by decide⟩
theorem nmem1_b : main_v35 ∉ ({main_v34, main_v46} : Finset (Ref sig .tc)) := by
  simp only [Finset.mem_insert, Finset.mem_singleton, not_or]; exact ⟨by decide, by decide⟩
theorem nmem1_c : main_v34 ∉ ({main_v46} : Finset (Ref sig .tc)) := by
  simp only [Finset.mem_singleton]; decide

section R1
variable (c : Dev nD) (dat : Dat τ (Elt F) Unit ℕ (UR sig nD τ) ℕ cfg1 c)
  (hq0 : dat.q 0 = fullShare) (hq1 : dat.q 1 = fullShare.left) (hq2 : dat.q 2 = fullShare.right) (hq3 : dat.q 3 = fullShare)
include hq0 hq1 hq2 hq3

theorem share1_0 : dat.share 0 = fullShare := by unfold Pipeline.Dat.share; rw [if_neg (by decide)]; exact hq0
theorem share1_1 : dat.share 1 = fullShare.left := by unfold Pipeline.Dat.share; rw [if_neg (by decide)]; exact hq1
theorem share1_2 : dat.share 2 = fullShare.right := by unfold Pipeline.Dat.share; rw [if_neg (by decide)]; exact hq2
theorem share1_3 : dat.share 3 = fullShare := by unfold Pipeline.Dat.share; rw [if_neg (by decide)]; exact hq3
omit hq0 hq1 hq2 hq3 in
theorem share1_4 : dat.share 4 = fullShare := by unfold Pipeline.Dat.share; rw [if_pos (by decide)]

set_option maxHeartbeats 2000000 in
/-- ENTRY: the four buffers whole make region 1's arrays at the windows' shares, the weights' array cut in halves. -/
theorem hsplit1 (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ dat.arrays G := by
  obtain rfl : G = fun w => V (Pipeline.arrRef spec1 w) := funext hG
  unfold Pipeline.Dat.arrays Pipeline.arrBufs
  rw [bigSep_W1, image1, bigSep_insert nmem1_a, bigSep_insert nmem1_b, bigSep_insert nmem1_c, bigSep_singleton,
    share1_0 c dat hq0 hq1 hq2 hq3, share1_1 c dat hq0 hq1 hq2 hq3, share1_2 c dat hq0 hq1 hq2 hq3, share1_3 c dat hq0 hq1 hq2 hq3, share1_4 c dat,
    (arr_whole1 0).set_eq_univ, (arr_whole1 1).set_eq_univ, (arr_whole1 3).set_eq_univ, (arr_whole1 4).set_eq_univ]
  exact sep_mono .rfl ((sep_mono (pointsTo_share (PosShare.mem_left_op_right fullShare)).1 .rfl).trans sep_assoc.1)

set_option maxHeartbeats 2000000 in
/-- EXIT: region 1's arrays at the windows' shares make the four buffers whole, the halves joined. -/
theorem hjoin1 (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G ⊢ (Pipeline.arrBufs (Ix := Unit) (Name := ℕ) (U := UR sig nD τ) (Lvl := ℕ) spec1 c V : sProp 𝕄) := by
  obtain rfl : G = fun w => V (Pipeline.arrRef spec1 w) := funext hG
  unfold Pipeline.Dat.arrays Pipeline.arrBufs
  rw [bigSep_W1, image1, bigSep_insert nmem1_a, bigSep_insert nmem1_b, bigSep_insert nmem1_c, bigSep_singleton,
    share1_0 c dat hq0 hq1 hq2 hq3, share1_1 c dat hq0 hq1 hq2 hq3, share1_2 c dat hq0 hq1 hq2 hq3, share1_3 c dat hq0 hq1 hq2 hq3, share1_4 c dat,
    (arr_whole1 0).set_eq_univ, (arr_whole1 1).set_eq_univ, (arr_whole1 3).set_eq_univ, (arr_whole1 4).set_eq_univ]
  exact sep_mono .rfl (sep_assoc.2.trans (sep_mono (pointsTo_share (PosShare.mem_left_op_right fullShare)).2 .rfl))

end R1

end Cert.KernelIdeal.HandRun

end
-- ==== Proof.Region0.lean ====
/- Region 0 of the idealized kernel program: the pairwise-distance kernel, one grid point at a time.
   At grid point (i, j) of the 4 x 4 grid the body reads row-block i and row-block j of the same
   2048 x 768 array (two windows on one array), and writes the 512 x 512 block (i, j) of the distance
   matrix: a function of the two row-blocks only.  Everything here is stated at an arbitrary content
   V of the TensorCore's buffers when the region is entered. -/
import proofs.«148920_j31516470018602_1_alg».proof.Proof.Gen.KernelIdeal.Launch
import proofs.«148920_j31516470018602_1_alg».proof.Proof.Gen.KernelIdeal.Skeleton
import proofs.«148920_j31516470018602_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block of the array at every point, whether the block was
    fetched at that point or kept from the previous one (its index then has not moved): window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store move a whole block -/

/-- The whole 512 x 768 input block. -/
abbrev rIn : Rect S512x768 := Rect.unit (s := S512x768) ![0, 0] S512x768.size inb_S512x768_S512x768_0_0
/-- The whole 512 x 512 output block. -/
abbrev rOut : Rect S512x512 := Rect.unit (s := S512x512) ![0, 0] S512x512.size inb_S512x512_S512x512_0_0

/-! ## What the body leaves in the output window's buffer -/

/-- The output block after the body, from the two input blocks: the one store, of the body's arithmetic
    applied to the two loaded blocks. -/
def out0_2 (x0 : Vec F S512x768 .f32) (x1 : Vec F S512x768 .f32) : Vec F S512x512 .f32 :=
  View.canon [⟨rOut, k0_pay1 (View.ld x0 rIn) (View.ld x1 rIn)⟩]

/-- The store covers the whole output block. -/
theorem cover0_2 (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

/-! ## The body's triple -/

set_option maxHeartbeats 1000000 in
/-- The body on whole staging buffers — the two inputs' at contents x0, x1, the output's at anything — runs
    to the end without a fault, leaves the inputs as they were and the output at out0_2 x0 x1. -/
theorem sound_kernel0 (c : Dev nD) (E : Set ℕ) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole)
    (x0 : Vec F S512x768 .f32) (x1 : Vec F S512x768 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core c: the arrays as the region finds them; after the body at point t
    each input's buffer still holds its block and the output's holds out0_2 of the two input blocks; the
    invariant is the untouched rest; nothing is owed.  Windows 0 and 1 read ONE array: each holds one half
    of its share; the output array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The shares held of the arrays, window by window. -/
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.Region1Runs.lean ====
import proofs.«148920_j31516470018602_1_alg».proof.Proof.Gen.KernelIdeal.Launch
import proofs.«148920_j31516470018602_1_alg».proof.Proof.Gen.KernelIdeal.Skeleton
import proofs.«148920_j31516470018602_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call (the masked hinge sums), at the contents `V` its region is entered with

What the three control cases of its body share: the windows' blocks, the two conditions of the body in closed
form over the 8 × 8 grid, where the output window is idle, and the buffers the body is called on. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the
    pipeline does not fetch, the block index has not moved since the last fetch, and the body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the
    pipeline does not fetch, the block index has not moved since the last fetch, and the body leaves the block in
    place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the
    pipeline does not fetch, the block index has not moved since the last fetch, and the body leaves the block in
    place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the
    pipeline does not fetch, the block index has not moved since the last fetch, and the body leaves the block in
    place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition of the body: the point is the grid's first, `(0, 0)` (there the accumulator is zeroed). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The second condition of the body: the point is the grid's last, `(7, 7)` (there the accumulator is copied out). -/
abbrev cond1_1 (i : grid1.Coords) : Prop := k1_cond2 i = 1#1
/-- It holds at point 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output window is idle: the body stores nothing into it, -/
theorem idleAt1_4 : ∀ t : Fin cfg1.N, ¬cond1_1 (grid1.coords t) → cfg1.idle 4 (grid1.coords t) = true := by decide +kernel
/-- and the pipeline does not write it back there. -/
theorem noFlush1_4 : ∀ t : Fin cfg1.N, ¬cond1_1 (grid1.coords t) → (cfg1.win 4).flush t = false := by decide +kernel
/-- At the last point the body stores into it. -/
theorem liveAt1_4 : ∀ t : Fin cfg1.N, cond1_1 (grid1.coords t) → cfg1.idle 4 (grid1.coords t) = false := by decide +kernel

/-! ## The buffers the body is called on -/

/-- The output window's one staging buffer, through which its contents are stated. -/
abbrev VO1_4 : View sig .tc .vmem S1x16 .f32 := (Memref.whole cc1_stg4_0 : Memref sig .tc .vmem S1x16 .f32).view
/-- Each window's current staging memref at point `t`, and its wholeness. -/
abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows and carried from point to point. -/
abbrev scM1_0 : Memref sig .tc .vmem S1x16 .f32 := Memref.whole cc1_scratch0
abbrev VS1_0 : View sig .tc .vmem S1x16 .f32 := scM1_0.view

/-- A scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The scoped buffers no window of this call stages: the six staging buffers of the first call, each at some
    contents, and the accumulator, owned as a memref at some contents. -/
theorem scoped1_eq (c : Dev nD) :
    (Pipeline.scopedRest (Ix := Unit) (Name := ℕ) (U := UR sig nD τ) (Lvl := ℕ) (Val := Elt F) spec1 c : sProp 𝕄)
      = iprop(anyBuf c cc0_stg0_0 ∗ anyBuf c cc0_stg0_1 ∗ anyBuf c cc0_stg1_0 ∗ anyBuf c cc0_stg1_1 ∗ anyBuf c cc0_stg2_0 ∗ anyBuf c cc0_stg2_1
          ∗ (∃ d, owns (c : Thread nD τ) scM1_0 fullShare d)) := by
  rw [scopedRest1_eq]; simp only [scM1_0, owns_whole]; rfl

end Cert.KernelIdeal.Hand1

end
-- ==== Proof.Region1RunA.lean ====
import proofs.«148920_j31516470018602_1_alg».proof.Proof.Region1Runs

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's FIRST point (the first condition holds, the second does not): on whole memrefs — the four
    inputs' at their contents, the output's at contents it hands back untouched, the accumulator at anything — it runs to
    the continuation holding the inputs and the output as they were and the accumulator with its stores written (the
    zeros, then the first tile's sums added to what is read back): the pieces are what the run finds. -/
noncomputable def kernelRun1_A (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) :
    Σ' (L4 : List (View.Piece (Elt F) S1x16 .f32)), { LS0 : List (View.Piece (Elt F) S1x16 .f32) //
      ∀ (xi4 : Vec F S1x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hinge_kernel i arg2 harg2 arg3 harg3 arg4 harg4 arg5 harg5 arg6 harg6 arg7 harg7) K } := by
  refine ⟨[], ?_, fun xi4 E K => ?run⟩
  case run =>
    haveI : Fact (cond1_0 i) := ⟨hc0⟩
    haveI : Fact (¬cond1_1 i) := ⟨hc1⟩
    simp only [cc1__hinge_kernel_eq_skeleton]; unfold cc1__hinge_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand1

end
-- ==== Proof.Region1RunB.lean ====
import proofs.«148920_j31516470018602_1_alg».proof.Proof.Region1RunA

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point that is neither the first nor the last (neither condition holds): on whole memrefs — the four
    inputs' at their contents, the output's at contents it hands back untouched, the accumulator at what the point before
    left (`xs0`) — it runs to the continuation holding the inputs and the output as they were and the accumulator with its
    one store written (the tile's sums added to `xs0`). -/
noncomputable def kernelRun1_B (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) :
    Σ' (L4 : List (View.Piece (Elt F) S1x16 .f32)), { LS0 : List (View.Piece (Elt F) S1x16 .f32) //
      ∀ (xi4 : Vec F S1x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hinge_kernel i arg2 harg2 arg3 harg3 arg4 harg4 arg5 harg5 arg6 harg6 arg7 harg7) K } := by
  refine ⟨[], ?_, fun xi4 E K => ?run⟩
  case run =>
    haveI : Fact (¬cond1_0 i) := ⟨hc0⟩
    haveI : Fact (¬cond1_1 i) := ⟨hc1⟩
    simp only [cc1__hinge_kernel_eq_skeleton]; unfold cc1__hinge_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand1

end
-- ==== Proof.Region1RunC.lean ====
import proofs.«148920_j31516470018602_1_alg».proof.Proof.Region1RunB

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's LAST point (the second condition holds, the first does not): on whole memrefs — the four
    inputs' at their contents, the output's at anything, the accumulator at what the point before left (`xs0`) — it runs
    to the continuation holding the inputs as they were, the accumulator with its one store written (the last tile's sums
    added to `xs0`) and the output's buffer with its one store written (the accumulator read back). -/
noncomputable def kernelRun1_C (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) :
    Σ' (L4 : List (View.Piece (Elt F) S1x16 .f32)), { LS0 : List (View.Piece (Elt F) S1x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__hinge_kernel i arg2 harg2 arg3 harg3 arg4 harg4 arg5 harg5 arg6 harg6 arg7 harg7) K } := by
  refine ⟨?_, ?_, fun E K => ?run⟩
  case run =>
    haveI : Fact (¬cond1_0 i) := ⟨hc0⟩
    haveI : Fact (cond1_1 i) := ⟨hc1⟩
    simp only [cc1__hinge_kernel_eq_skeleton]; unfold cc1__hinge_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand1

end
-- ==== Proof.Region1.lean ====
import proofs.«148920_j31516470018602_1_alg».proof.Proof.Region1RunC

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: its proof data and body obligation at the entry contents `V`

The body keeps a `[1,16]` accumulator between grid points: zeroed at the first point, at every point increased by
the tile's masked hinge sums, and at the last point copied to the output window's staging buffer, which is written
back there and nowhere else. Three control cases: the first point (A), a middle point (B), the last point (C). -/

/-! ## What each case leaves -/

/-- What case A leaves in the output's staging buffer: its pieces read back (none: a placeholder nothing consults, the window being idle and not written back there). -/
def out1_A_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) : Vec F S1x16 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for the accumulator (each a store of the whole `[1,16]` buffer) cover it. -/
theorem scover1_A_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) (y : S1x16.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x16.size (by sl_kernel_rfl) y

/-- What case A leaves in the accumulator: its pieces read back. -/
def sout1_A_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) : Vec F S1x16 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case B leaves in the output's staging buffer: its pieces read back (none: a placeholder nothing consults, the window being idle and not written back there). -/
def out1_B_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) : Vec F S1x16 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's pieces for the accumulator (each a store of the whole `[1,16]` buffer) cover it. -/
theorem scover1_B_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) (y : S1x16.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x16.size (by sl_kernel_rfl) y

/-- What case B leaves in the accumulator: its pieces read back. -/
def sout1_B_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) : Vec F S1x16 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- At the last point the output's pieces (one store of the whole `[1,16]` buffer) cover it. -/
theorem cover1_C_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) (y : S1x16.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x16.size (by sl_kernel_rfl) y

/-- What case C leaves in the output's staging buffer: its pieces read back. -/
def out1_C_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) : Vec F S1x16 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the accumulator (each a store of the whole `[1,16]` buffer) cover it. -/
theorem scover1_C_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) (y : S1x16.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x16.size (by sl_kernel_rfl) y

/-- What case C leaves in the accumulator: its pieces read back. -/
def sout1_C_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) : Vec F S1x16 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output's buffer and the accumulator hold after each point -/

/-- After the body at position `n`: the output's staging buffer (first component) and the accumulator (second): the case
    the position selects, run at the point's memrefs and input blocks, over the accumulator as position `n - 1` left it. -/
def outsAt1 (c : Dev nD) : (n : ℕ) → n < cfg1.N → Vec F S1x16 .f32 × Vec F S1x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 63 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at the first point. -/
theorem outsAt1_A (c : Dev nD) (t : Fin cfg1.N) (h0 : t.val = 0) (h1 : ¬t.val = 63) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (by exfalso; (try dsimp only at h0); omega)

/-- `outsAt1` at a middle point: over what the point before left. -/
theorem outsAt1_B (c : Dev nD) (t : Fin cfg1.N) (h0 : ¬t.val = 0) (h1 : ¬t.val = 63) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; exact h0 rfl)
  | succ n => exact (dif_neg h1).trans rfl

/-- `outsAt1` at the last point: over what the point before left. -/
theorem outsAt1_C (c : Dev nD) (t : Fin cfg1.N) (h0 : ¬t.val = 0) (h1 : t.val = 63) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; exact h0 rfl)
  | succ n => exact (dif_pos h1).trans rfl

/-- What the accumulator holds after the body at position `n`. -/
def acc1 (c : Dev nD) (n : ℕ) (hn : n < cfg1.N) : Vec F S1x16 .f32 := (outsAt1 V c n hn).2

/-! ## The region invariant -/

/-- The first call's six staging buffers, each at some contents: scoped buffers this call never touches. -/
abbrev stg6 (c : Dev nD) : sProp 𝕄 :=
  iprop(anyBuf c cc0_stg0_0 ∗ anyBuf c cc0_stg0_1 ∗ anyBuf c cc0_stg1_0 ∗ anyBuf c cc0_stg1_1 ∗ anyBuf c cc0_stg2_0 ∗ anyBuf c cc0_stg2_1)

/-- The invariant before position `n`: the scoped buffers no window stages and the generator register at some state —
    before the first point the accumulator at anything, afterwards at what the point before left in it. -/
def PhiS (c : Dev nD) : (n : ℕ) → n ≤ cfg1.N → sProp 𝕄
  | 0, _ => iprop(iprop(stg6 c ∗ (∃ d, owns (c : Thread nD τ) scM1_0 fullShare d)) ∗ (∃ r, prngReg c r))
  | n + 1, hn => iprop(iprop(stg6 c ∗ owns (c : Thread nD τ) scM1_0 fullShare ((outsAt1 V c n hn).2)) ∗ (∃ r, prngReg c r))

theorem PhiS_zero (c : Dev nD) (n : ℕ) (h : n ≤ cfg1.N) (hz : n = 0) :
    PhiS V c n h = iprop(iprop(stg6 c ∗ (∃ d, owns (c : Thread nD τ) scM1_0 fullShare d)) ∗ (∃ r, prngReg c r)) := by
  subst hz; rfl

theorem PhiS_succ (c : Dev nD) (n : ℕ) (hn : n < cfg1.N) :
    PhiS V c (n + 1) hn = iprop(iprop(stg6 c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(stg6 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second call on core `c`: the arrays as the region finds them (`V`); after the body at
    point `t` each input's buffer at its block and the output's at `outsAt1`'s first component; the invariant `PhiS`;
    nothing owed. The distance matrix and the two mask-derived arrays are held whole, except that windows 1 and 2
    read ONE array and hold a half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q w := match w with
    | ⟨0, _⟩ => fullShare
    | ⟨1, _⟩ => PosShare.left fullShare
    | ⟨2, _⟩ => PosShare.right fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the position says which case the point is in; the
    invariant hands the body the accumulator at what the point before left (at anything at the first point) and takes it
    back at this point's contents; the other scoped buffers, the generator register and the core's debts pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val = 0
  · have h1 : ¬t.val = 63 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    rw [PhiS_castSucc V c t, PhiS_zero V c _ _ h0]
    iintro ⟨⟨⟨Hst, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Hst HS0 Hg]
    · isplitl [Hst HS0]
      · isplitl [Hst]; · iexact Hst
        unfold owns; iexists _; isplitr
        swap; · iexact HS0
        ipureintro; exact View.read_writes_of_cover _ _ _ _ _ (scover1_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat1 V c).leavesExact 4 t = owns (c : Thread nD τ) (ms1_4 t) fullShare ((dat1 V c).after 4 t) from by
            unfold Dat.leavesExact; rw [liveAt1_4 t ((hcond1_1 t).mpr h1)], after1_4]
      rw [outsAt1_C V c t h0 h1]
      unfold out1_C_4 sout1_C_0; (try dsimp only)
      rw [PhiS_castSucc V c t, PhiS_pos V c _ _ h0]
      iintro ⟨⟨⟨Hst, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hst HS0 Hg]
      · isplitl [Hst HS0]
        · isplitl [Hst]; · iexact Hst
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS_castSucc V c t, PhiS_pos V c _ _ h0]
      iintro ⟨⟨⟨Hst, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hst HS0 Hg]
      · isplitl [Hst HS0]
        · isplitl [Hst]; · iexact Hst
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with — the generator register at some state and the scoped buffers no window stages —
    is the invariant before the first point. -/
theorem hin1 (c : Dev nD) :
    iprop((∃ r, prngReg c r) ∗ (Pipeline.scopedRest (Ix := Unit) (Name := ℕ) (U := UR sig nD τ) (Lvl := ℕ) (Val := Elt F) spec1 c : sProp 𝕄))
      ⊢ (dat1 V c).Φ 0 := by
  rw [show (dat1 V c).Φ 0 = PhiS V c 0 (Nat.zero_le _) from rfl, PhiS_zero V c 0 _ rfl, scoped1_eq]
  iintro ⟨Hg, G1, G2, G3, G4, G5, G6, HS⟩
  isplitr [Hg]
  · isplitr [HS]
    · isplitl [G1]; · iexact G1
      isplitl [G2]; · iexact G2
      isplitl [G3]; · iexact G3
      isplitl [G4]; · iexact G4
      isplitl [G5]; · iexact G5
      iexact G6
    iexact HS
  iexact Hg

/-- After the last point the invariant gives them back: the accumulator's named contents are forgotten. -/
theorem hout1 (c : Dev nD) :
    (dat1 V c).Φ (Fin.last cfg1.N)
      ⊢ iprop((∃ r, prngReg c r) ∗ (Pipeline.scopedRest (Ix := Unit) (Name := ℕ) (U := UR sig nD τ) (Lvl := ℕ) (Val := Elt F) spec1 c : sProp 𝕄)) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), scoped1_eq]
  iintro ⟨⟨⟨G1, G2, G3, G4, G5, G6⟩, HS0⟩, Hg⟩
  isplitl [Hg]; · iexact Hg
  isplitl [G1]; · iexact G1
  isplitl [G2]; · iexact G2
  isplitl [G3]; · iexact G3
  isplitl [G4]; · iexact G4
  isplitl [G5]; · iexact G5
  isplitl [G6]; · iexact G6
  iexists _; iexact HS0

end Cert.KernelIdeal.Hand1

end
-- ==== Proof.RunK.lean ====
/-
  The two pallas_calls as segments of the program's run, and the run itself.

  Between two items of the program every unscoped buffer of a core is held whole at a known valuation: the launch
  memory, then each host stretch applied, then — after a pallas_call — the call's result array replaced by what the
  pipeline's write-backs leave (the distance matrix after the first call; the sixteen cluster sums after the second).
  A pallas_call enters from that state (its windows' arrays cut out of the unscoped buffers, a shared array in halves),
  runs its pipeline, and leaves at the next valuation (the arrays put back, the halves joined). Chaining the twelve
  items gives: every weakly fair execution ends, nothing faults, and every unscoped buffer ends at the last valuation —
  in particular the arguments as launched and the result at the host tail applied to the second call's sums.
-/
import proofs.«148920_j31516470018602_1_alg».proof.Proof.Gen.KernelIdeal.Regions
import proofs.«148920_j31516470018602_1_alg».proof.Proof.SharedArrays
import proofs.«148920_j31516470018602_1_alg».proof.Proof.Region0
import proofs.«148920_j31516470018602_1_alg».proof.Proof.Region1
import Idealize.ShloMosaic.Lib.Pipeline.FrameBody
import Idealize.ShloMosaic.Lib.Pipeline.FrameSuffix
import Idealize.ShloMosaic.Lib.Ring

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)
open Cert.KernelIdeal.Hand0 (dat0 A_eq0 q0_0 q0_1 q0_2 body_obligation0)
open Cert.KernelIdeal.Hand1 (dat1 A_eq1 body_obligation1 hin1 hout1)

variable (m : (ℓ : Loc nD τ sig) → Buf (Elt F) ℓ)

/-! ## The contents the two calls leave, and the valuations between items -/

/-- What the first call is entered from: the launch memory. -/
abbrev VE0 : (c : Dev nD) → (b : Ref sig .tc) → Buf (Elt F) ((c : Thread nD τ).loc b) := fun c b => V0 m c b
/-- The distance matrix as the first call's write-backs leave it. -/
def X0 (c : Dev nD) : Buf (Elt F) ((c : Thread nD τ).loc main_v0) := (dat0 (VE0 m) c).arrAt 2 cfg0.N
/-- The unknowns of the generated valuations with the first call's result filled in. -/
def outsA : Outs (F := F) := fun _ r c => Function.update (fun r' : Ref sig .tc => m ((c : Thread nD τ).loc r')) main_v0 (X0 m c) r
/-- What the second call is entered from. -/
abbrev VE1 : (c : Dev nD) → (b : Ref sig .tc) → Buf (Elt F) ((c : Thread nD τ).loc b) := fun c b => V4 m (outsA m) c b
/-- The cluster sums as the second call's one write-back leaves them. -/
def X1 (c : Dev nD) : Buf (Elt F) ((c : Thread nD τ).loc main_v46) := (dat1 (VE1 m) c).arrAt 4 cfg1.N
/-- Both calls' results filled in. -/
def outs : Outs (F := F) := fun J r c => Function.update (fun r' : Ref sig .tc => outsA m J r' c) main_v46 (X1 m c) r

theorem outs_v0 (J : ℕ) (c : Dev nD) : outs m J main_v0 c = X0 m c := by
  unfold outs; rw [Function.update_of_ne (by decide)]; unfold outsA; rw [Function.update_self]
theorem outsA_v0 (J : ℕ) (c : Dev nD) : outsA m J main_v0 c = X0 m c := by
  unfold outsA; rw [Function.update_self]
theorem outs_v46 (J : ℕ) (c : Dev nD) : outs m J main_v46 c = X1 m c := by
  unfold outs; rw [Function.update_self]

/-- Up to the second call the valuations do not see its result. -/
theorem V4_outs (c : Dev nD) : V4 m (outs m) c = V4 m (outsA m) c := by
  show StableHlo.after hostOps1_2 (StableHlo.after hostOps1_1 (StableHlo.after hostOps1 (Function.update (V0 m c) main_v0 (outs m 1 main_v0 c))))
    = StableHlo.after hostOps1_2 (StableHlo.after hostOps1_1 (StableHlo.after hostOps1 (Function.update (V0 m c) main_v0 (outsA m 1 main_v0 c))))
  rw [outs_v0, outsA_v0]

/-! ## The proof data family and what rides along -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- Beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The first call as a segment -/

/-- At the first call's exit each of its arrays is what the next valuation holds there: the rows' array as launched
    (read twice), the distance matrix at the write-backs' result. -/
theorem hF0 (c : Dev nD) (w : Fin cfg0.W) :
    (pdats m 0 c).arrAt w cfg0.N = (fun b : Ref sig .tc => V1 m (outs m) c b) (Pipeline.arrRef spec0 w) :=
  match w with
  | ⟨0, _⟩ => (((pdats m 0 c).arrAt_in 0 rfl _).trans (A_eq0 (VE0 m) c 0)).trans (V1_of m (outs m) c main_arg0 (by decide)).symm
  | ⟨1, _⟩ => (((pdats m 0 c).arrAt_in 1 rfl _).trans (A_eq0 (VE0 m) c 1)).trans (V1_of m (outs m) c main_arg0 (by decide)).symm
  | ⟨2, _⟩ => by
      show X0 m c = Function.update (V0 m c) main_v0 (outs m 1 main_v0 c) main_v0
      rw [Function.update_self, outs_v0]
  | ⟨_ + 3, h⟩ => absurd h (Nat.not_lt.2 (Nat.le_add_left _ _))

theorem hrest0 (c : Dev nD) (b : Ref sig .tc) (hb : b ∉ Finset.univ.image (Pipeline.arrRef spec0)) :
    V1 m (outs m) c b = V0 m c b :=
  V1_of m (outs m) c b (by
    rw [image0] at hb
    simp only [Finset.mem_insert, Finset.mem_singleton, not_or] at hb
    simp only [List.mem_cons, List.not_mem_nil, or_false]
    exact hb.2)

set_option backward.isDefEq.respectTransparency.types false in
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit : (unscopedBufs (Ix := Unit) (Name := ℕ) (U := UR sig nD τ) (Lvl := ℕ) c (VE0 m c) : sProp 𝕄)
        ⊢ iprop((pdats m 0 c).arrays ((pdats m 0 c).arrAt · 0) ∗ Pipeline.unscopedRest spec0 c (VE0 m c)) := by
      rw [Pipeline.unscopedBufs_split₀ cfgs 0 winFacts₀0.arr_unscoped c (VE0 m c)]
      exact sep_mono (hsplit0 c (pdats m 0 c) (q0_0 (VE0 m) c) (q0_1 (VE0 m) c) (VE0 m c) _ (fun w => A_eq0 (VE0 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (VE0 m c))
        ⊢ (unscopedBufs (Ix := Unit) (Name := ℕ) (U := UR sig nD τ) (Lvl := ℕ) c (fun b : Ref sig .tc => V1 m (outs m) c b) : sProp 𝕄) := by
      rw [Pipeline.unscopedBufs_split₀ cfgs 0 winFacts₀0.arr_unscoped c (fun b : Ref sig .tc => V1 m (outs m) c b)]
      refine sep_mono (hjoin0 c (pdats m 0 c) (q0_0 (VE0 m) c) (q0_1 (VE0 m) c) (fun b : Ref sig .tc => V1 m (outs m) c b) _ (hF0 m c)) (Entails.of_eq ?_)
      unfold Pipeline.unscopedRest
      exact bigSep_congr fun b hb => by beta_reduce; rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment -/

/-- At the second call's exit each of its arrays is what the next valuation holds there: the four inputs as entered,
    the sums at the one write-back's result. -/
theorem hF1 (c : Dev nD) (w : Fin cfg1.W) :
    (pdats m 1 c).arrAt w cfg1.N = (fun b : Ref sig .tc => V5 m (outs m) c b) (Pipeline.arrRef spec1 w) :=
  match w with
  | ⟨0, _⟩ => (((pdats m 1 c).arrAt_in 0 rfl _).trans (A_eq1 (VE1 m) c 0)).trans
      ((V5_of m (outs m) c main_v0 (by decide)).trans (congrFun (V4_outs m c) _)).symm
  | ⟨1, _⟩ => (((pdats m 1 c).arrAt_in 1 rfl _).trans (A_eq1 (VE1 m) c 1)).trans
      ((V5_of m (outs m) c main_v35 (by decide)).trans (congrFun (V4_outs m c) _)).symm
  | ⟨2, _⟩ => (((pdats m 1 c).arrAt_in 2 rfl _).trans (A_eq1 (VE1 m) c 2)).trans
      ((V5_of m (outs m) c main_v35 (by decide)).trans (congrFun (V4_outs m c) _)).symm
  | ⟨3, _⟩ => (((pdats m 1 c).arrAt_in 3 rfl _).trans (A_eq1 (VE1 m) c 3)).trans
      ((V5_of m (outs m) c main_v34 (by decide)).trans (congrFun (V4_outs m c) _)).symm
  | ⟨4, _⟩ => by
      show X1 m c = Function.update (V4 m (outs m) c) main_v46 (outs m 5 main_v46 c) main_v46
      rw [Function.update_self, outs_v46]
  | ⟨_ + 5, h⟩ => absurd h (Nat.not_lt.2 (Nat.le_add_left _ _))

theorem hrest1 (c : Dev nD) (b : Ref sig .tc) (hb : b ∉ Finset.univ.image (Pipeline.arrRef spec1)) :
    V5 m (outs m) c b = VE1 m c b :=
  (V5_of m (outs m) c b (by
    rw [image1] at hb
    simp only [Finset.mem_insert, Finset.mem_singleton, not_or] at hb
    simp only [List.mem_cons, List.not_mem_nil, or_false]
    exact hb.2.2.2)).trans (congrFun (V4_outs m c) _)

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V4_outs m c]
    have hsplit : (unscopedBufs (Ix := Unit) (Name := ℕ) (U := UR sig nD τ) (Lvl := ℕ) c (VE1 m c) : sProp 𝕄)
        ⊢ iprop((pdats m 1 c).arrays ((pdats m 1 c).arrAt · 0) ∗ Pipeline.unscopedRest spec1 c (VE1 m c)) := by
      rw [Pipeline.unscopedBufs_split₀ cfgs 1 winFacts₀1.arr_unscoped c (VE1 m c)]
      exact sep_mono (hsplit1 c (pdats m 1 c) rfl rfl rfl rfl (VE1 m c) _ (fun w => A_eq1 (VE1 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 1).pre c (fun _ => fullShare) (adm 1).1 ∗ Pipeline.scopedRest (Pipeline.pin (pcfgs (F := F)) adm 1).spec c)
      ⊢ (iprop((∃ r, prngReg c r) ∗ Pipeline.scopedRest spec1 c) : sProp 𝕄) from by
        iintro ⟨Hp, -, Hr⟩
        isplitl [Hp]; · iexact Hp
        iexact Hr).trans (hin1 (VE1 m) c)
  hout c := (hout1 (VE1 m) c).trans (by
    rw [Pipeline.ownSems0_none]
    iintro ⟨Hp, Hr⟩
    isplitl [Hp]; · iexact Hp
    isplitr; · iempintro
    iexact Hr)
  hexit c := by
    have hjoin : iprop((pdats m 1 c).arrays ((pdats m 1 c).arrAt · cfg1.N) ∗ Pipeline.unscopedRest spec1 c (VE1 m c))
        ⊢ (unscopedBufs (Ix := Unit) (Name := ℕ) (U := UR sig nD τ) (Lvl := ℕ) c (fun b : Ref sig .tc => V5 m (outs m) c b) : sProp 𝕄) := by
      rw [Pipeline.unscopedBufs_split₀ cfgs 1 winFacts₀1.arr_unscoped c (fun b : Ref sig .tc => V5 m (outs m) c b)]
      refine sep_mono (hjoin1 c (pdats m 1 c) rfl rfl rfl rfl (fun b : Ref sig .tc => V5 m (outs m) c b) _ (hF1 m c)) (Entails.of_eq ?_)
      unfold Pipeline.unscopedRest
      exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch makes what rides along on every core. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The frame claim: from any launch memory with zero counters every weakly fair execution ends, nothing faults, and
    the four argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E (hE0 ρ)
    (fun c => by iintro ⟨-, HO⟩; iexact HO)
    (reg0 m) (fun _ => .rfl) (fun _ => .rfl) (reg1 m) (fun _ => .rfl) (fun _ => .rfl)

/-! ## The run, with every unscoped buffer's final contents -/

-- the launch theorem's implicit arguments are found by unifying its conclusion with this one, which takes unfolding plain
-- definitions in a metavariable's type
set_option backward.isDefEq.respectTransparency.types false in
/-- From any launch memory with zero counters every weakly fair execution ends, nothing faults, and every unscoped
    buffer of every core ends at the last valuation: the chain of the twelve items from the launch, the last thread
    state read against the final memory. -/
theorem run_full (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V12 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide)
    (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, .rfl,
      sep_mono .rfl (show E (F := F) 2 c ⊢ _ from by iintro ⟨-, HO⟩; iexact HO)⟩)
    (hinit := ?_)
    (QY := fun c s => ∀ b ∈ Pipeline.ucRefs τ sig, s.mem ((c : Thread nD τ).1, b) = V12 m (outs m) c b)
    (hfin := fun c s' => ?_) (hQ := fun _ h => h)
  · -- the launch: the unscoped buffers are held at the launch memory; the rest makes what rides along on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ [H]
    · iexact H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro; exact h
    · iexact HSI

end Cert.KernelIdeal.HandRun

end
-- ==== Proof.SharedArraysK.lean ====
/-
  Two input windows on one array. Both pallas_calls hand one array to two of their input windows (the rows of x read
  as row block i and as row block j; the membership weights read at columns i and at columns j). The launch holds every
  unscoped buffer whole; a pipeline wants each window's array at that window's share. So at a region's entry the shared
  array's full share is cut in its two halves, one per window, and at the exit the halves — both still at the entry
  contents, inputs being only read — are joined back; the other arrays pass at the full share.
-/
import proofs.«148920_j31516470018602_1_alg».proof.Proof.Gen.Kernel.Launch
import Idealize.ShloMosaic.Lib.Pipeline.Frame
import Idealize.ShloMosaic.Lib.Pipeline.Regions
import Idealize.ShloMosaic.Lib.Pipeline.RegionsLoop
import Idealize.ShloMosaic.Lib.Tactic

set_option maxRecDepth 16384

noncomputable section

namespace Cert.Kernel.HandRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind region 0's three windows: the rows' array (twice) and the distance matrix. -/
theorem image0 : (Finset.univ.image (Pipeline.arrRef spec0) : Finset (Ref sig .tc)) = {main_arg0, main_v0} := by decide
/-- The buffers behind region 1's five windows: the distance matrix, the weights (twice), the anchor distances, the sums. -/
theorem image1 : (Finset.univ.image (Pipeline.arrRef spec1) : Finset (Ref sig .tc)) = {main_v0, main_v35, main_v34, main_v46} := by decide

section R0
variable (c : Dev nD) (dat : Dat τ (Elt F) Unit ℕ (UR sig nD τ) ℕ cfg0 c)
  (hq0 : dat.q 0 = fullShare.left) (hq1 : dat.q 1 = fullShare.right)
include hq0 hq1

theorem share0_0 : dat.share 0 = fullShare.left := by unfold Pipeline.Dat.share; rw [if_neg (by decide)]; exact hq0
theorem share0_1 : dat.share 1 = fullShare.right := by unfold Pipeline.Dat.share; rw [if_neg (by decide)]; exact hq1
omit hq0 hq1 in
theorem share0_2 : dat.share 2 = fullShare := by unfold Pipeline.Dat.share; rw [if_pos (by decide)]

/-- ENTRY: the two buffers whole make region 0's arrays at the windows' shares, the rows' array cut in halves. -/
theorem hsplit0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  obtain rfl : G = fun w => V (Pipeline.arrRef spec0 w) := funext hG
  unfold Pipeline.Dat.arrays Pipeline.arrBufs
  rw [bigSep_W0, image0, bigSep_insert (by decide), bigSep_singleton,
    share0_0 c dat hq0 hq1, share0_1 c dat hq0 hq1, share0_2 c dat,
    (arr_whole0 0).set_eq_univ, (arr_whole0 2).set_eq_univ]
  exact (sep_mono (pointsTo_share (PosShare.mem_left_op_right fullShare)).1 .rfl).trans sep_assoc.1

/-- EXIT: region 0's arrays at the windows' shares make the two buffers whole, the halves joined. -/
theorem hjoin0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G ⊢ (Pipeline.arrBufs (Ix := Unit) (Name := ℕ) (U := UR sig nD τ) (Lvl := ℕ) spec0 c V : sProp 𝕄) := by
  obtain rfl : G = fun w => V (Pipeline.arrRef spec0 w) := funext hG
  unfold Pipeline.Dat.arrays Pipeline.arrBufs
  rw [bigSep_W0, image0, bigSep_insert (by decide), bigSep_singleton,
    share0_0 c dat hq0 hq1, share0_1 c dat hq0 hq1, share0_2 c dat,
    (arr_whole0 0).set_eq_univ, (arr_whole0 2).set_eq_univ]
  exact sep_assoc.2.trans (sep_mono (pointsTo_share (PosShare.mem_left_op_right fullShare)).2 .rfl)

end R0

theorem nmem1_a : main_v0 ∉ ({main_v35, main_v34, main_v46} : Finset (Ref sig .tc)) := by
  simp only [Finset.mem_insert, Finset.mem_singleton, not_or]; exact ⟨by decide, by decide, by decide⟩
theorem nmem1_b : main_v35 ∉ ({main_v34, main_v46} : Finset (Ref sig .tc)) := by
  simp only [Finset.mem_insert, Finset.mem_singleton, not_or]; exact ⟨by decide, by decide⟩
theorem nmem1_c : main_v34 ∉ ({main_v46} : Finset (Ref sig .tc)) := by
  simp only [Finset.mem_singleton]; decide

section R1
variable (c : Dev nD) (dat : Dat τ (Elt F) Unit ℕ (UR sig nD τ) ℕ cfg1 c)
  (hq0 : dat.q 0 = fullShare) (hq1 : dat.q 1 = fullShare.left) (hq2 : dat.q 2 = fullShare.right) (hq3 : dat.q 3 = fullShare)
include hq0 hq1 hq2 hq3

theorem share1_0 : dat.share 0 = fullShare := by unfold Pipeline.Dat.share; rw [if_neg (by decide)]; exact hq0
theorem share1_1 : dat.share 1 = fullShare.left := by unfold Pipeline.Dat.share; rw [if_neg (by decide)]; exact hq1
theorem share1_2 : dat.share 2 = fullShare.right := by unfold Pipeline.Dat.share; rw [if_neg (by decide)]; exact hq2
theorem share1_3 : dat.share 3 = fullShare := by unfold Pipeline.Dat.share; rw [if_neg (by decide)]; exact hq3
omit hq0 hq1 hq2 hq3 in
theorem share1_4 : dat.share 4 = fullShare := by unfold Pipeline.Dat.share; rw [if_pos (by decide)]

set_option maxHeartbeats 2000000 in
/-- ENTRY: the four buffers whole make region 1's arrays at the windows' shares, the weights' array cut in halves. -/
theorem hsplit1 (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ dat.arrays G := by
  obtain rfl : G = fun w => V (Pipeline.arrRef spec1 w) := funext hG
  unfold Pipeline.Dat.arrays Pipeline.arrBufs
  rw [bigSep_W1, image1, bigSep_insert nmem1_a, bigSep_insert nmem1_b, bigSep_insert nmem1_c, bigSep_singleton,
    share1_0 c dat hq0 hq1 hq2 hq3, share1_1 c dat hq0 hq1 hq2 hq3, share1_2 c dat hq0 hq1 hq2 hq3, share1_3 c dat hq0 hq1 hq2 hq3, share1_4 c dat,
    (arr_whole1 0).set_eq_univ, (arr_whole1 1).set_eq_univ, (arr_whole1 3).set_eq_univ, (arr_whole1 4).set_eq_univ]
  exact sep_mono .rfl ((sep_mono (pointsTo_share (PosShare.mem_left_op_right fullShare)).1 .rfl).trans sep_assoc.1)

set_option maxHeartbeats 2000000 in
/-- EXIT: region 1's arrays at the windows' shares make the four buffers whole, the halves joined. -/
theorem hjoin1 (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    dat.arrays G ⊢ (Pipeline.arrBufs (Ix := Unit) (Name := ℕ) (U := UR sig nD τ) (Lvl := ℕ) spec1 c V : sProp 𝕄) := by
  obtain rfl : G = fun w => V (Pipeline.arrRef spec1 w) := funext hG
  unfold Pipeline.Dat.arrays Pipeline.arrBufs
  rw [bigSep_W1, image1, bigSep_insert nmem1_a, bigSep_insert nmem1_b, bigSep_insert nmem1_c, bigSep_singleton,
    share1_0 c dat hq0 hq1 hq2 hq3, share1_1 c dat hq0 hq1 hq2 hq3, share1_2 c dat hq0 hq1 hq2 hq3, share1_3 c dat hq0 hq1 hq2 hq3, share1_4 c dat,
    (arr_whole1 0).set_eq_univ, (arr_whole1 1).set_eq_univ, (arr_whole1 3).set_eq_univ, (arr_whole1 4).set_eq_univ]
  exact sep_mono .rfl (sep_assoc.2.trans (sep_mono (pointsTo_share (PosShare.mem_left_op_right fullShare)).2 .rfl))

end R1

end Cert.Kernel.HandRun

end
-- ==== Proof.Region0K.lean ====
/- Region 0 of the word-level kernel program: the pairwise-distance kernel, one grid point at a time.
   At grid point (i, j) of the 4 x 4 grid the body reads row-block i and row-block j of the same
   2048 x 768 array (two windows on one array), and writes the 512 x 512 block (i, j) of the distance
   matrix: a function of the two row-blocks only.  Everything here is stated at an arbitrary content
   V of the TensorCore's buffers when the region is entered. -/
import proofs.«148920_j31516470018602_1_alg».proof.Proof.Gen.Kernel.Launch
import proofs.«148920_j31516470018602_1_alg».proof.Proof.Gen.Kernel.Skeleton
import proofs.«148920_j31516470018602_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block of the array at every point, whether the block was
    fetched at that point or kept from the previous one (its index then has not moved): window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store move a whole block -/

/-- The whole 512 x 768 input block. -/
abbrev rIn : Rect S512x768 := Rect.unit (s := S512x768) ![0, 0] S512x768.size inb_S512x768_S512x768_0_0
/-- The whole 512 x 512 output block. -/
abbrev rOut : Rect S512x512 := Rect.unit (s := S512x512) ![0, 0] S512x512.size inb_S512x512_S512x512_0_0

/-! ## What the body leaves in the output window's buffer -/

/-- The output block after the body, from the two input blocks: the one store, of the body's arithmetic
    applied to the two loaded blocks. -/
def out0_2 (x0 : Vec F S512x768 .f32) (x1 : Vec F S512x768 .f32) : Vec F S512x512 .f32 :=
  View.canon [⟨rOut, k0_pay1 (View.ld x0 rIn) (View.ld x1 rIn)⟩]

/-- The store covers the whole output block. -/
theorem cover0_2 (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

/-! ## The body's triple -/

set_option maxHeartbeats 1000000 in
/-- The body on whole staging buffers — the two inputs' at contents x0, x1, the output's at anything — runs
    to the end without a fault, leaves the inputs as they were and the output at out0_2 x0 x1. -/
theorem sound_kernel0 (c : Dev nD) (E : Set ℕ) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole)
    (x0 : Vec F S512x768 .f32) (x1 : Vec F S512x768 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core c: the arrays as the region finds them; after the body at point t
    each input's buffer still holds its block and the output's holds out0_2 of the two input blocks; the
    invariant is the untouched rest; nothing is owed.  Windows 0 and 1 read ONE array: each holds one half
    of its share; the output array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The shares held of the arrays, window by window. -/
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.Region1KRuns.lean ====
import proofs.«148920_j31516470018602_1_alg».proof.Proof.Gen.Kernel.Launch
import proofs.«148920_j31516470018602_1_alg».proof.Proof.Gen.Kernel.Skeleton
import proofs.«148920_j31516470018602_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call (the masked hinge sums), at the contents `V` its region is entered with

What the three control cases of its body share: the windows' blocks, the two conditions of the body in closed
form over the 8 × 8 grid, where the output window is idle, and the buffers the body is called on. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the
    pipeline does not fetch, the block index has not moved since the last fetch, and the body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where the
    pipeline does not fetch, the block index has not moved since the last fetch, and the body leaves the block in
    place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where the
    pipeline does not fetch, the block index has not moved since the last fetch, and the body leaves the block in
    place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where the
    pipeline does not fetch, the block index has not moved since the last fetch, and the body leaves the block in
    place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition of the body: the point is the grid's first, `(0, 0)` (there the accumulator is zeroed). -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The second condition of the body: the point is the grid's last, `(7, 7)` (there the accumulator is copied out). -/
abbrev cond1_1 (i : grid1.Coords) : Prop := k1_cond2 i = 1#1
/-- It holds at point 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output window is idle: the body stores nothing into it, -/
theorem idleAt1_4 : ∀ t : Fin cfg1.N, ¬cond1_1 (grid1.coords t) → cfg1.idle 4 (grid1.coords t) = true := by decide +kernel
/-- and the pipeline does not write it back there. -/
theorem noFlush1_4 : ∀ t : Fin cfg1.N, ¬cond1_1 (grid1.coords t) → (cfg1.win 4).flush t = false := by decide +kernel
/-- At the last point the body stores into it. -/
theorem liveAt1_4 : ∀ t : Fin cfg1.N, cond1_1 (grid1.coords t) → cfg1.idle 4 (grid1.coords t) = false := by decide +kernel

/-! ## The buffers the body is called on -/

/-- The output window's one staging buffer, through which its contents are stated. -/
abbrev VO1_4 : View sig .tc .vmem S1x16 .f32 := (Memref.whole cc1_stg4_0 : Memref sig .tc .vmem S1x16 .f32).view
/-- Each window's current staging memref at point `t`, and its wholeness. -/
abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows and carried from point to point. -/
abbrev scM1_0 : Memref sig .tc .vmem S1x16 .f32 := Memref.whole cc1_scratch0
abbrev VS1_0 : View sig .tc .vmem S1x16 .f32 := scM1_0.view

/-- A scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The scoped buffers no window of this call stages: the six staging buffers of the first call, each at some
    contents, and the accumulator, owned as a memref at some contents. -/
theorem scoped1_eq (c : Dev nD) :
    (Pipeline.scopedRest (Ix := Unit) (Name := ℕ) (U := UR sig nD τ) (Lvl := ℕ) (Val := Elt F) spec1 c : sProp 𝕄)
      = iprop(anyBuf c cc0_stg0_0 ∗ anyBuf c cc0_stg0_1 ∗ anyBuf c cc0_stg1_0 ∗ anyBuf c cc0_stg1_1 ∗ anyBuf c cc0_stg2_0 ∗ anyBuf c cc0_stg2_1
          ∗ (∃ d, owns (c : Thread nD τ) scM1_0 fullShare d)) := by
  rw [scopedRest1_eq]; simp only [scM1_0, owns_whole]; rfl

end Cert.Kernel.Hand1

end
-- ==== Proof.Region1KRunA.lean ====
import proofs.«148920_j31516470018602_1_alg».proof.Proof.Region1KRuns

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's FIRST point (the first condition holds, the second does not): on whole memrefs — the four
    inputs' at their contents, the output's at contents it hands back untouched, the accumulator at anything — it runs to
    the continuation holding the inputs and the output as they were and the accumulator with its stores written (the
    zeros, then the first tile's sums added to what is read back): the pieces are what the run finds. -/
noncomputable def kernelRun1_A (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) :
    Σ' (L4 : List (View.Piece (Elt F) S1x16 .f32)), { LS0 : List (View.Piece (Elt F) S1x16 .f32) //
      ∀ (xi4 : Vec F S1x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hinge_kernel i arg2 harg2 arg3 harg3 arg4 harg4 arg5 harg5 arg6 harg6 arg7 harg7) K } := by
  refine ⟨[], ?_, fun xi4 E K => ?run⟩
  case run =>
    haveI : Fact (cond1_0 i) := ⟨hc0⟩
    haveI : Fact (¬cond1_1 i) := ⟨hc1⟩
    simp only [cc1__hinge_kernel_eq_skeleton]; unfold cc1__hinge_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand1

end
-- ==== Proof.Region1KRunB.lean ====
import proofs.«148920_j31516470018602_1_alg».proof.Proof.Region1KRunA

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point that is neither the first nor the last (neither condition holds): on whole memrefs — the four
    inputs' at their contents, the output's at contents it hands back untouched, the accumulator at what the point before
    left (`xs0`) — it runs to the continuation holding the inputs and the output as they were and the accumulator with its
    one store written (the tile's sums added to `xs0`). -/
noncomputable def kernelRun1_B (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) :
    Σ' (L4 : List (View.Piece (Elt F) S1x16 .f32)), { LS0 : List (View.Piece (Elt F) S1x16 .f32) //
      ∀ (xi4 : Vec F S1x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__hinge_kernel i arg2 harg2 arg3 harg3 arg4 harg4 arg5 harg5 arg6 harg6 arg7 harg7) K } := by
  refine ⟨[], ?_, fun xi4 E K => ?run⟩
  case run =>
    haveI : Fact (¬cond1_0 i) := ⟨hc0⟩
    haveI : Fact (¬cond1_1 i) := ⟨hc1⟩
    simp only [cc1__hinge_kernel_eq_skeleton]; unfold cc1__hinge_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand1

end
-- ==== Proof.Region1KRunC.lean ====
import proofs.«148920_j31516470018602_1_alg».proof.Proof.Region1KRunB

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the grid's LAST point (the second condition holds, the first does not): on whole memrefs — the four
    inputs' at their contents, the output's at anything, the accumulator at what the point before left (`xs0`) — it runs
    to the continuation holding the inputs as they were, the accumulator with its one store written (the last tile's sums
    added to `xs0`) and the output's buffer with its one store written (the accumulator read back). -/
noncomputable def kernelRun1_C (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) :
    Σ' (L4 : List (View.Piece (Elt F) S1x16 .f32)), { LS0 : List (View.Piece (Elt F) S1x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__hinge_kernel i arg2 harg2 arg3 harg3 arg4 harg4 arg5 harg5 arg6 harg6 arg7 harg7) K } := by
  refine ⟨?_, ?_, fun E K => ?run⟩
  case run =>
    haveI : Fact (¬cond1_0 i) := ⟨hc0⟩
    haveI : Fact (cond1_1 i) := ⟨hc1⟩
    simp only [cc1__hinge_kernel_eq_skeleton]; unfold cc1__hinge_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand1

end
-- ==== Proof.Region1K.lean ====
import proofs.«148920_j31516470018602_1_alg».proof.Proof.Region1KRunC

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: its proof data and body obligation at the entry contents `V`

The body keeps a `[1,16]` accumulator between grid points: zeroed at the first point, at every point increased by
the tile's masked hinge sums, and at the last point copied to the output window's staging buffer, which is written
back there and nowhere else. Three control cases: the first point (A), a middle point (B), the last point (C). -/

/-! ## What each case leaves -/

/-- What case A leaves in the output's staging buffer: its pieces read back (none: a placeholder nothing consults, the window being idle and not written back there). -/
def out1_A_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) : Vec F S1x16 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for the accumulator (each a store of the whole `[1,16]` buffer) cover it. -/
theorem scover1_A_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) (y : S1x16.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x16.size (by sl_kernel_rfl) y

/-- What case A leaves in the accumulator: its pieces read back. -/
def sout1_A_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i)
    (x0 : Vec F S256x256 .f32) (x1 : Vec F S16x256 .f32) (x2 : Vec F S16x256 .f32) (x3 : Vec F S16x256 .f32) : Vec F S1x16 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case B leaves in the output's staging buffer: its pieces read back (none: a placeholder nothing consults, the window being idle and not written back there). -/
def out1_B_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) : Vec F S1x16 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's pieces for the accumulator (each a store of the whole `[1,16]` buffer) cover it. -/
theorem scover1_B_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) (y : S1x16.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x16.size (by sl_kernel_rfl) y

/-- What case B leaves in the accumulator: its pieces read back. -/
def sout1_B_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i)
    (x0 : Vec F S256x256 .f32) (x1 : Vec F S16x256 .f32) (x2 : Vec F S16x256 .f32) (x3 : Vec F S16x256 .f32) (xs0 : Vec F S1x16 .f32) : Vec F S1x16 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- At the last point the output's pieces (one store of the whole `[1,16]` buffer) cover it. -/
theorem cover1_C_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) (y : S1x16.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x16.size (by sl_kernel_rfl) y

/-- What case C leaves in the output's staging buffer: its pieces read back. -/
def out1_C_4 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) : Vec F S1x16 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's pieces for the accumulator (each a store of the whole `[1,16]` buffer) cover it. -/
theorem scover1_C_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) (y : S1x16.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x16.size (by sl_kernel_rfl) y

/-- What case C leaves in the accumulator: its pieces read back. -/
def sout1_C_0 (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i)
    (x0 : Vec F S256x256 .f32) (x1 : Vec F S16x256 .f32) (x2 : Vec F S16x256 .f32) (x3 : Vec F S16x256 .f32) (xs0 : Vec F S1x16 .f32) : Vec F S1x16 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output's buffer and the accumulator hold after each point -/

/-- After the body at position `n`: the output's staging buffer (first component) and the accumulator (second): the case
    the position selects, run at the point's memrefs and input blocks, over the accumulator as position `n - 1` left it. -/
def outsAt1 (c : Dev nD) : (n : ℕ) → n < cfg1.N → Vec F S1x16 .f32 × Vec F S1x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 63 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at the first point. -/
theorem outsAt1_A (c : Dev nD) (t : Fin cfg1.N) (h0 : t.val = 0) (h1 : ¬t.val = 63) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (by exfalso; (try dsimp only at h0); omega)

/-- `outsAt1` at a middle point: over what the point before left. -/
theorem outsAt1_B (c : Dev nD) (t : Fin cfg1.N) (h0 : ¬t.val = 0) (h1 : ¬t.val = 63) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; exact h0 rfl)
  | succ n => exact (dif_neg h1).trans rfl

/-- `outsAt1` at the last point: over what the point before left. -/
theorem outsAt1_C (c : Dev nD) (t : Fin cfg1.N) (h0 : ¬t.val = 0) (h1 : t.val = 63) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; exact h0 rfl)
  | succ n => exact (dif_pos h1).trans rfl

/-- What the accumulator holds after the body at position `n`. -/
def acc1 (c : Dev nD) (n : ℕ) (hn : n < cfg1.N) : Vec F S1x16 .f32 := (outsAt1 V c n hn).2

/-! ## The region invariant -/

/-- The first call's six staging buffers, each at some contents: scoped buffers this call never touches. -/
abbrev stg6 (c : Dev nD) : sProp 𝕄 :=
  iprop(anyBuf c cc0_stg0_0 ∗ anyBuf c cc0_stg0_1 ∗ anyBuf c cc0_stg1_0 ∗ anyBuf c cc0_stg1_1 ∗ anyBuf c cc0_stg2_0 ∗ anyBuf c cc0_stg2_1)

/-- The invariant before position `n`: the scoped buffers no window stages and the generator register at some state —
    before the first point the accumulator at anything, afterwards at what the point before left in it. -/
def PhiS (c : Dev nD) : (n : ℕ) → n ≤ cfg1.N → sProp 𝕄
  | 0, _ => iprop(iprop(stg6 c ∗ (∃ d, owns (c : Thread nD τ) scM1_0 fullShare d)) ∗ (∃ r, prngReg c r))
  | n + 1, hn => iprop(iprop(stg6 c ∗ owns (c : Thread nD τ) scM1_0 fullShare ((outsAt1 V c n hn).2)) ∗ (∃ r, prngReg c r))

theorem PhiS_zero (c : Dev nD) (n : ℕ) (h : n ≤ cfg1.N) (hz : n = 0) :
    PhiS V c n h = iprop(iprop(stg6 c ∗ (∃ d, owns (c : Thread nD τ) scM1_0 fullShare d)) ∗ (∃ r, prngReg c r)) := by
  subst hz; rfl

theorem PhiS_succ (c : Dev nD) (n : ℕ) (hn : n < cfg1.N) :
    PhiS V c (n + 1) hn = iprop(iprop(stg6 c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(stg6 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second call on core `c`: the arrays as the region finds them (`V`); after the body at
    point `t` each input's buffer at its block and the output's at `outsAt1`'s first component; the invariant `PhiS`;
    nothing owed. The distance matrix and the two mask-derived arrays are held whole, except that windows 1 and 2
    read ONE array and hold a half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q w := match w with
    | ⟨0, _⟩ => fullShare
    | ⟨1, _⟩ => PosShare.left fullShare
    | ⟨2, _⟩ => PosShare.right fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the position says which case the point is in; the
    invariant hands the body the accumulator at what the point before left (at anything at the first point) and takes it
    back at this point's contents; the other scoped buffers, the generator register and the core's debts pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val = 0
  · have h1 : ¬t.val = 63 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    rw [PhiS_castSucc V c t, PhiS_zero V c _ _ h0]
    iintro ⟨⟨⟨Hst, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Hst HS0 Hg]
    · isplitl [Hst HS0]
      · isplitl [Hst]; · iexact Hst
        unfold owns; iexists _; isplitr
        swap; · iexact HS0
        ipureintro; exact View.read_writes_of_cover _ _ _ _ _ (scover1_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat1 V c).leavesExact 4 t = owns (c : Thread nD τ) (ms1_4 t) fullShare ((dat1 V c).after 4 t) from by
            unfold Dat.leavesExact; rw [liveAt1_4 t ((hcond1_1 t).mpr h1)], after1_4]
      rw [outsAt1_C V c t h0 h1]
      unfold out1_C_4 sout1_C_0; (try dsimp only)
      rw [PhiS_castSucc V c t, PhiS_pos V c _ _ h0]
      iintro ⟨⟨⟨Hst, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hst HS0 Hg]
      · isplitl [Hst HS0]
        · isplitl [Hst]; · iexact Hst
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS_castSucc V c t, PhiS_pos V c _ _ h0]
      iintro ⟨⟨⟨Hst, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hst HS0 Hg]
      · isplitl [Hst HS0]
        · isplitl [Hst]; · iexact Hst
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with — the generator register at some state and the scoped buffers no window stages —
    is the invariant before the first point. -/
theorem hin1 (c : Dev nD) :
    iprop((∃ r, prngReg c r) ∗ (Pipeline.scopedRest (Ix := Unit) (Name := ℕ) (U := UR sig nD τ) (Lvl := ℕ) (Val := Elt F) spec1 c : sProp 𝕄))
      ⊢ (dat1 V c).Φ 0 := by
  rw [show (dat1 V c).Φ 0 = PhiS V c 0 (Nat.zero_le _) from rfl, PhiS_zero V c 0 _ rfl, scoped1_eq]
  iintro ⟨Hg, G1, G2, G3, G4, G5, G6, HS⟩
  isplitr [Hg]
  · isplitr [HS]
    · isplitl [G1]; · iexact G1
      isplitl [G2]; · iexact G2
      isplitl [G3]; · iexact G3
      isplitl [G4]; · iexact G4
      isplitl [G5]; · iexact G5
      iexact G6
    iexact HS
  iexact Hg

/-- After the last point the invariant gives them back: the accumulator's named contents are forgotten. -/
theorem hout1 (c : Dev nD) :
    (dat1 V c).Φ (Fin.last cfg1.N)
      ⊢ iprop((∃ r, prngReg c r) ∗ (Pipeline.scopedRest (Ix := Unit) (Name := ℕ) (U := UR sig nD τ) (Lvl := ℕ) (Val := Elt F) spec1 c : sProp 𝕄)) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), scoped1_eq]
  iintro ⟨⟨⟨G1, G2, G3, G4, G5, G6⟩, HS0⟩, Hg⟩
  isplitl [Hg]; · iexact Hg
  isplitl [G1]; · iexact G1
  isplitl [G2]; · iexact G2
  isplitl [G3]; · iexact G3
  isplitl [G4]; · iexact G4
  isplitl [G5]; · iexact G5
  isplitl [G6]; · iexact G6
  iexists _; iexact HS0

end Cert.Kernel.Hand1

end
-- ==== Proof.RunKK.lean ====
/-
  The two pallas_calls as segments of the program's run, and the run itself.

  Between two items of the program every unscoped buffer of a core is held whole at a known valuation: the launch
  memory, then each host stretch applied, then — after a pallas_call — the call's result array replaced by what the
  pipeline's write-backs leave (the distance matrix after the first call; the sixteen cluster sums after the second).
  A pallas_call enters from that state (its windows' arrays cut out of the unscoped buffers, a shared array in halves),
  runs its pipeline, and leaves at the next valuation (the arrays put back, the halves joined). Chaining the twelve
  items gives: every weakly fair execution ends, nothing faults, and every unscoped buffer ends at the last valuation —
  in particular the arguments as launched and the result at the host tail applied to the second call's sums.
-/
import proofs.«148920_j31516470018602_1_alg».proof.Proof.Gen.Kernel.Regions
import proofs.«148920_j31516470018602_1_alg».proof.Proof.SharedArraysK
import proofs.«148920_j31516470018602_1_alg».proof.Proof.Region0K
import proofs.«148920_j31516470018602_1_alg».proof.Proof.Region1K
import Idealize.ShloMosaic.Lib.Pipeline.FrameBody
import Idealize.ShloMosaic.Lib.Pipeline.FrameSuffix
import Idealize.ShloMosaic.Lib.Ring

set_option maxRecDepth 16384

noncomputable section

namespace Cert.Kernel.HandRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)
open Cert.Kernel.Hand0 (dat0 A_eq0 q0_0 q0_1 q0_2 body_obligation0)
open Cert.Kernel.Hand1 (dat1 A_eq1 body_obligation1 hin1 hout1)

variable (m : (ℓ : Loc nD τ sig) → Buf (Elt F) ℓ)

/-! ## The contents the two calls leave, and the valuations between items -/

/-- What the first call is entered from: the launch memory. -/
abbrev VE0 : (c : Dev nD) → (b : Ref sig .tc) → Buf (Elt F) ((c : Thread nD τ).loc b) := fun c b => V0 m c b
/-- The distance matrix as the first call's write-backs leave it. -/
def X0 (c : Dev nD) : Buf (Elt F) ((c : Thread nD τ).loc main_v0) := (dat0 (VE0 m) c).arrAt 2 cfg0.N
/-- The unknowns of the generated valuations with the first call's result filled in. -/
def outsA : Outs (F := F) := fun _ r c => Function.update (fun r' : Ref sig .tc => m ((c : Thread nD τ).loc r')) main_v0 (X0 m c) r
/-- What the second call is entered from. -/
abbrev VE1 : (c : Dev nD) → (b : Ref sig .tc) → Buf (Elt F) ((c : Thread nD τ).loc b) := fun c b => V4 m (outsA m) c b
/-- The cluster sums as the second call's one write-back leaves them. -/
def X1 (c : Dev nD) : Buf (Elt F) ((c : Thread nD τ).loc main_v46) := (dat1 (VE1 m) c).arrAt 4 cfg1.N
/-- Both calls' results filled in. -/
def outs : Outs (F := F) := fun J r c => Function.update (fun r' : Ref sig .tc => outsA m J r' c) main_v46 (X1 m c) r

theorem outs_v0 (J : ℕ) (c : Dev nD) : outs m J main_v0 c = X0 m c := by
  unfold outs; rw [Function.update_of_ne (by decide)]; unfold outsA; rw [Function.update_self]
theorem outsA_v0 (J : ℕ) (c : Dev nD) : outsA m J main_v0 c = X0 m c := by
  unfold outsA; rw [Function.update_self]
theorem outs_v46 (J : ℕ) (c : Dev nD) : outs m J main_v46 c = X1 m c := by
  unfold outs; rw [Function.update_self]

/-- Up to the second call the valuations do not see its result. -/
theorem V4_outs (c : Dev nD) : V4 m (outs m) c = V4 m (outsA m) c := by
  show StableHlo.after hostOps1_2 (StableHlo.after hostOps1_1 (StableHlo.after hostOps1 (Function.update (V0 m c) main_v0 (outs m 1 main_v0 c))))
    = StableHlo.after hostOps1_2 (StableHlo.after hostOps1_1 (StableHlo.after hostOps1 (Function.update (V0 m c) main_v0 (outsA m 1 main_v0 c))))
  rw [outs_v0, outsA_v0]

/-! ## The proof data family and what rides along -/

def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- Beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The first call as a segment -/

/-- At the first call's exit each of its arrays is what the next valuation holds there: the rows' array as launched
    (read twice), the distance matrix at the write-backs' result. -/
theorem hF0 (c : Dev nD) (w : Fin cfg0.W) :
    (pdats m 0 c).arrAt w cfg0.N = (fun b : Ref sig .tc => V1 m (outs m) c b) (Pipeline.arrRef spec0 w) :=
  match w with
  | ⟨0, _⟩ => (((pdats m 0 c).arrAt_in 0 rfl _).trans (A_eq0 (VE0 m) c 0)).trans (V1_of m (outs m) c main_arg0 (by decide)).symm
  | ⟨1, _⟩ => (((pdats m 0 c).arrAt_in 1 rfl _).trans (A_eq0 (VE0 m) c 1)).trans (V1_of m (outs m) c main_arg0 (by decide)).symm
  | ⟨2, _⟩ => by
      show X0 m c = Function.update (V0 m c) main_v0 (outs m 1 main_v0 c) main_v0
      rw [Function.update_self, outs_v0]
  | ⟨_ + 3, h⟩ => absurd h (Nat.not_lt.2 (Nat.le_add_left _ _))

theorem hrest0 (c : Dev nD) (b : Ref sig .tc) (hb : b ∉ Finset.univ.image (Pipeline.arrRef spec0)) :
    V1 m (outs m) c b = V0 m c b :=
  V1_of m (outs m) c b (by
    rw [image0] at hb
    simp only [Finset.mem_insert, Finset.mem_singleton, not_or] at hb
    simp only [List.mem_cons, List.not_mem_nil, or_false]
    exact hb.2)

set_option backward.isDefEq.respectTransparency.types false in
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit : (unscopedBufs (Ix := Unit) (Name := ℕ) (U := UR sig nD τ) (Lvl := ℕ) c (VE0 m c) : sProp 𝕄)
        ⊢ iprop((pdats m 0 c).arrays ((pdats m 0 c).arrAt · 0) ∗ Pipeline.unscopedRest spec0 c (VE0 m c)) := by
      rw [Pipeline.unscopedBufs_split₀ cfgs 0 winFacts₀0.arr_unscoped c (VE0 m c)]
      exact sep_mono (hsplit0 c (pdats m 0 c) (q0_0 (VE0 m) c) (q0_1 (VE0 m) c) (VE0 m c) _ (fun w => A_eq0 (VE0 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (VE0 m c))
        ⊢ (unscopedBufs (Ix := Unit) (Name := ℕ) (U := UR sig nD τ) (Lvl := ℕ) c (fun b : Ref sig .tc => V1 m (outs m) c b) : sProp 𝕄) := by
      rw [Pipeline.unscopedBufs_split₀ cfgs 0 winFacts₀0.arr_unscoped c (fun b : Ref sig .tc => V1 m (outs m) c b)]
      refine sep_mono (hjoin0 c (pdats m 0 c) (q0_0 (VE0 m) c) (q0_1 (VE0 m) c) (fun b : Ref sig .tc => V1 m (outs m) c b) _ (hF0 m c)) (Entails.of_eq ?_)
      unfold Pipeline.unscopedRest
      exact bigSep_congr fun b hb => by beta_reduce; rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment -/

/-- At the second call's exit each of its arrays is what the next valuation holds there: the four inputs as entered,
    the sums at the one write-back's result. -/
theorem hF1 (c : Dev nD) (w : Fin cfg1.W) :
    (pdats m 1 c).arrAt w cfg1.N = (fun b : Ref sig .tc => V5 m (outs m) c b) (Pipeline.arrRef spec1 w) :=
  match w with
  | ⟨0, _⟩ => (((pdats m 1 c).arrAt_in 0 rfl _).trans (A_eq1 (VE1 m) c 0)).trans
      ((V5_of m (outs m) c main_v0 (by decide)).trans (congrFun (V4_outs m c) _)).symm
  | ⟨1, _⟩ => (((pdats m 1 c).arrAt_in 1 rfl _).trans (A_eq1 (VE1 m) c 1)).trans
      ((V5_of m (outs m) c main_v35 (by decide)).trans (congrFun (V4_outs m c) _)).symm
  | ⟨2, _⟩ => (((pdats m 1 c).arrAt_in 2 rfl _).trans (A_eq1 (VE1 m) c 2)).trans
      ((V5_of m (outs m) c main_v35 (by decide)).trans (congrFun (V4_outs m c) _)).symm
  | ⟨3, _⟩ => (((pdats m 1 c).arrAt_in 3 rfl _).trans (A_eq1 (VE1 m) c 3)).trans
      ((V5_of m (outs m) c main_v34 (by decide)).trans (congrFun (V4_outs m c) _)).symm
  | ⟨4, _⟩ => by
      show X1 m c = Function.update (V4 m (outs m) c) main_v46 (outs m 5 main_v46 c) main_v46
      rw [Function.update_self, outs_v46]
  | ⟨_ + 5, h⟩ => absurd h (Nat.not_lt.2 (Nat.le_add_left _ _))

theorem hrest1 (c : Dev nD) (b : Ref sig .tc) (hb : b ∉ Finset.univ.image (Pipeline.arrRef spec1)) :
    V5 m (outs m) c b = VE1 m c b :=
  (V5_of m (outs m) c b (by
    rw [image1] at hb
    simp only [Finset.mem_insert, Finset.mem_singleton, not_or] at hb
    simp only [List.mem_cons, List.not_mem_nil, or_false]
    exact hb.2.2.2)).trans (congrFun (V4_outs m c) _)

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V4_outs m c]
    have hsplit : (unscopedBufs (Ix := Unit) (Name := ℕ) (U := UR sig nD τ) (Lvl := ℕ) c (VE1 m c) : sProp 𝕄)
        ⊢ iprop((pdats m 1 c).arrays ((pdats m 1 c).arrAt · 0) ∗ Pipeline.unscopedRest spec1 c (VE1 m c)) := by
      rw [Pipeline.unscopedBufs_split₀ cfgs 1 winFacts₀1.arr_unscoped c (VE1 m c)]
      exact sep_mono (hsplit1 c (pdats m 1 c) rfl rfl rfl rfl (VE1 m c) _ (fun w => A_eq1 (VE1 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 1).pre c (fun _ => fullShare) (adm 1).1 ∗ Pipeline.scopedRest (Pipeline.pin (pcfgs (F := F)) adm 1).spec c)
      ⊢ (iprop((∃ r, prngReg c r) ∗ Pipeline.scopedRest spec1 c) : sProp 𝕄) from by
        iintro ⟨Hp, -, Hr⟩
        isplitl [Hp]; · iexact Hp
        iexact Hr).trans (hin1 (VE1 m) c)
  hout c := (hout1 (VE1 m) c).trans (by
    rw [Pipeline.ownSems0_none]
    iintro ⟨Hp, Hr⟩
    isplitl [Hp]; · iexact Hp
    isplitr; · iempintro
    iexact Hr)
  hexit c := by
    have hjoin : iprop((pdats m 1 c).arrays ((pdats m 1 c).arrAt · cfg1.N) ∗ Pipeline.unscopedRest spec1 c (VE1 m c))
        ⊢ (unscopedBufs (Ix := Unit) (Name := ℕ) (U := UR sig nD τ) (Lvl := ℕ) c (fun b : Ref sig .tc => V5 m (outs m) c b) : sProp 𝕄) := by
      rw [Pipeline.unscopedBufs_split₀ cfgs 1 winFacts₀1.arr_unscoped c (fun b : Ref sig .tc => V5 m (outs m) c b)]
      refine sep_mono (hjoin1 c (pdats m 1 c) rfl rfl rfl rfl (fun b : Ref sig .tc => V5 m (outs m) c b) _ (hF1 m c)) (Entails.of_eq ?_)
      unfold Pipeline.unscopedRest
      exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch makes what rides along on every core. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The frame claim: from any launch memory with zero counters every weakly fair execution ends, nothing faults, and
    the four argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E (hE0 ρ)
    (fun c => by iintro ⟨-, HO⟩; iexact HO)
    (reg0 m) (fun _ => .rfl) (fun _ => .rfl) (reg1 m) (fun _ => .rfl) (fun _ => .rfl)

end Cert.Kernel.HandRun

end
-- ==== Proof.RefRun1.lean ====
/-
  The reference program's @main as a list of its 173 host operations — each outlined function's operations listed
  inline at its call site over the call's buffer record — cut into seven consecutive stretches, and its run as the
  fold of the operations' results over the launch contents.
-/
import proofs.«148920_j31516470018602_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 35 of 173: the squared norms, the row sums, the Gram matrix and the scaled distance matrix. -/
abbrev ops_c0 : List (HloOp τ sig (Elt F)) :=
  [ binary main_arg0 main_arg0 main_v0 (mulf : (⟨S2048x768, .f32⟩ : BufTy).Contents (Elt F) → (⟨S2048x768, .f32⟩ : BufTy).Contents (Elt F) → (⟨S2048x768, .f32⟩ : BufTy).Contents (Elt F)),
    nullary main_cst (constant S_ .f32 0x00000000#32),
    binary main_v0 main_cst main_v1 ((fun x v => Host.reduceAdd x v reducesTo_S2048x768_S2048_d1 h_S_) : (⟨S2048x768, .f32⟩ : BufTy).Contents (Elt F) → (⟨S_, .f32⟩ : BufTy).Contents (Elt F) → (⟨S2048, .f32⟩ : BufTy).Contents (Elt F)),
    nullary main_cst_0 (constant S_ .f32 0x00000000#32),
    binary main_arg0 main_cst_0 main_v2 ((fun x v => Host.reduceAdd x v reducesTo_S2048x768_S2048_d1 h_S_) : (⟨S2048x768, .f32⟩ : BufTy).Contents (Elt F) → (⟨S_, .f32⟩ : BufTy).Contents (Elt F) → (⟨S2048, .f32⟩ : BufTy).Contents (Elt F)),
    unary main_arg0 main_v3 ((transpose S768x2048 [1, 0] · transposes_S2048x768_S768x2048_1_0) : (⟨S2048x768, .f32⟩ : BufTy).Contents (Elt F) → (⟨S768x2048, .f32⟩ : BufTy).Contents (Elt F)),
    binary main_arg0 main_v3 main_v4 ((fun l r => Host.dotGeneral dot_S2048x768_S768x2048_S2048x2048_1_0_0_1_n_n none l r) : (⟨S2048x768, .f32⟩ : BufTy).Contents (Elt F) → (⟨S768x2048, .f32⟩ : BufTy).Contents (Elt F) → (⟨S2048x2048, .f32⟩ : BufTy).Contents (Elt F)),
    unary main_v1 main_v5 (broadcastInDim S2048x1 ![0] bcast_S2048_S2048x1_0 : (⟨S2048, .f32⟩ : BufTy).Contents (Elt F) → (⟨S2048x1, .f32⟩ : BufTy).Contents (Elt F)),
    unary main_v1 main_v6 (broadcastInDim S1x2048 ![1] bcast_S2048_S1x2048_1 : (⟨S2048, .f32⟩ : BufTy).Contents (Elt F) → (⟨S1x2048, .f32⟩ : BufTy).Contents (Elt F)),
    unary main_v5 main_v7 (broadcastInDim S2048x2048 ![0, 1] bcast_S2048x1_S2048x2048_0_1 : (⟨S2048x1, .f32⟩ : BufTy).Contents (Elt F) → (⟨S2048x2048, .f32⟩ : BufTy).Contents (Elt F)),
    unary main_v6 main_v8 (broadcastInDim S2048x2048 ![0, 1] bcast_S1x2048_S2048x2048_0_1 : (⟨S1x2048, .f32⟩ : BufTy).Contents (Elt F) → (⟨S2048x2048, .f32⟩ : BufTy).Contents (Elt F)),
    binary main_v7 main_v8 main_v9 (addf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x40000000#32),
    unary main_cst_1 main_v10 (broadcastInDim S2048x2048 ![] bcast_S_S2048x2048 : (⟨S_, .f32⟩ : BufTy).Contents (Elt F) → (⟨S2048x2048, .f32⟩ : BufTy).Contents (Elt F)),
    binary main_v10 main_v4 main_v11 (mulf : (⟨S2048x2048, .f32⟩ : BufTy).Contents (Elt F) → (⟨S2048x2048, .f32⟩ : BufTy).Contents (Elt F) → (⟨S2048x2048, .f32⟩ : BufTy).Contents (Elt F)),
    binary main_v9 main_v11 main_v12 (subf : (⟨S2048x2048, .f32⟩ : BufTy).Contents (Elt F) → (⟨S2048x2048, .f32⟩ : BufTy).Contents (Elt F) → (⟨S2048x2048, .f32⟩ : BufTy).Contents (Elt F)),
    unary main_v2 main_v13 (broadcastInDim S2048x1 ![0] bcast_S2048_S2048x1_0 : (⟨S2048, .f32⟩ : BufTy).Contents (Elt F) → (⟨S2048x1, .f32⟩ : BufTy).Contents (Elt F)),
    unary main_v2 main_v14 (broadcastInDim S1x2048 ![1] bcast_S2048_S1x2048_1 : (⟨S2048, .f32⟩ : BufTy).Contents (Elt F) → (⟨S1x2048, .f32⟩ : BufTy).Contents (Elt F)),
    unary main_v13 main_v15 (broadcastInDim S2048x2048 ![0, 1] bcast_S2048x1_S2048x2048_0_1 : (⟨S2048x1, .f32⟩ : BufTy).Contents (Elt F) → (⟨S2048x2048, .f32⟩ : BufTy).Contents (Elt F)),
    unary main_v14 main_v16 (broadcastInDim S2048x2048 ![0, 1] bcast_S1x2048_S2048x2048_0_1 : (⟨S1x2048, .f32⟩ : BufTy).Contents (Elt F) → (⟨S2048x2048, .f32⟩ : BufTy).Contents (Elt F)),
    binary main_v15 main_v16 main_v17 (subf : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x360637BD#32),
    unary main_cst_2 main_v18 (broadcastInDim S2048x2048 ![] bcast_S_S2048x2048 : (⟨S_, .f32⟩ : BufTy).Contents (Elt F) → (⟨S2048x2048, .f32⟩ : BufTy).Contents (Elt F)),
    binary main_v18 main_v17 main_v19 (mulf : (⟨S2048x2048, .f32⟩ : BufTy).Contents (Elt F) → (⟨S2048x2048, .f32⟩ : BufTy).Contents (Elt F) → (⟨S2048x2048, .f32⟩ : BufTy).Contents (Elt F)),
    binary main_v12 main_v19 main_v20 (addf : (⟨S2048x2048, .f32⟩ : BufTy).Contents (Elt F) → (⟨S2048x2048, .f32⟩ : BufTy).Contents (Elt F) → (⟨S2048x2048, .f32⟩ : BufTy).Contents (Elt F)),
    nullary main_cst_3 (constant S_ .f32 0x30531B32#32),
    unary main_cst_3 main_v21 (broadcastInDim S2048x2048 ![] bcast_S_S2048x2048 : (⟨S_, .f32⟩ : BufTy).Contents (Elt F) → (⟨S2048x2048, .f32⟩ : BufTy).Contents (Elt F)),
    binary main_v20 main_v21 main_v22 (addf : (⟨S2048x2048, .f32⟩ : BufTy).Contents (Elt F) → (⟨S2048x2048, .f32⟩ : BufTy).Contents (Elt F) → (⟨S2048x2048, .f32⟩ : BufTy).Contents (Elt F)),
    nullary main_cst_4 (constant S_ .f32 0x00000000#32),
    unary main_cst_4 main_v23 (broadcastInDim S2048x2048 ![] bcast_S_S2048x2048 : (⟨S_, .f32⟩ : BufTy).Contents (Elt F) → (⟨S2048x2048, .f32⟩ : BufTy).Contents (Elt F)),
    binary main_v22 main_v23 main_v24 (maximumf : (⟨S2048x2048, .f32⟩ : BufTy).Contents (Elt F) → (⟨S2048x2048, .f32⟩ : BufTy).Contents (Elt F) → (⟨S2048x2048, .f32⟩ : BufTy).Contents (Elt F)),
    unary main_v24 main_v25 (Host.sqrt : (⟨S2048x2048, .f32⟩ : BufTy).Contents (Elt F) → (⟨S2048x2048, .f32⟩ : BufTy).Contents (Elt F)),
    nullary main_cst_5 (constant S_ .f32 0x3D13CD3A#32),
    unary main_cst_5 main_v26 (broadcastInDim S2048x2048 ![] bcast_S_S2048x2048 : (⟨S_, .f32⟩ : BufTy).Contents (Elt F) → (⟨S2048x2048, .f32⟩ : BufTy).Contents (Elt F)),
    binary main_v25 main_v26 main_v27 (mulf : (⟨S2048x2048, .f32⟩ : BufTy).Contents (Elt F) → (⟨S2048x2048, .f32⟩ : BufTy).Contents (Elt F) → (⟨S2048x2048, .f32⟩ : BufTy).Contents (Elt F)) ]

/-- Operations 36 … 60 of 173: the two membership masks. -/
abbrev ops_c1 : List (HloOp τ sig (Elt F)) :=
  [ nullary main_v28 (iotaInDim S16 32 0),
    unary main_arg3 main_v29 (broadcastInDim S1x2048 ![1] bcast_S2048_S1x2048_1 : (⟨S2048, .i32⟩ : BufTy).Contents (Elt F) → (⟨S1x2048, .i32⟩ : BufTy).Contents (Elt F)),
    unary main_v28 main_v30 (broadcastInDim S16x1 ![0] bcast_S16_S16x1_0 : (⟨S16, .i32⟩ : BufTy).Contents (Elt F) → (⟨S16x1, .i32⟩ : BufTy).Contents (Elt F)),
    unary main_v29 main_v31 (broadcastInDim S16x2048 ![0, 1] bcast_S1x2048_S16x2048_0_1 : (⟨S1x2048, .i32⟩ : BufTy).Contents (Elt F) → (⟨S16x2048, .i32⟩ : BufTy).Contents (Elt F)),
    unary main_v30 main_v32 (broadcastInDim S16x2048 ![0, 1] bcast_S16x1_S16x2048_0_1 : (⟨S16x1, .i32⟩ : BufTy).Contents (Elt F) → (⟨S16x2048, .i32⟩ : BufTy).Contents (Elt F)),
    binary main_v31 main_v32 main_v33 (cmpi .eq : (⟨S16x2048, .i32⟩ : BufTy).Contents (Elt F) → (⟨S16x2048, .i32⟩ : BufTy).Contents (Elt F) → (⟨S16x2048, .i1⟩ : BufTy).Contents (Elt F)),
    unary main_arg2 main_v34 (broadcastInDim S1x2048 ![1] bcast_S2048_S1x2048_1 : (⟨S2048, .i32⟩ : BufTy).Contents (Elt F) → (⟨S1x2048, .i32⟩ : BufTy).Contents (Elt F)),
    nullary main_c (constantI S_ 32 1#32),
    unary main_c main_v35 (broadcastInDim S1x2048 ![] bcast_S_S1x2048 : (⟨S_, .i32⟩ : BufTy).Contents (Elt F) → (⟨S1x2048, .i32⟩ : BufTy).Contents (Elt F)),
    binary main_v34 main_v35 main_v36 (cmpi .eq : (⟨S1x2048, .i32⟩ : BufTy).Contents (Elt F) → (⟨S1x2048, .i32⟩ : BufTy).Contents (Elt F) → (⟨S1x2048, .i1⟩ : BufTy).Contents (Elt F)),
    unary main_v36 main_v37 (broadcastInDim S16x2048 ![0, 1] bcast_S1x2048_S16x2048_0_1 : (⟨S1x2048, .i1⟩ : BufTy).Contents (Elt F) → (⟨S16x2048, .i1⟩ : BufTy).Contents (Elt F)),
    binary main_v33 main_v37 main_v38 (andi : (⟨S16x2048, .i1⟩ : BufTy).Contents (Elt F) → (⟨S16x2048, .i1⟩ : BufTy).Contents (Elt F) → (⟨S16x2048, .i1⟩ : BufTy).Contents (Elt F)),
    unary main_arg3 main_v39 (broadcastInDim S1x2048 ![1] bcast_S2048_S1x2048_1 : (⟨S2048, .i32⟩ : BufTy).Contents (Elt F) → (⟨S1x2048, .i32⟩ : BufTy).Contents (Elt F)),
    unary main_v28 main_v40 (broadcastInDim S16x1 ![0] bcast_S16_S16x1_0 : (⟨S16, .i32⟩ : BufTy).Contents (Elt F) → (⟨S16x1, .i32⟩ : BufTy).Contents (Elt F)),
    unary main_v39 main_v41 (broadcastInDim S16x2048 ![0, 1] bcast_S1x2048_S16x2048_0_1 : (⟨S1x2048, .i32⟩ : BufTy).Contents (Elt F) → (⟨S16x2048, .i32⟩ : BufTy).Contents (Elt F)),
    unary main_v40 main_v42 (broadcastInDim S16x2048 ![0, 1] bcast_S16x1_S16x2048_0_1 : (⟨S16x1, .i32⟩ : BufTy).Contents (Elt F) → (⟨S16x2048, .i32⟩ : BufTy).Contents (Elt F)),
    binary main_v41 main_v42 main_v43 (cmpi .eq : (⟨S16x2048, .i32⟩ : BufTy).Contents (Elt F) → (⟨S16x2048, .i32⟩ : BufTy).Contents (Elt F) → (⟨S16x2048, .i1⟩ : BufTy).Contents (Elt F)),
    unary main_arg2 main_v44 (broadcastInDim S1x2048 ![1] bcast_S2048_S1x2048_1 : (⟨S2048, .i32⟩ : BufTy).Contents (Elt F) → (⟨S1x2048, .i32⟩ : BufTy).Contents (Elt F)),
    nullary main_c_6 (constantI S_ 32 0#32),
    unary main_c_6 main_v45 (broadcastInDim S1x2048 ![] bcast_S_S1x2048 : (⟨S_, .i32⟩ : BufTy).Contents (Elt F) → (⟨S1x2048, .i32⟩ : BufTy).Contents (Elt F)),
    binary main_v44 main_v45 main_v46 (cmpi .eq : (⟨S1x2048, .i32⟩ : BufTy).Contents (Elt F) → (⟨S1x2048, .i32⟩ : BufTy).Contents (Elt F) → (⟨S1x2048, .i1⟩ : BufTy).Contents (Elt F)),
    unary main_v46 main_v47 (broadcastInDim S16x2048 ![0, 1] bcast_S1x2048_S16x2048_0_1 : (⟨S1x2048, .i1⟩ : BufTy).Contents (Elt F) → (⟨S16x2048, .i1⟩ : BufTy).Contents (Elt F)),
    binary main_v43 main_v47 main_v48 (andi : (⟨S16x2048, .i1⟩ : BufTy).Contents (Elt F) → (⟨S16x2048, .i1⟩ : BufTy).Contents (Elt F) → (⟨S16x2048, .i1⟩ : BufTy).Contents (Elt F)),
    unary main_v38 main_v49 ((extui 32 · natLt_1_32) : (⟨S16x2048, .i1⟩ : BufTy).Contents (Elt F) → (⟨S16x2048, .i32⟩ : BufTy).Contents (Elt F)),
    nullary main_c_7 (constantI S_ 32 0#32) ]

/-- Operations 61 … 79 of 173: the masks' counts, the arg-max column of the second mask and the anchor distances gathered from the distance matrix. -/
abbrev ops_c2 : List (HloOp τ sig (Elt F)) :=
  [ binary main_v49 main_c_7 main_v50 ((fun x v => Host.reduce IntOp.addi x v reducesTo_S16x2048_S16_d1 h_S_) : (⟨S16x2048, .i32⟩ : BufTy).Contents (Elt F) → (⟨S_, .i32⟩ : BufTy).Contents (Elt F) → (⟨S16, .i32⟩ : BufTy).Contents (Elt F)),
    unary main_v48 main_v51 ((extui 32 · natLt_1_32) : (⟨S16x2048, .i1⟩ : BufTy).Contents (Elt F) → (⟨S16x2048, .i32⟩ : BufTy).Contents (Elt F)),
    nullary main_c_8 (constantI S_ 32 0#32),
    binary main_v51 main_c_8 main_v52 ((fun x v => Host.reduce IntOp.addi x v reducesTo_S16x2048_S16_d1 h_S_) : (⟨S16x2048, .i32⟩ : BufTy).Contents (Elt F) → (⟨S_, .i32⟩ : BufTy).Contents (Elt F) → (⟨S16, .i32⟩ : BufTy).Contents (Elt F)),
    StableHlo.TRef.nullary main_call0.v0 (iotaInDim S16x2048 32 1),
    StableHlo.TRef.nullary main_call0.c (constantI S_ 1 0#1),
    StableHlo.TRef.nullary main_call0.c_0 (constantI S_ 32 0#32),
    StableHlo.TRef.quaternary (.of main_v48 : StableHlo.TRef sig ⟨S16x2048, .i1⟩) main_call0.v0 main_call0.c main_call0.c_0 main_call0.v1_0 (fun x y u v j => (Host.reduce2 reducer_argmax_i1_i32 x y u v reducesTo_S16x2048_S16_d1 h_S_ j).1),
    StableHlo.TRef.quaternary (.of main_v48 : StableHlo.TRef sig ⟨S16x2048, .i1⟩) main_call0.v0 main_call0.c main_call0.c_0 main_call0.v1_1 (fun x y u v j => (Host.reduce2 reducer_argmax_i1_i32 x y u v reducesTo_S16x2048_S16_d1 h_S_ j).2),
    nullary main_c_9 (constantI S_ 32 0#32),
    unary main_c_9 main_v54 (broadcastInDim S16 ![] bcast_S_S16 : (⟨S_, .i32⟩ : BufTy).Contents (Elt F) → (⟨S16, .i32⟩ : BufTy).Contents (Elt F)),
    binary main_v53 main_v54 main_v55 (cmpi .slt : (⟨S16, .i32⟩ : BufTy).Contents (Elt F) → (⟨S16, .i32⟩ : BufTy).Contents (Elt F) → (⟨S16, .i1⟩ : BufTy).Contents (Elt F)),
    nullary main_c_10 (constantI S_ 32 2048#32),
    unary main_c_10 main_v56 (broadcastInDim S16 ![] bcast_S_S16 : (⟨S_, .i32⟩ : BufTy).Contents (Elt F) → (⟨S16, .i32⟩ : BufTy).Contents (Elt F)),
    binary main_v53 main_v56 main_v57 (addi : (⟨S16, .i32⟩ : BufTy).Contents (Elt F) → (⟨S16, .i32⟩ : BufTy).Contents (Elt F) → (⟨S16, .i32⟩ : BufTy).Contents (Elt F)),
    ternary main_v55 main_v57 main_v53 main_v58 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v58 main_v59 (broadcastInDim S16x1 ![0] bcast_S16_S16x1_0 : (⟨S16, .i32⟩ : BufTy).Contents (Elt F) → (⟨S16x1, .i32⟩ : BufTy).Contents (Elt F)),
    binary main_v27 main_v59 main_v60 ((fun x i => Host.gather gather_S2048x2048_S16x1_S2048x16_0_1_n_n_1_1_20481 x i) : (⟨S2048x2048, .f32⟩ : BufTy).Contents (Elt F) → (⟨S16x1, .i32⟩ : BufTy).Contents (Elt F) → (⟨S2048x16, .f32⟩ : BufTy).Contents (Elt F)),
    unary main_v60 main_v61 ((transpose S16x2048 [1, 0] · transposes_S2048x16_S16x2048_1_0) : (⟨S2048x16, .f32⟩ : BufTy).Contents (Elt F) → (⟨S16x2048, .f32⟩ : BufTy).Contents (Elt F)) ]

/-- Operations 80 … 99 of 173: the masked hinge terms over all pairs. -/
abbrev ops_c3 : List (HloOp τ sig (Elt F)) :=
  [ unary main_v38 main_v62 (broadcastInDim S16x2048x1 ![0, 1] bcast_S16x2048_S16x2048x1_0_1 : (⟨S16x2048, .i1⟩ : BufTy).Contents (Elt F) → (⟨S16x2048x1, .i1⟩ : BufTy).Contents (Elt F)),
    unary main_v38 main_v63 (broadcastInDim S16x1x2048 ![0, 2] bcast_S16x2048_S16x1x2048_0_2 : (⟨S16x2048, .i1⟩ : BufTy).Contents (Elt F) → (⟨S16x1x2048, .i1⟩ : BufTy).Contents (Elt F)),
    unary main_v62 main_v64 (broadcastInDim S16x2048x2048 ![0, 1, 2] bcast_S16x2048x1_S16x2048x2048_0_1_2 : (⟨S16x2048x1, .i1⟩ : BufTy).Contents (Elt F) → (⟨S16x2048x2048, .i1⟩ : BufTy).Contents (Elt F)),
    unary main_v63 main_v65 (broadcastInDim S16x2048x2048 ![0, 1, 2] bcast_S16x1x2048_S16x2048x2048_0_1_2 : (⟨S16x1x2048, .i1⟩ : BufTy).Contents (Elt F) → (⟨S16x2048x2048, .i1⟩ : BufTy).Contents (Elt F)),
    binary main_v64 main_v65 main_v66 (andi : (⟨S16x2048x2048, .i1⟩ : BufTy).Contents (Elt F) → (⟨S16x2048x2048, .i1⟩ : BufTy).Contents (Elt F) → (⟨S16x2048x2048, .i1⟩ : BufTy).Contents (Elt F)),
    unary main_v27 main_v67 (broadcastInDim S1x2048x2048 ![1, 2] bcast_S2048x2048_S1x2048x2048_1_2 : (⟨S2048x2048, .f32⟩ : BufTy).Contents (Elt F) → (⟨S1x2048x2048, .f32⟩ : BufTy).Contents (Elt F)),
    nullary main_cst_11 (constant S_ .f32 0x3D4CCCCD#32),
    unary main_cst_11 main_v68 (broadcastInDim S1x2048x2048 ![] bcast_S_S1x2048x2048 : (⟨S_, .f32⟩ : BufTy).Contents (Elt F) → (⟨S1x2048x2048, .f32⟩ : BufTy).Contents (Elt F)),
    binary main_v67 main_v68 main_v69 (addf : (⟨S1x2048x2048, .f32⟩ : BufTy).Contents (Elt F) → (⟨S1x2048x2048, .f32⟩ : BufTy).Contents (Elt F) → (⟨S1x2048x2048, .f32⟩ : BufTy).Contents (Elt F)),
    unary main_v61 main_v70 (broadcastInDim S16x2048x1 ![0, 1] bcast_S16x2048_S16x2048x1_0_1 : (⟨S16x2048, .f32⟩ : BufTy).Contents (Elt F) → (⟨S16x2048x1, .f32⟩ : BufTy).Contents (Elt F)),
    unary main_v69 main_v71 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    unary main_v70 main_v72 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v71 main_v72 main_v73 (subf : (⟨S16x2048x2048, .f32⟩ : BufTy).Contents (Elt F) → (⟨S16x2048x2048, .f32⟩ : BufTy).Contents (Elt F) → (⟨S16x2048x2048, .f32⟩ : BufTy).Contents (Elt F)),
    nullary main_cst_12 (constant S_ .f32 0x00000000#32),
    unary main_cst_12 main_v74 (broadcastInDim S16x2048x2048 ![] bcast_S_S16x2048x2048 : (⟨S_, .f32⟩ : BufTy).Contents (Elt F) → (⟨S16x2048x2048, .f32⟩ : BufTy).Contents (Elt F)),
    binary main_v73 main_v74 main_v75 (maximumf : (⟨S16x2048x2048, .f32⟩ : BufTy).Contents (Elt F) → (⟨S16x2048x2048, .f32⟩ : BufTy).Contents (Elt F) → (⟨S16x2048x2048, .f32⟩ : BufTy).Contents (Elt F)),
    nullary main_cst_13 (constant S_ .f32 0x00000000#32),
    StableHlo.TRef.unary (.of main_cst_13 : StableHlo.TRef sig ⟨S_, .f32⟩) main_call1.v0 id,
    StableHlo.TRef.unary main_call1.v0 main_call1.v1 (broadcastInDim S16x2048x2048 ![] bcast_S_S16x2048x2048),
    StableHlo.TRef.ternary (.of main_v66 : StableHlo.TRef sig ⟨S16x2048x2048, .i1⟩) (.of main_v75 : StableHlo.TRef sig ⟨S16x2048x2048, .f32⟩) main_call1.v1 main_call1.v2 select ]

/-- Operations 100 … 125 of 173: the hinge sums, their division by the counts, the clamp, the selection and the total. -/
abbrev ops_c4 : List (HloOp τ sig (Elt F)) :=
  [ nullary main_c_14 (constantI S_ 32 1#32),
    unary main_c_14 main_v77 (broadcastInDim S16 ![] bcast_S_S16 : (⟨S_, .i32⟩ : BufTy).Contents (Elt F) → (⟨S16, .i32⟩ : BufTy).Contents (Elt F)),
    binary main_v50 main_v77 main_v78 (subi : (⟨S16, .i32⟩ : BufTy).Contents (Elt F) → (⟨S16, .i32⟩ : BufTy).Contents (Elt F) → (⟨S16, .i32⟩ : BufTy).Contents (Elt F)),
    nullary main_c_15 (constantI S_ 32 1#32),
    unary main_c_15 main_v79 (broadcastInDim S16 ![] bcast_S_S16 : (⟨S_, .i32⟩ : BufTy).Contents (Elt F) → (⟨S16, .i32⟩ : BufTy).Contents (Elt F)),
    binary main_v78 main_v79 main_v80 (maxsi : (⟨S16, .i32⟩ : BufTy).Contents (Elt F) → (⟨S16, .i32⟩ : BufTy).Contents (Elt F) → (⟨S16, .i32⟩ : BufTy).Contents (Elt F)),
    unary main_v80 main_v81 (sitofp .f32 : (⟨S16, .i32⟩ : BufTy).Contents (Elt F) → (⟨S16, .f32⟩ : BufTy).Contents (Elt F)),
    nullary main_cst_16 (constant S_ .f32 0x00000000#32),
    binary main_v76 main_cst_16 main_v82 ((fun x v => Host.reduceAdd x v reducesTo_S16x2048x2048_S16_d1_2 h_S_) : (⟨S16x2048x2048, .f32⟩ : BufTy).Contents (Elt F) → (⟨S_, .f32⟩ : BufTy).Contents (Elt F) → (⟨S16, .f32⟩ : BufTy).Contents (Elt F)),
    binary main_v82 main_v81 main_v83 (Host.divf : (⟨S16, .f32⟩ : BufTy).Contents (Elt F) → (⟨S16, .f32⟩ : BufTy).Contents (Elt F) → (⟨S16, .f32⟩ : BufTy).Contents (Elt F)),
    nullary main_cst_17 (constant S_ .f32 0x00000000#32),
    unary main_cst_17 main_v84 (broadcastInDim S16 ![] bcast_S_S16 : (⟨S_, .f32⟩ : BufTy).Contents (Elt F) → (⟨S16, .f32⟩ : BufTy).Contents (Elt F)),
    binary main_v83 main_v84 main_v85 (maximumf : (⟨S16, .f32⟩ : BufTy).Contents (Elt F) → (⟨S16, .f32⟩ : BufTy).Contents (Elt F) → (⟨S16, .f32⟩ : BufTy).Contents (Elt F)),
    nullary main_c_18 (constantI S_ 32 1#32),
    unary main_c_18 main_v86 (broadcastInDim S16 ![] bcast_S_S16 : (⟨S_, .i32⟩ : BufTy).Contents (Elt F) → (⟨S16, .i32⟩ : BufTy).Contents (Elt F)),
    binary main_v50 main_v86 main_v87 (cmpi .sgt : (⟨S16, .i32⟩ : BufTy).Contents (Elt F) → (⟨S16, .i32⟩ : BufTy).Contents (Elt F) → (⟨S16, .i1⟩ : BufTy).Contents (Elt F)),
    nullary main_c_19 (constantI S_ 32 0#32),
    unary main_c_19 main_v88 (broadcastInDim S16 ![] bcast_S_S16 : (⟨S_, .i32⟩ : BufTy).Contents (Elt F) → (⟨S16, .i32⟩ : BufTy).Contents (Elt F)),
    binary main_v52 main_v88 main_v89 (cmpi .sgt : (⟨S16, .i32⟩ : BufTy).Contents (Elt F) → (⟨S16, .i32⟩ : BufTy).Contents (Elt F) → (⟨S16, .i1⟩ : BufTy).Contents (Elt F)),
    binary main_v87 main_v89 main_v90 (andi : (⟨S16, .i1⟩ : BufTy).Contents (Elt F) → (⟨S16, .i1⟩ : BufTy).Contents (Elt F) → (⟨S16, .i1⟩ : BufTy).Contents (Elt F)),
    nullary main_cst_20 (constant S_ .f32 0x00000000#32),
    StableHlo.TRef.unary (.of main_cst_20 : StableHlo.TRef sig ⟨S_, .f32⟩) main_call2.v0 id,
    StableHlo.TRef.unary main_call2.v0 main_call2.v1 (broadcastInDim S16 ![] bcast_S_S16),
    StableHlo.TRef.ternary (.of main_v90 : StableHlo.TRef sig ⟨S16, .i1⟩) (.of main_v85 : StableHlo.TRef sig ⟨S16, .f32⟩) main_call2.v1 main_call2.v2 select,
    nullary main_cst_21 (constant S_ .f32 0x00000000#32),
    binary main_v91 main_cst_21 main_v92 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) ]

/-- Operations 126 … 163 of 173: the log-softmax of the scores and the entries it takes along the labels. -/
abbrev ops_c5 : List (HloOp τ sig (Elt F)) :=
  [ StableHlo.TRef.nullary main_call3.cst (constant S_ .f32 0xFF800000#32),
    StableHlo.TRef.binary (.of main_arg1 : StableHlo.TRef sig ⟨S2048x2, .f32⟩) main_call3.cst main_call3.v0 (fun x v => Host.reduce FloatOps.maximumf x v reducesTo_S2048x2_S2048_d1 h_S_),
    StableHlo.TRef.nullary main_call3.cst_0 (constant S_ .f32 0xFF800000#32),
    StableHlo.TRef.unary main_call3.cst_0 main_call3.v1 (broadcastInDim S2048 ![] bcast_S_S2048),
    StableHlo.TRef.binary main_call3.v1 main_call3.v0 main_call3.v2 maximumf,
    StableHlo.TRef.unary main_call3.v2 main_call3.v3 (broadcastInDim S2048x1 ![0] bcast_S2048_S2048x1_0),
    StableHlo.TRef.unary main_call3.v3 main_call3.v4 (broadcastInDim S2048x2 ![0, 1] bcast_S2048x1_S2048x2_0_1),
    StableHlo.TRef.binary (.of main_arg1 : StableHlo.TRef sig ⟨S2048x2, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S2048x2_S2048_d1 h_S_),
    StableHlo.TRef.unary main_call3.v7 main_call3.v8 (broadcastInDim S2048x1 ![0] bcast_S2048_S2048x1_0),
    StableHlo.TRef.unary main_call3.v8 main_call3.v9 Host.log,
    StableHlo.TRef.unary main_call3.v9 main_call3.v10 (broadcastInDim S2048x2 ![0, 1] bcast_S2048x1_S2048x2_0_1),
    StableHlo.TRef.binary main_call3.v5 main_call3.v10 main_call3.v11 subf,
    unary main_arg2 main_v94 (broadcastInDim S2048x1 ![0] bcast_S2048_S2048x1_0 : (⟨S2048, .i32⟩ : BufTy).Contents (Elt F) → (⟨S2048x1, .i32⟩ : BufTy).Contents (Elt F)),
    StableHlo.TRef.nullary main_call4.c (constantI S_ 32 0#32),
    StableHlo.TRef.unary main_call4.c main_call4.v0 (broadcastInDim S2048x1 ![] bcast_S_S2048x1),
    StableHlo.TRef.binary (.of main_v94 : StableHlo.TRef sig ⟨S2048x1, .i32⟩) main_call4.v0 main_call4.v1 (cmpi .slt),
    StableHlo.TRef.nullary main_call4.c_0 (constantI S_ 32 2#32),
    StableHlo.TRef.unary main_call4.c_0 main_call4.v2 (broadcastInDim S2048x1 ![] bcast_S_S2048x1),
    StableHlo.TRef.binary (.of main_v94 : StableHlo.TRef sig ⟨S2048x1, .i32⟩) main_call4.v2 main_call4.v3 addi,
    StableHlo.TRef.ternary main_call4.v1 main_call4.v3 (.of main_v94 : StableHlo.TRef sig ⟨S2048x1, .i32⟩) main_call4.v4 select,
    StableHlo.TRef.reshape main_call4.v4 main_call4.v5 rfl shapeCasts_S2048x1_S2048x1x1,
    StableHlo.TRef.nullary main_call4.c_1 (constantI S1 32 1#32),
    StableHlo.TRef.nullary main_call4.c_2 (constantI S_ 32 0#32),
    StableHlo.TRef.unary main_call4.c_2 main_call4.v6 (broadcastInDim S2048x1x1 ![] bcast_S_S2048x1x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S2048x1x1 ![0, 1, 2] bcast_S1x1x1_S2048x1x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S2048x1x1_S2048x1_d2 h_S_),
    StableHlo.TRef.binary (.of main_v93 : StableHlo.TRef sig ⟨S2048x2, .f32⟩) main_call4.v5 main_call4.v13 (fun x i => Host.gather gather_S2048x2_S2048x1x1_S2048x1_n_1_0_0_1_2_11 x i),
    StableHlo.TRef.nullary main_call4.cst (constant S_ .f32 0x7FC00000#32),
    StableHlo.TRef.unary main_call4.cst main_call4.v14 (broadcastInDim S2048x1 ![] bcast_S_S2048x1),
    StableHlo.TRef.ternary main_call4.v12 main_call4.v13 main_call4.v14 main_call4.v15 select ]

/-- Operations 164 … 173 of 173: the mean, its scaling and the final sum. -/
abbrev ops_c6 : List (HloOp τ sig (Elt F)) :=
  [ nullary main_cst_22 (constant S_ .f32 0x00000000#32),
    binary main_v95 main_cst_22 main_v96 ((fun x v => Host.reduceAdd x v reducesTo_S2048x1_S_d0_1 h_S_) : (⟨S2048x1, .f32⟩ : BufTy).Contents (Elt F) → (⟨S_, .f32⟩ : BufTy).Contents (Elt F) → (⟨S_, .f32⟩ : BufTy).Contents (Elt F)),
    nullary main_cst_23 (constant S_ .f32 0x45000000#32),
    binary main_v96 main_cst_23 main_v97 (Host.divf : (⟨S_, .f32⟩ : BufTy).Contents (Elt F) → (⟨S_, .f32⟩ : BufTy).Contents (Elt F) → (⟨S_, .f32⟩ : BufTy).Contents (Elt F)),
    unary main_v97 main_v98 (Host.negf : (⟨S_, .f32⟩ : BufTy).Contents (Elt F) → (⟨S_, .f32⟩ : BufTy).Contents (Elt F)),
    nullary main_cst_24 (constant S_ .f32 0x40000000#32),
    binary main_cst_24 main_v98 main_v99 (mulf : (⟨S_, .f32⟩ : BufTy).Contents (Elt F) → (⟨S_, .f32⟩ : BufTy).Contents (Elt F) → (⟨S_, .f32⟩ : BufTy).Contents (Elt F)),
    nullary main_cst_25 (constant S_ .f32 0xBF800000#32),
    binary main_cst_25 main_v92 main_v100 (mulf : (⟨S_, .f32⟩ : BufTy).Contents (Elt F) → (⟨S_, .f32⟩ : BufTy).Contents (Elt F) → (⟨S_, .f32⟩ : BufTy).Contents (Elt F)),
    binary main_v99 main_v100 main_v101 (addf : (⟨S_, .f32⟩ : BufTy).Contents (Elt F) → (⟨S_, .f32⟩ : BufTy).Contents (Elt F) → (⟨S_, .f32⟩ : BufTy).Contents (Elt F)) ]

/-- @main's 173 operations, in order. -/
abbrev ops : List (HloOp τ sig (Elt F)) :=
  ops_c0 ++ (ops_c1 ++ (ops_c2 ++ (ops_c3 ++ (ops_c4 ++ (ops_c5 ++ ops_c6)))))

set_option maxRecDepth 8192 in
theorem main_part0_eq (c : Dev nD) : main_part0 (F := F) c = seq (ops_c0 ++ ops_c1) := rfl
set_option maxRecDepth 8192 in
theorem main_part1_eq (c : Dev nD) : main_part1 (F := F) c = seq (ops_c2 ++ (ops_c3 ++ (ops_c4 ++ ops_c5))) := by
  simp only [main_part1, fn_argmax.body, fn_where.body, fn_where_0.body, fn_log_softmax.body, fn_take_along_axis.body,
    ops_c2, ops_c3, ops_c4, ops_c5, List.cons_append, List.nil_append, seq, bind_assoc, pure_bind]
set_option maxRecDepth 8192 in
theorem main_part2_eq (c : Dev nD) : main_part2 (F := F) c = seq ops_c6 := rfl
set_option maxRecDepth 8192 in
/-- @main is that straight line: its three windows are the stretches' concatenations, in order. -/
theorem main_eq (c : Dev nD) : main (F := F) c = seq ops := by
  simp only [ops, seq_append, ← main_part0_eq c, ← main_part1_eq c, ← main_part2_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_c0_sub : (ops_c0 : List (HloOp τ sig (Elt F))).Forall fun op => op.bufs ⊆ tcRefs τ sig :=
  ⟨binary_bufs_sub .., nullary_bufs_sub .., binary_bufs_sub .., nullary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩
set_option maxRecDepth 8192 in
theorem ops_c1_sub : (ops_c1 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., unary_bufs_sub .., unary_bufs_sub .., binary_bufs_sub .., unary_bufs_sub .., nullary_bufs_sub .., unary_bufs_sub .., binary_bufs_sub .., unary_bufs_sub .., binary_bufs_sub .., unary_bufs_sub .., nullary_bufs_sub ..⟩
set_option maxRecDepth 8192 in
theorem ops_c2_sub : (ops_c2 : List (HloOp τ sig (Elt F))).Forall fun op => op.bufs ⊆ tcRefs τ sig :=
  ⟨binary_bufs_sub .., unary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
set_option maxRecDepth 8192 in
theorem ops_c3_sub : (ops_c3 : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩
set_option maxRecDepth 8192 in
theorem ops_c4_sub : (ops_c4 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub ..⟩
set_option maxRecDepth 8192 in
theorem ops_c5_sub : (ops_c5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
set_option maxRecDepth 8192 in
theorem ops_c6_sub : (ops_c6 : List (HloOp τ sig (Elt F))).Forall fun op => op.bufs ⊆ tcRefs τ sig :=
  ⟨nullary_bufs_sub .., binary_bufs_sub .., nullary_bufs_sub .., binary_bufs_sub .., unary_bufs_sub .., nullary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_c0_sub op h, List.forall_iff_forall_mem.mp ops_c1_sub op h, List.forall_iff_forall_mem.mp ops_c2_sub op h, List.forall_iff_forall_mem.mp ops_c3_sub op h, List.forall_iff_forall_mem.mp ops_c4_sub op h, List.forall_iff_forall_mem.mp ops_c5_sub op h, List.forall_iff_forall_mem.mp ops_c6_sub op h]

set_option maxRecDepth 8192 in
/-- From any memory with zero counters: every weakly fair execution of @main terminates, and every final state has each
    buffer at the fold of the operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefRun2.lean ====
/-
  The reference program's result as a composition of named stages: each stage is the composed term of the host
  operations that make one buffer, as a function of the earlier stages it reads and of the arguments
  (x the rows, yh the scores, y the binary labels, lab the cluster labels).
-/
import proofs.«148920_j31516470018602_1_alg».proof.Proof.Gen.ReferenceIdeal

noncomputable section

namespace Cert.ReferenceIdeal.RefRun

open Cert.ReferenceIdeal Cert.ReferenceIdeal.Gen Idealize.ShloMosaic

variable {F : FTy → Type} [FloatOps F]

/-- Each row's sum of squares. -/
def res_sq (x : (⟨S2048x768, .f32⟩ : BufTy).Contents (Elt F)) :
    (⟨S2048, .f32⟩ : BufTy).Contents (Elt F) :=
  (((fun x v => Host.reduceAdd x v reducesTo_S2048x768_S2048_d1 h_S_) : (⟨S2048x768, .f32⟩ : BufTy).Contents (Elt F) → (⟨S_, .f32⟩ : BufTy).Contents (Elt F) → (⟨S2048, .f32⟩ : BufTy).Contents (Elt F)) ((mulf : (⟨S2048x768, .f32⟩ : BufTy).Contents (Elt F) → (⟨S2048x768, .f32⟩ : BufTy).Contents (Elt F) → (⟨S2048x768, .f32⟩ : BufTy).Contents (Elt F)) x x) (constant S_ .f32 0x00000000#32))

/-- Each row's sum. -/
def res_rs (x : (⟨S2048x768, .f32⟩ : BufTy).Contents (Elt F)) :
    (⟨S2048, .f32⟩ : BufTy).Contents (Elt F) :=
  (((fun x v => Host.reduceAdd x v reducesTo_S2048x768_S2048_d1 h_S_) : (⟨S2048x768, .f32⟩ : BufTy).Contents (Elt F) → (⟨S_, .f32⟩ : BufTy).Contents (Elt F) → (⟨S2048, .f32⟩ : BufTy).Contents (Elt F)) x (constant S_ .f32 0x00000000#32))

/-- The Gram matrix: the rows' inner products. -/
def res_gram (x : (⟨S2048x768, .f32⟩ : BufTy).Contents (Elt F)) :
    (⟨S2048x2048, .f32⟩ : BufTy).Contents (Elt F) :=
  (((fun l r => Host.dotGeneral dot_S2048x768_S768x2048_S2048x2048_1_0_0_1_n_n none l r) : (⟨S2048x768, .f32⟩ : BufTy).Contents (Elt F) → (⟨S768x2048, .f32⟩ : BufTy).Contents (Elt F) → (⟨S2048x2048, .f32⟩ : BufTy).Contents (Elt F)) x (((transpose S768x2048 [1, 0] · transposes_S2048x768_S768x2048_1_0) : (⟨S2048x768, .f32⟩ : BufTy).Contents (Elt F) → (⟨S768x2048, .f32⟩ : BufTy).Contents (Elt F)) x))

/-- The scaled distance matrix: entry (p, q) is `sqrt(max(S(p) + S(q) − 2·G(p,q) + 2ε·(s(p) − s(q)) + 768·ε², 0))·c`. -/
def res_D (x : (⟨S2048x768, .f32⟩ : BufTy).Contents (Elt F)) :
    (⟨S2048x2048, .f32⟩ : BufTy).Contents (Elt F) :=
  ((mulf : (⟨S2048x2048, .f32⟩ : BufTy).Contents (Elt F) → (⟨S2048x2048, .f32⟩ : BufTy).Contents (Elt F) → (⟨S2048x2048, .f32⟩ : BufTy).Contents (Elt F)) ((Host.sqrt : (⟨S2048x2048, .f32⟩ : BufTy).Contents (Elt F) → (⟨S2048x2048, .f32⟩ : BufTy).Contents (Elt F)) ((maximumf : (⟨S2048x2048, .f32⟩ : BufTy).Contents (Elt F) → (⟨S2048x2048, .f32⟩ : BufTy).Contents (Elt F) → (⟨S2048x2048, .f32⟩ : BufTy).Contents (Elt F)) ((addf : (⟨S2048x2048, .f32⟩ : BufTy).Contents (Elt F) → (⟨S2048x2048, .f32⟩ : BufTy).Contents (Elt F) → (⟨S2048x2048, .f32⟩ : BufTy).Contents (Elt F)) ((addf : (⟨S2048x2048, .f32⟩ : BufTy).Contents (Elt F) → (⟨S2048x2048, .f32⟩ : BufTy).Contents (Elt F) → (⟨S2048x2048, .f32⟩ : BufTy).Contents (Elt F)) ((subf : (⟨S2048x2048, .f32⟩ : BufTy).Contents (Elt F) → (⟨S2048x2048, .f32⟩ : BufTy).Contents (Elt F) → (⟨S2048x2048, .f32⟩ : BufTy).Contents (Elt F)) ((addf : (⟨S2048x2048, .f32⟩ : BufTy).Contents (Elt F) → (⟨S2048x2048, .f32⟩ : BufTy).Contents (Elt F) → (⟨S2048x2048, .f32⟩ : BufTy).Contents (Elt F)) ((broadcastInDim S2048x2048 ![0, 1] bcast_S2048x1_S2048x2048_0_1 : (⟨S2048x1, .f32⟩ : BufTy).Contents (Elt F) → (⟨S2048x2048, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (res_sq x))) ((broadcastInDim S2048x2048 ![0, 1] bcast_S1x2048_S2048x2048_0_1 : (⟨S1x2048, .f32⟩ : BufTy).Contents (Elt F) → (⟨S2048x2048, .f32⟩ : BufTy).Contents (Elt F)) ((broadcastInDim S1x2048 ![1] bcast_S2048_S1x2048_1 : (⟨S2048, .f32⟩ : BufTy).Contents (Elt F) → (⟨S1x2048, .f32⟩ : BufTy).Contents (Elt F)) (res_sq x)))) ((mulf : (⟨S2048x2048, .f32⟩ : BufTy).Contents (Elt F) → (⟨S2048x2048, .f32⟩ : BufTy).Contents (Elt F) → (⟨S2048x2048, .f32⟩ : BufTy).Contents (Elt F)) ((broadcastInDim S2048x2048 ![] bcast_S_S2048x2048 : (⟨S_, .f32⟩ : BufTy).Contents (Elt F) → (⟨S2048x2048, .f32⟩ : BufTy).Contents (Elt F)) (constant S_ .f32 0x40000000#32)) (res_gram x))) ((mulf : (⟨S2048x2048, .f32⟩ : BufTy).Contents (Elt F) → (⟨S2048x2048, .f32⟩ : BufTy).Contents (Elt F) → (⟨S2048x2048, .f32⟩ : BufTy).Contents (Elt F)) ((broadcastInDim S2048x2048 ![] bcast_S_S2048x2048 : (⟨S_, .f32⟩ : BufTy).Contents (Elt F) → (⟨S2048x2048, .f32⟩ : BufTy).Contents (Elt F)) (constant S_ .f32 0x360637BD#32)) ((subf : (⟨S2048x2048, .f32⟩ : BufTy).Contents (Elt F) → (⟨S2048x2048, .f32⟩ : BufTy).Contents (Elt F) → (⟨S2048x2048, .f32⟩ : BufTy).Contents (Elt F)) ((broadcastInDim S2048x2048 ![0, 1] bcast_S2048x1_S2048x2048_0_1 : (⟨S2048x1, .f32⟩ : BufTy).Contents (Elt F) → (⟨S2048x2048, .f32⟩ : BufTy).Contents (Elt F)) ((broadcastInDim S2048x1 ![0] bcast_S2048_S2048x1_0 : (⟨S2048, .f32⟩ : BufTy).Contents (Elt F) → (⟨S2048x1, .f32⟩ : BufTy).Contents (Elt F)) (res_rs x))) ((broadcastInDim S2048x2048 ![0, 1] bcast_S1x2048_S2048x2048_0_1 : (⟨S1x2048, .f32⟩ : BufTy).Contents (Elt F) → (⟨S2048x2048, .f32⟩ : BufTy).Contents (Elt F)) ((broadcastInDim S1x2048 ![1] bcast_S2048_S1x2048_1 : (⟨S2048, .f32⟩ : BufTy).Contents (Elt F) → (⟨S1x2048, .f32⟩ : BufTy).Contents (Elt F)) (res_rs x)))))) ((broadcastInDim S2048x2048 ![] bcast_S_S2048x2048 : (⟨S_, .f32⟩ : BufTy).Contents (Elt F) → (⟨S2048x2048, .f32⟩ : BufTy).Contents (Elt F)) (constant S_ .f32 0x30531B32#32))) ((broadcastInDim S2048x2048 ![] bcast_S_S2048x2048 : (⟨S_, .f32⟩ : BufTy).Contents (Elt F) → (⟨S2048x2048, .f32⟩ : BufTy).Contents (Elt F)) (constant S_ .f32 0x00000000#32)))) ((broadcastInDim S2048x2048 ![] bcast_S_S2048x2048 : (⟨S_, .f32⟩ : BufTy).Contents (Elt F) → (⟨S2048x2048, .f32⟩ : BufTy).Contents (Elt F)) (constant S_ .f32 0x3D13CD3A#32)))

/-- The first membership mask: entry (k, p) says `lab p = k` and `y p = 1`. -/
def res_pos (y : (⟨S2048, .i32⟩ : BufTy).Contents (Elt F)) (lab : (⟨S2048, .i32⟩ : BufTy).Contents (Elt F)) :
    (⟨S16x2048, .i1⟩ : BufTy).Contents (Elt F) :=
  ((andi : (⟨S16x2048, .i1⟩ : BufTy).Contents (Elt F) → (⟨S16x2048, .i1⟩ : BufTy).Contents (Elt F) → (⟨S16x2048, .i1⟩ : BufTy).Contents (Elt F)) ((cmpi .eq : (⟨S16x2048, .i32⟩ : BufTy).Contents (Elt F) → (⟨S16x2048, .i32⟩ : BufTy).Contents (Elt F) → (⟨S16x2048, .i1⟩ : BufTy).Contents (Elt F)) ((broadcastInDim S16x2048 ![0, 1] bcast_S1x2048_S16x2048_0_1 : (⟨S1x2048, .i32⟩ : BufTy).Contents (Elt F) → (⟨S16x2048, .i32⟩ : BufTy).Contents (Elt F)) ((broadcastInDim S1x2048 ![1] bcast_S2048_S1x2048_1 : (⟨S2048, .i32⟩ : BufTy).Contents (Elt F) → (⟨S1x2048, .i32⟩ : BufTy).Contents (Elt F)) lab)) ((broadcastInDim S16x2048 ![0, 1] bcast_S16x1_S16x2048_0_1 : (⟨S16x1, .i32⟩ : BufTy).Contents (Elt F) → (⟨S16x2048, .i32⟩ : BufTy).Contents (Elt F)) ((broadcastInDim S16x1 ![0] bcast_S16_S16x1_0 : (⟨S16, .i32⟩ : BufTy).Contents (Elt F) → (⟨S16x1, .i32⟩ : BufTy).Contents (Elt F)) (iotaInDim S16 32 0)))) ((broadcastInDim S16x2048 ![0, 1] bcast_S1x2048_S16x2048_0_1 : (⟨S1x2048, .i1⟩ : BufTy).Contents (Elt F) → (⟨S16x2048, .i1⟩ : BufTy).Contents (Elt F)) ((cmpi .eq : (⟨S1x2048, .i32⟩ : BufTy).Contents (Elt F) → (⟨S1x2048, .i32⟩ : BufTy).Contents (Elt F) → (⟨S1x2048, .i1⟩ : BufTy).Contents (Elt F)) ((broadcastInDim S1x2048 ![1] bcast_S2048_S1x2048_1 : (⟨S2048, .i32⟩ : BufTy).Contents (Elt F) → (⟨S1x2048, .i32⟩ : BufTy).Contents (Elt F)) y) ((broadcastInDim S1x2048 ![] bcast_S_S1x2048 : (⟨S_, .i32⟩ : BufTy).Contents (Elt F) → (⟨S1x2048, .i32⟩ : BufTy).Contents (Elt F)) (constantI S_ 32 1#32)))))

/-- The second membership mask: entry (k, p) says `lab p = k` and `y p = 0`. -/
def res_neg (y : (⟨S2048, .i32⟩ : BufTy).Contents (Elt F)) (lab : (⟨S2048, .i32⟩ : BufTy).Contents (Elt F)) :
    (⟨S16x2048, .i1⟩ : BufTy).Contents (Elt F) :=
  ((andi : (⟨S16x2048, .i1⟩ : BufTy).Contents (Elt F) → (⟨S16x2048, .i1⟩ : BufTy).Contents (Elt F) → (⟨S16x2048, .i1⟩ : BufTy).Contents (Elt F)) ((cmpi .eq : (⟨S16x2048, .i32⟩ : BufTy).Contents (Elt F) → (⟨S16x2048, .i32⟩ : BufTy).Contents (Elt F) → (⟨S16x2048, .i1⟩ : BufTy).Contents (Elt F)) ((broadcastInDim S16x2048 ![0, 1] bcast_S1x2048_S16x2048_0_1 : (⟨S1x2048, .i32⟩ : BufTy).Contents (Elt F) → (⟨S16x2048, .i32⟩ : BufTy).Contents (Elt F)) ((broadcastInDim S1x2048 ![1] bcast_S2048_S1x2048_1 : (⟨S2048, .i32⟩ : BufTy).Contents (Elt F) → (⟨S1x2048, .i32⟩ : BufTy).Contents (Elt F)) lab)) ((broadcastInDim S16x2048 ![0, 1] bcast_S16x1_S16x2048_0_1 : (⟨S16x1, .i32⟩ : BufTy).Contents (Elt F) → (⟨S16x2048, .i32⟩ : BufTy).Contents (Elt F)) ((broadcastInDim S16x1 ![0] bcast_S16_S16x1_0 : (⟨S16, .i32⟩ : BufTy).Contents (Elt F) → (⟨S16x1, .i32⟩ : BufTy).Contents (Elt F)) (iotaInDim S16 32 0)))) ((broadcastInDim S16x2048 ![0, 1] bcast_S1x2048_S16x2048_0_1 : (⟨S1x2048, .i1⟩ : BufTy).Contents (Elt F) → (⟨S16x2048, .i1⟩ : BufTy).Contents (Elt F)) ((cmpi .eq : (⟨S1x2048, .i32⟩ : BufTy).Contents (Elt F) → (⟨S1x2048, .i32⟩ : BufTy).Contents (Elt F) → (⟨S1x2048, .i1⟩ : BufTy).Contents (Elt F)) ((broadcastInDim S1x2048 ![1] bcast_S2048_S1x2048_1 : (⟨S2048, .i32⟩ : BufTy).Contents (Elt F) → (⟨S1x2048, .i32⟩ : BufTy).Contents (Elt F)) y) ((broadcastInDim S1x2048 ![] bcast_S_S1x2048 : (⟨S_, .i32⟩ : BufTy).Contents (Elt F) → (⟨S1x2048, .i32⟩ : BufTy).Contents (Elt F)) (constantI S_ 32 0#32)))))

/-- The first mask as 32-bit words. -/
def res_posw (y : (⟨S2048, .i32⟩ : BufTy).Contents (Elt F)) (lab : (⟨S2048, .i32⟩ : BufTy).Contents (Elt F)) :
    (⟨S16x2048, .i32⟩ : BufTy).Contents (Elt F) :=
  (((extui 32 · natLt_1_32) : (⟨S16x2048, .i1⟩ : BufTy).Contents (Elt F) → (⟨S16x2048, .i32⟩ : BufTy).Contents (Elt F)) (res_pos y lab))

/-- The first mask's row counts. -/
def res_cntpos (y : (⟨S2048, .i32⟩ : BufTy).Contents (Elt F)) (lab : (⟨S2048, .i32⟩ : BufTy).Contents (Elt F)) :
    (⟨S16, .i32⟩ : BufTy).Contents (Elt F) :=
  (((fun x v => Host.reduce IntOp.addi x v reducesTo_S16x2048_S16_d1 h_S_) : (⟨S16x2048, .i32⟩ : BufTy).Contents (Elt F) → (⟨S_, .i32⟩ : BufTy).Contents (Elt F) → (⟨S16, .i32⟩ : BufTy).Contents (Elt F)) (res_posw y lab) (constantI S_ 32 0#32))

/-- The second mask's row counts. -/
def res_cntneg (y : (⟨S2048, .i32⟩ : BufTy).Contents (Elt F)) (lab : (⟨S2048, .i32⟩ : BufTy).Contents (Elt F)) :
    (⟨S16, .i32⟩ : BufTy).Contents (Elt F) :=
  (((fun x v => Host.reduce IntOp.addi x v reducesTo_S16x2048_S16_d1 h_S_) : (⟨S16x2048, .i32⟩ : BufTy).Contents (Elt F) → (⟨S_, .i32⟩ : BufTy).Contents (Elt F) → (⟨S16, .i32⟩ : BufTy).Contents (Elt F)) (((extui 32 · natLt_1_32) : (⟨S16x2048, .i1⟩ : BufTy).Contents (Elt F) → (⟨S16x2048, .i32⟩ : BufTy).Contents (Elt F)) (res_neg y lab)) (constantI S_ 32 0#32))

/-- The arg-max column of each row of the second mask. -/
def res_amax (y : (⟨S2048, .i32⟩ : BufTy).Contents (Elt F)) (lab : (⟨S2048, .i32⟩ : BufTy).Contents (Elt F)) :
    (⟨S16, .i32⟩ : BufTy).Contents (Elt F) :=
  (((fun x y u v j => (Host.reduce2 reducer_argmax_i1_i32 x y u v reducesTo_S16x2048_S16_d1 h_S_ j).2) : (⟨S16x2048, .i1⟩ : BufTy).Contents (Elt F) → (⟨S16x2048, .i32⟩ : BufTy).Contents (Elt F) → (⟨S_, .i1⟩ : BufTy).Contents (Elt F) → (⟨S_, .i32⟩ : BufTy).Contents (Elt F) → (⟨S16, .i32⟩ : BufTy).Contents (Elt F)) (res_neg y lab) ((iotaInDim S16x2048 32 1) : (⟨S16x2048, .i32⟩ : BufTy).Contents (Elt F)) ((constantI S_ 1 0#1) : (⟨S_, .i1⟩ : BufTy).Contents (Elt F)) ((constantI S_ 32 0#32) : (⟨S_, .i32⟩ : BufTy).Contents (Elt F)))

/-- The anchor distances: row k is the distance matrix's column at the arg-max of the second mask's row k. -/
def res_dpn (Dm : (⟨S2048x2048, .f32⟩ : BufTy).Contents (Elt F)) (y : (⟨S2048, .i32⟩ : BufTy).Contents (Elt F)) (lab : (⟨S2048, .i32⟩ : BufTy).Contents (Elt F)) :
    (⟨S16x2048, .f32⟩ : BufTy).Contents (Elt F) :=
  (((transpose S16x2048 [1, 0] · transposes_S2048x16_S16x2048_1_0) : (⟨S2048x16, .f32⟩ : BufTy).Contents (Elt F) → (⟨S16x2048, .f32⟩ : BufTy).Contents (Elt F)) (((fun x i => Host.gather gather_S2048x2048_S16x1_S2048x16_0_1_n_n_1_1_20481 x i) : (⟨S2048x2048, .f32⟩ : BufTy).Contents (Elt F) → (⟨S16x1, .i32⟩ : BufTy).Contents (Elt F) → (⟨S2048x16, .f32⟩ : BufTy).Contents (Elt F)) Dm ((broadcastInDim S16x1 ![0] bcast_S16_S16x1_0 : (⟨S16, .i32⟩ : BufTy).Contents (Elt F) → (⟨S16x1, .i32⟩ : BufTy).Contents (Elt F)) ((select : (⟨S16, .i1⟩ : BufTy).Contents (Elt F) → (⟨S16, .i32⟩ : BufTy).Contents (Elt F) → (⟨S16, .i32⟩ : BufTy).Contents (Elt F) → (⟨S16, .i32⟩ : BufTy).Contents (Elt F)) ((cmpi .slt : (⟨S16, .i32⟩ : BufTy).Contents (Elt F) → (⟨S16, .i32⟩ : BufTy).Contents (Elt F) → (⟨S16, .i1⟩ : BufTy).Contents (Elt F)) (res_amax y lab) ((broadcastInDim S16 ![] bcast_S_S16 : (⟨S_, .i32⟩ : BufTy).Contents (Elt F) → (⟨S16, .i32⟩ : BufTy).Contents (Elt F)) (constantI S_ 32 0#32))) ((addi : (⟨S16, .i32⟩ : BufTy).Contents (Elt F) → (⟨S16, .i32⟩ : BufTy).Contents (Elt F) → (⟨S16, .i32⟩ : BufTy).Contents (Elt F)) (res_amax y lab) ((broadcastInDim S16 ![] bcast_S_S16 : (⟨S_, .i32⟩ : BufTy).Contents (Elt F) → (⟨S16, .i32⟩ : BufTy).Contents (Elt F)) (constantI S_ 32 2048#32))) (res_amax y lab)))))

/-- The masked hinge term of every cluster and pair. -/
def res_hterm (Dm : (⟨S2048x2048, .f32⟩ : BufTy).Contents (Elt F)) (y : (⟨S2048, .i32⟩ : BufTy).Contents (Elt F)) (lab : (⟨S2048, .i32⟩ : BufTy).Contents (Elt F)) :
    (⟨S16x2048x2048, .f32⟩ : BufTy).Contents (Elt F) :=
  ((select : (⟨S16x2048x2048, .i1⟩ : BufTy).Contents (Elt F) → (⟨S16x2048x2048, .f32⟩ : BufTy).Contents (Elt F) → (⟨S16x2048x2048, .f32⟩ : BufTy).Contents (Elt F) → (⟨S16x2048x2048, .f32⟩ : BufTy).Contents (Elt F)) ((andi : (⟨S16x2048x2048, .i1⟩ : BufTy).Contents (Elt F) → (⟨S16x2048x2048, .i1⟩ : BufTy).Contents (Elt F) → (⟨S16x2048x2048, .i1⟩ : BufTy).Contents (Elt F)) ((broadcastInDim S16x2048x2048 ![0, 1, 2] bcast_S16x2048x1_S16x2048x2048_0_1_2 : (⟨S16x2048x1, .i1⟩ : BufTy).Contents (Elt F) → (⟨S16x2048x2048, .i1⟩ : BufTy).Contents (Elt F)) ((broadcastInDim S16x2048x1 ![0, 1] bcast_S16x2048_S16x2048x1_0_1 : (⟨S16x2048, .i1⟩ : BufTy).Contents (Elt F) → (⟨S16x2048x1, .i1⟩ : BufTy).Contents (Elt F)) (res_pos y lab))) ((broadcastInDim S16x2048x2048 ![0, 1, 2] bcast_S16x1x2048_S16x2048x2048_0_1_2 : (⟨S16x1x2048, .i1⟩ : BufTy).Contents (Elt F) → (⟨S16x2048x2048, .i1⟩ : BufTy).Contents (Elt F)) ((broadcastInDim S16x1x2048 ![0, 2] bcast_S16x2048_S16x1x2048_0_2 : (⟨S16x2048, .i1⟩ : BufTy).Contents (Elt F) → (⟨S16x1x2048, .i1⟩ : BufTy).Contents (Elt F)) (res_pos y lab)))) ((maximumf : (⟨S16x2048x2048, .f32⟩ : BufTy).Contents (Elt F) → (⟨S16x2048x2048, .f32⟩ : BufTy).Contents (Elt F) → (⟨S16x2048x2048, .f32⟩ : BufTy).Contents (Elt F)) ((subf : (⟨S16x2048x2048, .f32⟩ : BufTy).Contents (Elt F) → (⟨S16x2048x2048, .f32⟩ : BufTy).Contents (Elt F) → (⟨S16x2048x2048, .f32⟩ : BufTy).Contents (Elt F)) ((broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)) ((addf : (⟨S1x2048x2048, .f32⟩ : BufTy).Contents (Elt F) → (⟨S1x2048x2048, .f32⟩ : BufTy).Contents (Elt F) → (⟨S1x2048x2048, .f32⟩ : BufTy).Contents (Elt F)) ((broadcastInDim S1x2048x2048 ![1, 2] bcast_S2048x2048_S1x2048x2048_1_2 : (⟨S2048x2048, .f32⟩ : BufTy).Contents (Elt F) → (⟨S1x2048x2048, .f32⟩ : BufTy).Contents (Elt F)) Dm) ((broadcastInDim S1x2048x2048 ![] bcast_S_S1x2048x2048 : (⟨S_, .f32⟩ : BufTy).Contents (Elt F) → (⟨S1x2048x2048, .f32⟩ : BufTy).Contents (Elt F)) (constant S_ .f32 0x3D4CCCCD#32)))) ((broadcastInDim S16x2048x2048 ![0, 1, 2] bcast_S16x2048x1_S16x2048x2048_0_1_2 : (⟨S16x2048x1, .f32⟩ : BufTy).Contents (Elt F) → (⟨S16x2048x2048, .f32⟩ : BufTy).Contents (Elt F)) ((broadcastInDim S16x2048x1 ![0, 1] bcast_S16x2048_S16x2048x1_0_1 : (⟨S16x2048, .f32⟩ : BufTy).Contents (Elt F) → (⟨S16x2048x1, .f32⟩ : BufTy).Contents (Elt F)) (res_dpn Dm y lab)))) ((broadcastInDim S16x2048x2048 ![] bcast_S_S16x2048x2048 : (⟨S_, .f32⟩ : BufTy).Contents (Elt F) → (⟨S16x2048x2048, .f32⟩ : BufTy).Contents (Elt F)) (constant S_ .f32 0x00000000#32))) (((broadcastInDim S16x2048x2048 ![] bcast_S_S16x2048x2048) : (⟨S_, .f32⟩ : BufTy).Contents (Elt F) → (⟨S16x2048x2048, .f32⟩ : BufTy).Contents (Elt F)) ((id : (⟨S_, .f32⟩ : BufTy).Contents (Elt F) → (⟨S_, .f32⟩ : BufTy).Contents (Elt F)) (constant S_ .f32 0x00000000#32))))

/-- Each cluster's sum of its masked hinge terms over all pairs. -/
def res_hsum (Dm : (⟨S2048x2048, .f32⟩ : BufTy).Contents (Elt F)) (y : (⟨S2048, .i32⟩ : BufTy).Contents (Elt F)) (lab : (⟨S2048, .i32⟩ : BufTy).Contents (Elt F)) :
    (⟨S16, .f32⟩ : BufTy).Contents (Elt F) :=
  (((fun x v => Host.reduceAdd x v reducesTo_S16x2048x2048_S16_d1_2 h_S_) : (⟨S16x2048x2048, .f32⟩ : BufTy).Contents (Elt F) → (⟨S_, .f32⟩ : BufTy).Contents (Elt F) → (⟨S16, .f32⟩ : BufTy).Contents (Elt F)) (res_hterm Dm y lab) (constant S_ .f32 0x00000000#32))

/-- The clusters' hinge sums divided by their pair counts, clamped, selected where both masks are large enough, and summed. -/
def res_total (h : (⟨S16, .f32⟩ : BufTy).Contents (Elt F)) (y : (⟨S2048, .i32⟩ : BufTy).Contents (Elt F)) (lab : (⟨S2048, .i32⟩ : BufTy).Contents (Elt F)) :
    (⟨S_, .f32⟩ : BufTy).Contents (Elt F) :=
  (((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) ((select : (⟨S16, .i1⟩ : BufTy).Contents (Elt F) → (⟨S16, .f32⟩ : BufTy).Contents (Elt F) → (⟨S16, .f32⟩ : BufTy).Contents (Elt F) → (⟨S16, .f32⟩ : BufTy).Contents (Elt F)) ((andi : (⟨S16, .i1⟩ : BufTy).Contents (Elt F) → (⟨S16, .i1⟩ : BufTy).Contents (Elt F) → (⟨S16, .i1⟩ : BufTy).Contents (Elt F)) ((cmpi .sgt : (⟨S16, .i32⟩ : BufTy).Contents (Elt F) → (⟨S16, .i32⟩ : BufTy).Contents (Elt F) → (⟨S16, .i1⟩ : BufTy).Contents (Elt F)) (res_cntpos y lab) ((broadcastInDim S16 ![] bcast_S_S16 : (⟨S_, .i32⟩ : BufTy).Contents (Elt F) → (⟨S16, .i32⟩ : BufTy).Contents (Elt F)) (constantI S_ 32 1#32))) ((cmpi .sgt : (⟨S16, .i32⟩ : BufTy).Contents (Elt F) → (⟨S16, .i32⟩ : BufTy).Contents (Elt F) → (⟨S16, .i1⟩ : BufTy).Contents (Elt F)) (res_cntneg y lab) ((broadcastInDim S16 ![] bcast_S_S16 : (⟨S_, .i32⟩ : BufTy).Contents (Elt F) → (⟨S16, .i32⟩ : BufTy).Contents (Elt F)) (constantI S_ 32 0#32)))) ((maximumf : (⟨S16, .f32⟩ : BufTy).Contents (Elt F) → (⟨S16, .f32⟩ : BufTy).Contents (Elt F) → (⟨S16, .f32⟩ : BufTy).Contents (Elt F)) ((Host.divf : (⟨S16, .f32⟩ : BufTy).Contents (Elt F) → (⟨S16, .f32⟩ : BufTy).Contents (Elt F) → (⟨S16, .f32⟩ : BufTy).Contents (Elt F)) h ((sitofp .f32 : (⟨S16, .i32⟩ : BufTy).Contents (Elt F) → (⟨S16, .f32⟩ : BufTy).Contents (Elt F)) ((maxsi : (⟨S16, .i32⟩ : BufTy).Contents (Elt F) → (⟨S16, .i32⟩ : BufTy).Contents (Elt F) → (⟨S16, .i32⟩ : BufTy).Contents (Elt F)) ((subi : (⟨S16, .i32⟩ : BufTy).Contents (Elt F) → (⟨S16, .i32⟩ : BufTy).Contents (Elt F) → (⟨S16, .i32⟩ : BufTy).Contents (Elt F)) (res_cntpos y lab) ((broadcastInDim S16 ![] bcast_S_S16 : (⟨S_, .i32⟩ : BufTy).Contents (Elt F) → (⟨S16, .i32⟩ : BufTy).Contents (Elt F)) (constantI S_ 32 1#32))) ((broadcastInDim S16 ![] bcast_S_S16 : (⟨S_, .i32⟩ : BufTy).Contents (Elt F) → (⟨S16, .i32⟩ : BufTy).Contents (Elt F)) (constantI S_ 32 1#32))))) ((broadcastInDim S16 ![] bcast_S_S16 : (⟨S_, .f32⟩ : BufTy).Contents (Elt F) → (⟨S16, .f32⟩ : BufTy).Contents (Elt F)) (constant S_ .f32 0x00000000#32))) (((broadcastInDim S16 ![] bcast_S_S16) : (⟨S_, .f32⟩ : BufTy).Contents (Elt F) → (⟨S16, .f32⟩ : BufTy).Contents (Elt F)) ((id : (⟨S_, .f32⟩ : BufTy).Contents (Elt F) → (⟨S_, .f32⟩ : BufTy).Contents (Elt F)) (constant S_ .f32 0x00000000#32)))) (constant S_ .f32 0x00000000#32))

/-- The log-softmax of the scores along their second axis. -/
def res_lsm (yh : (⟨S2048x2, .f32⟩ : BufTy).Contents (Elt F)) :
    (⟨S2048x2, .f32⟩ : BufTy).Contents (Elt F) :=
  ((subf : (⟨S2048x2, .f32⟩ : BufTy).Contents (Elt F) → (⟨S2048x2, .f32⟩ : BufTy).Contents (Elt F) → (⟨S2048x2, .f32⟩ : BufTy).Contents (Elt F)) ((subf : (⟨S2048x2, .f32⟩ : BufTy).Contents (Elt F) → (⟨S2048x2, .f32⟩ : BufTy).Contents (Elt F) → (⟨S2048x2, .f32⟩ : BufTy).Contents (Elt F)) yh (((broadcastInDim S2048x2 ![0, 1] bcast_S2048x1_S2048x2_0_1) : (⟨S2048x1, .f32⟩ : BufTy).Contents (Elt F) → (⟨S2048x2, .f32⟩ : BufTy).Contents (Elt F)) (((broadcastInDim S2048x1 ![0] bcast_S2048_S2048x1_0) : (⟨S2048, .f32⟩ : BufTy).Contents (Elt F) → (⟨S2048x1, .f32⟩ : BufTy).Contents (Elt F)) ((maximumf : (⟨S2048, .f32⟩ : BufTy).Contents (Elt F) → (⟨S2048, .f32⟩ : BufTy).Contents (Elt F) → (⟨S2048, .f32⟩ : BufTy).Contents (Elt F)) (((broadcastInDim S2048 ![] bcast_S_S2048) : (⟨S_, .f32⟩ : BufTy).Contents (Elt F) → (⟨S2048, .f32⟩ : BufTy).Contents (Elt F)) ((constant S_ .f32 0xFF800000#32) : (⟨S_, .f32⟩ : BufTy).Contents (Elt F))) (((fun x v => Host.reduce FloatOps.maximumf x v reducesTo_S2048x2_S2048_d1 h_S_) : (⟨S2048x2, .f32⟩ : BufTy).Contents (Elt F) → (⟨S_, .f32⟩ : BufTy).Contents (Elt F) → (⟨S2048, .f32⟩ : BufTy).Contents (Elt F)) yh ((constant S_ .f32 0xFF800000#32) : (⟨S_, .f32⟩ : BufTy).Contents (Elt F))))))) (((broadcastInDim S2048x2 ![0, 1] bcast_S2048x1_S2048x2_0_1) : (⟨S2048x1, .f32⟩ : BufTy).Contents (Elt F) → (⟨S2048x2, .f32⟩ : BufTy).Contents (Elt F)) ((Host.log : (⟨S2048x1, .f32⟩ : BufTy).Contents (Elt F) → (⟨S2048x1, .f32⟩ : BufTy).Contents (Elt F)) (((broadcastInDim S2048x1 ![0] bcast_S2048_S2048x1_0) : (⟨S2048, .f32⟩ : BufTy).Contents (Elt F) → (⟨S2048x1, .f32⟩ : BufTy).Contents (Elt F)) (((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)) ((Host.exp : (⟨S2048x2, .f32⟩ : BufTy).Contents (Elt F) → (⟨S2048x2, .f32⟩ : BufTy).Contents (Elt F)) ((subf : (⟨S2048x2, .f32⟩ : BufTy).Contents (Elt F) → (⟨S2048x2, .f32⟩ : BufTy).Contents (Elt F) → (⟨S2048x2, .f32⟩ : BufTy).Contents (Elt F)) yh (((broadcastInDim S2048x2 ![0, 1] bcast_S2048x1_S2048x2_0_1) : (⟨S2048x1, .f32⟩ : BufTy).Contents (Elt F) → (⟨S2048x2, .f32⟩ : BufTy).Contents (Elt F)) (((broadcastInDim S2048x1 ![0] bcast_S2048_S2048x1_0) : (⟨S2048, .f32⟩ : BufTy).Contents (Elt F) → (⟨S2048x1, .f32⟩ : BufTy).Contents (Elt F)) ((maximumf : (⟨S2048, .f32⟩ : BufTy).Contents (Elt F) → (⟨S2048, .f32⟩ : BufTy).Contents (Elt F) → (⟨S2048, .f32⟩ : BufTy).Contents (Elt F)) (((broadcastInDim S2048 ![] bcast_S_S2048) : (⟨S_, .f32⟩ : BufTy).Contents (Elt F) → (⟨S2048, .f32⟩ : BufTy).Contents (Elt F)) ((constant S_ .f32 0xFF800000#32) : (⟨S_, .f32⟩ : BufTy).Contents (Elt F))) (((fun x v => Host.reduce FloatOps.maximumf x v reducesTo_S2048x2_S2048_d1 h_S_) : (⟨S2048x2, .f32⟩ : BufTy).Contents (Elt F) → (⟨S_, .f32⟩ : BufTy).Contents (Elt F) → (⟨S2048, .f32⟩ : BufTy).Contents (Elt F)) yh ((constant S_ .f32 0xFF800000#32) : (⟨S_, .f32⟩ : BufTy).Contents (Elt F)))))))) ((constant S_ .f32 0x00000000#32) : (⟨S_, .f32⟩ : BufTy).Contents (Elt F)))))))

/-- The log-softmax of the scores taken along the labels. -/
def res_taken (yh : (⟨S2048x2, .f32⟩ : BufTy).Contents (Elt F)) (y : (⟨S2048, .i32⟩ : BufTy).Contents (Elt F)) :
    (⟨S2048x1, .f32⟩ : BufTy).Contents (Elt F) :=
  ((select : (⟨S2048x1, .i1⟩ : BufTy).Contents (Elt F) → (⟨S2048x1, .f32⟩ : BufTy).Contents (Elt F) → (⟨S2048x1, .f32⟩ : BufTy).Contents (Elt F) → (⟨S2048x1, .f32⟩ : BufTy).Contents (Elt F)) (((fun x v => Host.reduce IntOp.andi x v reducesTo_S2048x1x1_S2048x1_d2 h_S_) : (⟨S2048x1x1, .i1⟩ : BufTy).Contents (Elt F) → (⟨S_, .i1⟩ : BufTy).Contents (Elt F) → (⟨S2048x1, .i1⟩ : BufTy).Contents (Elt F)) ((andi : (⟨S2048x1x1, .i1⟩ : BufTy).Contents (Elt F) → (⟨S2048x1x1, .i1⟩ : BufTy).Contents (Elt F) → (⟨S2048x1x1, .i1⟩ : BufTy).Contents (Elt F)) (((cmpi .sge) : (⟨S2048x1x1, .i32⟩ : BufTy).Contents (Elt F) → (⟨S2048x1x1, .i32⟩ : BufTy).Contents (Elt F) → (⟨S2048x1x1, .i1⟩ : BufTy).Contents (Elt F)) ((fun i => shapeCast S2048x1x1 ((select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)) (((cmpi .slt) : (⟨S2048x1, .i32⟩ : BufTy).Contents (Elt F) → (⟨S2048x1, .i32⟩ : BufTy).Contents (Elt F) → (⟨S2048x1, .i1⟩ : BufTy).Contents (Elt F)) ((broadcastInDim S2048x1 ![0] bcast_S2048_S2048x1_0 : (⟨S2048, .i32⟩ : BufTy).Contents (Elt F) → (⟨S2048x1, .i32⟩ : BufTy).Contents (Elt F)) y) (((broadcastInDim S2048x1 ![] bcast_S_S2048x1) : (⟨S_, .i32⟩ : BufTy).Contents (Elt F) → (⟨S2048x1, .i32⟩ : BufTy).Contents (Elt F)) ((constantI S_ 32 0#32) : (⟨S_, .i32⟩ : BufTy).Contents (Elt F)))) ((addi : (⟨S2048x1, .i32⟩ : BufTy).Contents (Elt F) → (⟨S2048x1, .i32⟩ : BufTy).Contents (Elt F) → (⟨S2048x1, .i32⟩ : BufTy).Contents (Elt F)) ((broadcastInDim S2048x1 ![0] bcast_S2048_S2048x1_0 : (⟨S2048, .i32⟩ : BufTy).Contents (Elt F) → (⟨S2048x1, .i32⟩ : BufTy).Contents (Elt F)) y) (((broadcastInDim S2048x1 ![] bcast_S_S2048x1) : (⟨S_, .i32⟩ : BufTy).Contents (Elt F) → (⟨S2048x1, .i32⟩ : BufTy).Contents (Elt F)) ((constantI S_ 32 2#32) : (⟨S_, .i32⟩ : BufTy).Contents (Elt F)))) ((broadcastInDim S2048x1 ![0] bcast_S2048_S2048x1_0 : (⟨S2048, .i32⟩ : BufTy).Contents (Elt F) → (⟨S2048x1, .i32⟩ : BufTy).Contents (Elt F)) y)) shapeCasts_S2048x1_S2048x1x1 i) : (⟨S2048x1x1, .i32⟩ : BufTy).Contents (Elt F)) (((broadcastInDim S2048x1x1 ![] bcast_S_S2048x1x1) : (⟨S_, .i32⟩ : BufTy).Contents (Elt F) → (⟨S2048x1x1, .i32⟩ : BufTy).Contents (Elt F)) ((constantI S_ 32 0#32) : (⟨S_, .i32⟩ : BufTy).Contents (Elt F)))) (((cmpi .sle) : (⟨S2048x1x1, .i32⟩ : BufTy).Contents (Elt F) → (⟨S2048x1x1, .i32⟩ : BufTy).Contents (Elt F) → (⟨S2048x1x1, .i1⟩ : BufTy).Contents (Elt F)) ((fun i => shapeCast S2048x1x1 ((select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)) (((cmpi .slt) : (⟨S2048x1, .i32⟩ : BufTy).Contents (Elt F) → (⟨S2048x1, .i32⟩ : BufTy).Contents (Elt F) → (⟨S2048x1, .i1⟩ : BufTy).Contents (Elt F)) ((broadcastInDim S2048x1 ![0] bcast_S2048_S2048x1_0 : (⟨S2048, .i32⟩ : BufTy).Contents (Elt F) → (⟨S2048x1, .i32⟩ : BufTy).Contents (Elt F)) y) (((broadcastInDim S2048x1 ![] bcast_S_S2048x1) : (⟨S_, .i32⟩ : BufTy).Contents (Elt F) → (⟨S2048x1, .i32⟩ : BufTy).Contents (Elt F)) ((constantI S_ 32 0#32) : (⟨S_, .i32⟩ : BufTy).Contents (Elt F)))) ((addi : (⟨S2048x1, .i32⟩ : BufTy).Contents (Elt F) → (⟨S2048x1, .i32⟩ : BufTy).Contents (Elt F) → (⟨S2048x1, .i32⟩ : BufTy).Contents (Elt F)) ((broadcastInDim S2048x1 ![0] bcast_S2048_S2048x1_0 : (⟨S2048, .i32⟩ : BufTy).Contents (Elt F) → (⟨S2048x1, .i32⟩ : BufTy).Contents (Elt F)) y) (((broadcastInDim S2048x1 ![] bcast_S_S2048x1) : (⟨S_, .i32⟩ : BufTy).Contents (Elt F) → (⟨S2048x1, .i32⟩ : BufTy).Contents (Elt F)) ((constantI S_ 32 2#32) : (⟨S_, .i32⟩ : BufTy).Contents (Elt F)))) ((broadcastInDim S2048x1 ![0] bcast_S2048_S2048x1_0 : (⟨S2048, .i32⟩ : BufTy).Contents (Elt F) → (⟨S2048x1, .i32⟩ : BufTy).Contents (Elt F)) y)) shapeCasts_S2048x1_S2048x1x1 i) : (⟨S2048x1x1, .i32⟩ : BufTy).Contents (Elt F)) (((broadcastInDim S2048x1x1 ![0, 1, 2] bcast_S1x1x1_S2048x1x1_0_1_2) : (⟨S1x1x1, .i32⟩ : BufTy).Contents (Elt F) → (⟨S2048x1x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) ((constantI S1 32 1#32) : (⟨S1, .i32⟩ : BufTy).Contents (Elt F)))))) ((constantI S_ 1 1#1) : (⟨S_, .i1⟩ : BufTy).Contents (Elt F))) (((fun x i => Host.gather gather_S2048x2_S2048x1x1_S2048x1_n_1_0_0_1_2_11 x i) : (⟨S2048x2, .f32⟩ : BufTy).Contents (Elt F) → (⟨S2048x1x1, .i32⟩ : BufTy).Contents (Elt F) → (⟨S2048x1, .f32⟩ : BufTy).Contents (Elt F)) (res_lsm yh) ((fun i => shapeCast S2048x1x1 ((select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)) (((cmpi .slt) : (⟨S2048x1, .i32⟩ : BufTy).Contents (Elt F) → (⟨S2048x1, .i32⟩ : BufTy).Contents (Elt F) → (⟨S2048x1, .i1⟩ : BufTy).Contents (Elt F)) ((broadcastInDim S2048x1 ![0] bcast_S2048_S2048x1_0 : (⟨S2048, .i32⟩ : BufTy).Contents (Elt F) → (⟨S2048x1, .i32⟩ : BufTy).Contents (Elt F)) y) (((broadcastInDim S2048x1 ![] bcast_S_S2048x1) : (⟨S_, .i32⟩ : BufTy).Contents (Elt F) → (⟨S2048x1, .i32⟩ : BufTy).Contents (Elt F)) ((constantI S_ 32 0#32) : (⟨S_, .i32⟩ : BufTy).Contents (Elt F)))) ((addi : (⟨S2048x1, .i32⟩ : BufTy).Contents (Elt F) → (⟨S2048x1, .i32⟩ : BufTy).Contents (Elt F) → (⟨S2048x1, .i32⟩ : BufTy).Contents (Elt F)) ((broadcastInDim S2048x1 ![0] bcast_S2048_S2048x1_0 : (⟨S2048, .i32⟩ : BufTy).Contents (Elt F) → (⟨S2048x1, .i32⟩ : BufTy).Contents (Elt F)) y) (((broadcastInDim S2048x1 ![] bcast_S_S2048x1) : (⟨S_, .i32⟩ : BufTy).Contents (Elt F) → (⟨S2048x1, .i32⟩ : BufTy).Contents (Elt F)) ((constantI S_ 32 2#32) : (⟨S_, .i32⟩ : BufTy).Contents (Elt F)))) ((broadcastInDim S2048x1 ![0] bcast_S2048_S2048x1_0 : (⟨S2048, .i32⟩ : BufTy).Contents (Elt F) → (⟨S2048x1, .i32⟩ : BufTy).Contents (Elt F)) y)) shapeCasts_S2048x1_S2048x1x1 i) : (⟨S2048x1x1, .i32⟩ : BufTy).Contents (Elt F))) (((broadcastInDim S2048x1 ![] bcast_S_S2048x1) : (⟨S_, .f32⟩ : BufTy).Contents (Elt F) → (⟨S2048x1, .f32⟩ : BufTy).Contents (Elt F)) ((constant S_ .f32 0x7FC00000#32) : (⟨S_, .f32⟩ : BufTy).Contents (Elt F))))

/-- Everything after the hinge sums: the mean of the taken log-probabilities, negated and doubled, minus the clusters' total. -/
def res_tail (h : (⟨S16, .f32⟩ : BufTy).Contents (Elt F)) (yh : (⟨S2048x2, .f32⟩ : BufTy).Contents (Elt F)) (y : (⟨S2048, .i32⟩ : BufTy).Contents (Elt F)) (lab : (⟨S2048, .i32⟩ : BufTy).Contents (Elt F)) :
    (⟨S_, .f32⟩ : BufTy).Contents (Elt F) :=
  ((addf : (⟨S_, .f32⟩ : BufTy).Contents (Elt F) → (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (constant S_ .f32 0x40000000#32) ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S2048x1_S_d0_1 h_S_) : (⟨S2048x1, .f32⟩ : BufTy).Contents (Elt F) → (⟨S_, .f32⟩ : BufTy).Contents (Elt F) → (⟨S_, .f32⟩ : BufTy).Contents (Elt F)) (res_taken yh y) (constant S_ .f32 0x00000000#32)) (constant S_ .f32 0x45000000#32)))) ((mulf : (⟨S_, .f32⟩ : BufTy).Contents (Elt F) → (⟨S_, .f32⟩ : BufTy).Contents (Elt F) → (⟨S_, .f32⟩ : BufTy).Contents (Elt F)) (constant S_ .f32 0xBF800000#32) (res_total h y lab)))

/-- The program's result: the tail applied to the hinge sums of the distance matrix. -/
def res (x : (⟨S2048x768, .f32⟩ : BufTy).Contents (Elt F)) (yh : (⟨S2048x2, .f32⟩ : BufTy).Contents (Elt F)) (y : (⟨S2048, .i32⟩ : BufTy).Contents (Elt F)) (lab : (⟨S2048, .i32⟩ : BufTy).Contents (Elt F)) :
    (⟨S_, .f32⟩ : BufTy).Contents (Elt F) :=
  res_tail (res_hsum (res_D x) y lab) yh y lab

end Cert.ReferenceIdeal.RefRun

end
-- ==== Proof.RefRun3.lean ====
/-
  What the first three stretches of the reference's operations leave in the buffers later stretches read, from any contents:
  the distance matrix, the two masks, their counts and the anchor distances, each as its named stage of what the stretch reads.
-/
import proofs.«148920_j31516470018602_1_alg».proof.Proof.RefRun1
import proofs.«148920_j31516470018602_1_alg».proof.Proof.RefRun2

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.gather

/-- The buffers that stretch 0's operations write. -/
abbrev ops_c0_W : List (Ref sig .tc) := [main_v0, main_cst, main_v1, main_cst_0, main_v2, main_v3, main_v4, main_v5, main_v6, main_v7, main_v8, main_v9, main_cst_1, main_v10, main_v11, main_v12, main_v13, main_v14, main_v15, main_v16, main_v17, main_cst_2, main_v18, main_v19, main_v20, main_cst_3, main_v21, main_v22, main_cst_4, main_v23, main_v24, main_v25, main_cst_5, main_v26, main_v27]
set_option maxRecDepth 8192 in
theorem ops_c0_writes : (ops_c0 : List (HloOp τ sig (Elt F))).Forall fun op => op.writes ⊆ (ops_c0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A buffer that stretch 0 does not write keeps its contents through it. -/
theorem c0_keep (W : Valuation τ sig (Elt F)) (r : Ref sig .tc) (h : r ∉ ops_c0_W) :
    after ops_c0 W (Proc.devRef .tc r) = W (Proc.devRef .tc r) :=
  after_of_writes_sub ops_c0 _ ops_c0_writes h

set_option maxRecDepth 8192 in
set_option maxHeartbeats 2000000 in
theorem c0_main_v27 (W : Valuation τ sig (Elt F)) (x : (⟨S2048x768, .f32⟩ : BufTy).Contents (Elt F))
    (h0 : W (Proc.devRef .tc main_arg0) = x) :
    after ops_c0 W (Proc.devRef .tc main_v27) = res_D x := by
  simp only [ops_c0]
  after_results_simp
  (try simp only [h0]) <;> rfl

/-- The buffers that stretch 1's operations write. -/
abbrev ops_c1_W : List (Ref sig .tc) := [main_v28, main_v29, main_v30, main_v31, main_v32, main_v33, main_v34, main_c, main_v35, main_v36, main_v37, main_v38, main_v39, main_v40, main_v41, main_v42, main_v43, main_v44, main_c_6, main_v45, main_v46, main_v47, main_v48, main_v49, main_c_7]
set_option maxRecDepth 8192 in
theorem ops_c1_writes : (ops_c1 : List (HloOp τ sig (Elt F))).Forall fun op => op.writes ⊆ (ops_c1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A buffer that stretch 1 does not write keeps its contents through it. -/
theorem c1_keep (W : Valuation τ sig (Elt F)) (r : Ref sig .tc) (h : r ∉ ops_c1_W) :
    after ops_c1 W (Proc.devRef .tc r) = W (Proc.devRef .tc r) :=
  after_of_writes_sub ops_c1 _ ops_c1_writes h

set_option maxRecDepth 8192 in
set_option maxHeartbeats 2000000 in
theorem c1_main_v38 (W : Valuation τ sig (Elt F)) (y : (⟨S2048, .i32⟩ : BufTy).Contents (Elt F)) (lab : (⟨S2048, .i32⟩ : BufTy).Contents (Elt F))
    (h0 : W (Proc.devRef .tc main_arg2) = y) (h1 : W (Proc.devRef .tc main_arg3) = lab) :
    after ops_c1 W (Proc.devRef .tc main_v38) = res_pos y lab := by
  simp only [ops_c1]
  after_results_simp
  (try simp only [h0, h1]) <;> rfl

set_option maxRecDepth 8192 in
set_option maxHeartbeats 2000000 in
theorem c1_main_v48 (W : Valuation τ sig (Elt F)) (y : (⟨S2048, .i32⟩ : BufTy).Contents (Elt F)) (lab : (⟨S2048, .i32⟩ : BufTy).Contents (Elt F))
    (h0 : W (Proc.devRef .tc main_arg2) = y) (h1 : W (Proc.devRef .tc main_arg3) = lab) :
    after ops_c1 W (Proc.devRef .tc main_v48) = res_neg y lab := by
  simp only [ops_c1]
  after_results_simp
  (try simp only [h0, h1]) <;> rfl

set_option maxRecDepth 8192 in
set_option maxHeartbeats 2000000 in
theorem c1_main_v49 (W : Valuation τ sig (Elt F)) (y : (⟨S2048, .i32⟩ : BufTy).Contents (Elt F)) (lab : (⟨S2048, .i32⟩ : BufTy).Contents (Elt F))
    (h0 : W (Proc.devRef .tc main_arg2) = y) (h1 : W (Proc.devRef .tc main_arg3) = lab) :
    after ops_c1 W (Proc.devRef .tc main_v49) = res_posw y lab := by
  simp only [ops_c1]
  after_results_simp
  (try simp only [h0, h1]) <;> rfl

set_option maxRecDepth 8192 in
set_option maxHeartbeats 2000000 in
theorem c1_main_c_7 (W : Valuation τ sig (Elt F)) :
    after ops_c1 W (Proc.devRef .tc main_c_7) = constantI S_ 32 0#32 := by
  simp only [ops_c1]
  after_results_simp
  (try rfl)

/-- The buffers that stretch 2's operations write. -/
abbrev ops_c2_W : List (Ref sig .tc) := [main_v50, main_v51, main_c_8, main_v52, main_call0_v0, main_call0_c, main_call0_c_0, main_call0_v1_0, main_v53, main_c_9, main_v54, main_v55, main_c_10, main_v56, main_v57, main_v58, main_v59, main_v60, main_v61]
set_option maxRecDepth 8192 in
theorem ops_c2_writes : (ops_c2 : List (HloOp τ sig (Elt F))).Forall fun op => op.writes ⊆ (ops_c2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A buffer that stretch 2 does not write keeps its contents through it. -/
theorem c2_keep (W : Valuation τ sig (Elt F)) (r : Ref sig .tc) (h : r ∉ ops_c2_W) :
    after ops_c2 W (Proc.devRef .tc r) = W (Proc.devRef .tc r) :=
  after_of_writes_sub ops_c2 _ ops_c2_writes h

set_option maxRecDepth 8192 in
set_option maxHeartbeats 2000000 in
theorem c2_main_v50 (W : Valuation τ sig (Elt F)) (y : (⟨S2048, .i32⟩ : BufTy).Contents (Elt F)) (lab : (⟨S2048, .i32⟩ : BufTy).Contents (Elt F))
    (h0 : W (Proc.devRef .tc main_v49) = res_posw y lab) (h1 : W (Proc.devRef .tc main_c_7) = constantI S_ 32 0#32) :
    after ops_c2 W (Proc.devRef .tc main_v50) = res_cntpos y lab := by
  simp only [ops_c2]
  after_results_simp
  (try simp only [h0, h1]) <;> rfl

set_option maxRecDepth 8192 in
set_option maxHeartbeats 2000000 in
theorem c2_main_v52 (W : Valuation τ sig (Elt F)) (y : (⟨S2048, .i32⟩ : BufTy).Contents (Elt F)) (lab : (⟨S2048, .i32⟩ : BufTy).Contents (Elt F))
    (h0 : W (Proc.devRef .tc main_v48) = res_neg y lab) :
    after ops_c2 W (Proc.devRef .tc main_v52) = res_cntneg y lab := by
  simp only [ops_c2]
  after_results_simp
  (try simp only [h0]) <;> rfl

set_option maxRecDepth 8192 in
set_option maxHeartbeats 2000000 in
theorem c2_main_v61 (W : Valuation τ sig (Elt F)) (Dm : (⟨S2048x2048, .f32⟩ : BufTy).Contents (Elt F)) (y : (⟨S2048, .i32⟩ : BufTy).Contents (Elt F)) (lab : (⟨S2048, .i32⟩ : BufTy).Contents (Elt F))
    (h0 : W (Proc.devRef .tc main_v27) = Dm) (h1 : W (Proc.devRef .tc main_v48) = res_neg y lab) :
    after ops_c2 W (Proc.devRef .tc main_v61) = res_dpn Dm y lab := by
  simp only [ops_c2]
  after_results_simp
  (try simp only [h0, h1]) <;> rfl

end Cert.ReferenceIdeal.RefRun

end
-- ==== Proof.RefRun4.lean ====
/-
  What the fourth and fifth stretches leave, from any contents: the masked hinge terms, and the clusters' total as a function of the hinge sums.
-/
import proofs.«148920_j31516470018602_1_alg».proof.Proof.RefRun1
import proofs.«148920_j31516470018602_1_alg».proof.Proof.RefRun2

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.gather

/-- The buffers that stretch 3's operations write. -/
abbrev ops_c3_W : List (Ref sig .tc) := [main_v62, main_v63, main_v64, main_v65, main_v66, main_v67, main_cst_11, main_v68, main_v69, main_v70, main_v71, main_v72, main_v73, main_cst_12, main_v74, main_v75, main_cst_13, main_call1_v0, main_call1_v1, main_v76]
set_option maxRecDepth 8192 in
theorem ops_c3_writes : (ops_c3 : List (HloOp τ sig (Elt F))).Forall fun op => op.writes ⊆ (ops_c3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A buffer that stretch 3 does not write keeps its contents through it. -/
theorem c3_keep (W : Valuation τ sig (Elt F)) (r : Ref sig .tc) (h : r ∉ ops_c3_W) :
    after ops_c3 W (Proc.devRef .tc r) = W (Proc.devRef .tc r) :=
  after_of_writes_sub ops_c3 _ ops_c3_writes h

set_option maxRecDepth 8192 in
set_option maxHeartbeats 2000000 in
theorem c3_main_v76 (W : Valuation τ sig (Elt F)) (Dm : (⟨S2048x2048, .f32⟩ : BufTy).Contents (Elt F)) (y : (⟨S2048, .i32⟩ : BufTy).Contents (Elt F)) (lab : (⟨S2048, .i32⟩ : BufTy).Contents (Elt F))
    (h0 : W (Proc.devRef .tc main_v27) = Dm) (h1 : W (Proc.devRef .tc main_v38) = res_pos y lab) (h2 : W (Proc.devRef .tc main_v61) = res_dpn Dm y lab) :
    after ops_c3 W (Proc.devRef .tc main_v76) = res_hterm Dm y lab := by
  simp only [ops_c3]
  after_results_simp
  (try simp only [h0, h1, h2]) <;> rfl

/-- The buffers that stretch 4's operations write. -/
abbrev ops_c4_W : List (Ref sig .tc) := [main_c_14, main_v77, main_v78, main_c_15, main_v79, main_v80, main_v81, main_cst_16, main_v82, main_v83, main_cst_17, main_v84, main_v85, main_c_18, main_v86, main_v87, main_c_19, main_v88, main_v89, main_v90, main_cst_20, main_call2_v0, main_call2_v1, main_v91, main_cst_21, main_v92]
set_option maxRecDepth 8192 in
theorem ops_c4_writes : (ops_c4 : List (HloOp τ sig (Elt F))).Forall fun op => op.writes ⊆ (ops_c4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A buffer that stretch 4 does not write keeps its contents through it. -/
theorem c4_keep (W : Valuation τ sig (Elt F)) (r : Ref sig .tc) (h : r ∉ ops_c4_W) :
    after ops_c4 W (Proc.devRef .tc r) = W (Proc.devRef .tc r) :=
  after_of_writes_sub ops_c4 _ ops_c4_writes h

set_option maxRecDepth 8192 in
set_option maxHeartbeats 2000000 in
theorem c4_main_v92 (W : Valuation τ sig (Elt F)) (Dm : (⟨S2048x2048, .f32⟩ : BufTy).Contents (Elt F)) (y : (⟨S2048, .i32⟩ : BufTy).Contents (Elt F)) (lab : (⟨S2048, .i32⟩ : BufTy).Contents (Elt F))
    (h0 : W (Proc.devRef .tc main_v76) = res_hterm Dm y lab) (h1 : W (Proc.devRef .tc main_v50) = res_cntpos y lab) (h2 : W (Proc.devRef .tc main_v52) = res_cntneg y lab) :
    after ops_c4 W (Proc.devRef .tc main_v92) = res_total (res_hsum Dm y lab) y lab := by
  simp only [ops_c4]
  after_results_simp
  (try simp only [h0, h1, h2]) <;> rfl

end Cert.ReferenceIdeal.RefRun

end
-- ==== Proof.RefRun5.lean ====
/-
  What the last two stretches leave, from any contents: the taken log-probabilities and the final result.
-/
import proofs.«148920_j31516470018602_1_alg».proof.Proof.RefRun1
import proofs.«148920_j31516470018602_1_alg».proof.Proof.RefRun2

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.gather

/-- The buffers that stretch 5's operations write. -/
abbrev ops_c5_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v93, main_v94, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v95]
set_option maxRecDepth 8192 in
theorem ops_c5_writes : (ops_c5 : List (HloOp τ sig (Elt F))).Forall fun op => op.writes ⊆ (ops_c5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A buffer that stretch 5 does not write keeps its contents through it. -/
theorem c5_keep (W : Valuation τ sig (Elt F)) (r : Ref sig .tc) (h : r ∉ ops_c5_W) :
    after ops_c5 W (Proc.devRef .tc r) = W (Proc.devRef .tc r) :=
  after_of_writes_sub ops_c5 _ ops_c5_writes h

set_option maxRecDepth 8192 in
set_option maxHeartbeats 2000000 in
theorem c5_main_v95 (W : Valuation τ sig (Elt F)) (yh : (⟨S2048x2, .f32⟩ : BufTy).Contents (Elt F)) (y : (⟨S2048, .i32⟩ : BufTy).Contents (Elt F))
    (h0 : W (Proc.devRef .tc main_arg1) = yh) (h1 : W (Proc.devRef .tc main_arg2) = y) :
    after ops_c5 W (Proc.devRef .tc main_v95) = res_taken yh y := by
  simp only [ops_c5]
  after_results_simp
  (try simp only [h0, h1]) <;> rfl

/-- The buffers that stretch 6's operations write. -/
abbrev ops_c6_W : List (Ref sig .tc) := [main_cst_22, main_v96, main_cst_23, main_v97, main_v98, main_cst_24, main_v99, main_cst_25, main_v100, main_v101]
set_option maxRecDepth 8192 in
theorem ops_c6_writes : (ops_c6 : List (HloOp τ sig (Elt F))).Forall fun op => op.writes ⊆ (ops_c6_W.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))
/-- A buffer that stretch 6 does not write keeps its contents through it. -/
theorem c6_keep (W : Valuation τ sig (Elt F)) (r : Ref sig .tc) (h : r ∉ ops_c6_W) :
    after ops_c6 W (Proc.devRef .tc r) = W (Proc.devRef .tc r) :=
  after_of_writes_sub ops_c6 _ ops_c6_writes h

set_option maxRecDepth 8192 in
set_option maxHeartbeats 2000000 in
theorem c6_main_v101 (W : Valuation τ sig (Elt F)) (h : (⟨S16, .f32⟩ : BufTy).Contents (Elt F)) (yh : (⟨S2048x2, .f32⟩ : BufTy).Contents (Elt F)) (y : (⟨S2048, .i32⟩ : BufTy).Contents (Elt F)) (lab : (⟨S2048, .i32⟩ : BufTy).Contents (Elt F))
    (h0 : W (Proc.devRef .tc main_v92) = res_total h y lab) (h1 : W (Proc.devRef .tc main_v95) = res_taken yh y) :
    after ops_c6 W (Proc.devRef .tc main_v101) = res_tail h yh y lab := by
  simp only [ops_c6]
  after_results_simp
  (try simp only [h0, h1]) <;> rfl

end Cert.ReferenceIdeal.RefRun

end
-- ==== Proof.RefRun.lean ====
/-
  The reference program's run read back: every weakly fair execution of @main terminates with the result buffer at the
  composition of the named stages applied to the arguments' launch contents, and the arguments unchanged. The fold of
  the 173 operations is walked stretch by stretch: after each stretch, every buffer a later stretch still reads is its
  named stage of the arguments.
-/
import proofs.«148920_j31516470018602_1_alg».proof.Proof.RefRun3
import proofs.«148920_j31516470018602_1_alg».proof.Proof.RefRun4
import proofs.«148920_j31516470018602_1_alg».proof.Proof.RefRun5
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents before the first stretch. -/
def val0 (V : Valuation τ sig (Elt F)) : Valuation τ sig (Elt F) := V
/-- The buffer contents after the first 1 stretch. -/
def val1 (V : Valuation τ sig (Elt F)) : Valuation τ sig (Elt F) := after ops_c0 (val0 V)
/-- The buffer contents after the first 2 stretches. -/
def val2 (V : Valuation τ sig (Elt F)) : Valuation τ sig (Elt F) := after ops_c1 (val1 V)
/-- The buffer contents after the first 3 stretches. -/
def val3 (V : Valuation τ sig (Elt F)) : Valuation τ sig (Elt F) := after ops_c2 (val2 V)
/-- The buffer contents after the first 4 stretches. -/
def val4 (V : Valuation τ sig (Elt F)) : Valuation τ sig (Elt F) := after ops_c3 (val3 V)
/-- The buffer contents after the first 5 stretches. -/
def val5 (V : Valuation τ sig (Elt F)) : Valuation τ sig (Elt F) := after ops_c4 (val4 V)
/-- The buffer contents after the first 6 stretches. -/
def val6 (V : Valuation τ sig (Elt F)) : Valuation τ sig (Elt F) := after ops_c5 (val5 V)
/-- The buffer contents after the first 7 stretches. -/
def val7 (V : Valuation τ sig (Elt F)) : Valuation τ sig (Elt F) := after ops_c6 (val6 V)

theorem val0_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val0 V (Proc.devRef .tc main_arg0) = x := hx
theorem val0_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val0 V (Proc.devRef .tc main_arg1) = yh := hyh
theorem val0_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val0 V (Proc.devRef .tc main_arg2) = y := hy
theorem val0_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val0 V (Proc.devRef .tc main_arg3) = lab := hl
theorem val1_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val1 V (Proc.devRef .tc main_arg0) = x :=
  (c0_keep (val0 V) main_arg0 (by decide)).trans (val0_main_arg0 V x yh y lab hx hyh hy hl)
theorem val1_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val1 V (Proc.devRef .tc main_arg1) = yh :=
  (c0_keep (val0 V) main_arg1 (by decide)).trans (val0_main_arg1 V x yh y lab hx hyh hy hl)
theorem val1_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val1 V (Proc.devRef .tc main_arg2) = y :=
  (c0_keep (val0 V) main_arg2 (by decide)).trans (val0_main_arg2 V x yh y lab hx hyh hy hl)
theorem val1_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val1 V (Proc.devRef .tc main_arg3) = lab :=
  (c0_keep (val0 V) main_arg3 (by decide)).trans (val0_main_arg3 V x yh y lab hx hyh hy hl)
theorem val1_main_v27 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val1 V (Proc.devRef .tc main_v27) = res_D x :=
  c0_main_v27 (val0 V) x (val0_main_arg0 V x yh y lab hx hyh hy hl)
theorem val2_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_arg0) = x :=
  (c1_keep (val1 V) main_arg0 (by decide)).trans (val1_main_arg0 V x yh y lab hx hyh hy hl)
theorem val2_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_arg1) = yh :=
  (c1_keep (val1 V) main_arg1 (by decide)).trans (val1_main_arg1 V x yh y lab hx hyh hy hl)
theorem val2_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_arg2) = y :=
  (c1_keep (val1 V) main_arg2 (by decide)).trans (val1_main_arg2 V x yh y lab hx hyh hy hl)
theorem val2_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_arg3) = lab :=
  (c1_keep (val1 V) main_arg3 (by decide)).trans (val1_main_arg3 V x yh y lab hx hyh hy hl)
theorem val2_main_v27 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_v27) = res_D x :=
  (c1_keep (val1 V) main_v27 (by decide)).trans (val1_main_v27 V x yh y lab hx hyh hy hl)
theorem val2_main_v38 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_v38) = res_pos y lab :=
  c1_main_v38 (val1 V) y lab (val1_main_arg2 V x yh y lab hx hyh hy hl) (val1_main_arg3 V x yh y lab hx hyh hy hl)
theorem val2_main_v48 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_v48) = res_neg y lab :=
  c1_main_v48 (val1 V) y lab (val1_main_arg2 V x yh y lab hx hyh hy hl) (val1_main_arg3 V x yh y lab hx hyh hy hl)
theorem val2_main_v49 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_v49) = res_posw y lab :=
  c1_main_v49 (val1 V) y lab (val1_main_arg2 V x yh y lab hx hyh hy hl) (val1_main_arg3 V x yh y lab hx hyh hy hl)
theorem val2_main_c_7 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val2 V (Proc.devRef .tc main_c_7) = constantI S_ 32 0#32 :=
  c1_main_c_7 (val1 V)
theorem val3_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_arg0) = x :=
  (c2_keep (val2 V) main_arg0 (by decide)).trans (val2_main_arg0 V x yh y lab hx hyh hy hl)
theorem val3_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_arg1) = yh :=
  (c2_keep (val2 V) main_arg1 (by decide)).trans (val2_main_arg1 V x yh y lab hx hyh hy hl)
theorem val3_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_arg2) = y :=
  (c2_keep (val2 V) main_arg2 (by decide)).trans (val2_main_arg2 V x yh y lab hx hyh hy hl)
theorem val3_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_arg3) = lab :=
  (c2_keep (val2 V) main_arg3 (by decide)).trans (val2_main_arg3 V x yh y lab hx hyh hy hl)
theorem val3_main_v27 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_v27) = res_D x :=
  (c2_keep (val2 V) main_v27 (by decide)).trans (val2_main_v27 V x yh y lab hx hyh hy hl)
theorem val3_main_v38 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_v38) = res_pos y lab :=
  (c2_keep (val2 V) main_v38 (by decide)).trans (val2_main_v38 V x yh y lab hx hyh hy hl)
theorem val3_main_v61 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_v61) = res_dpn (res_D x) y lab :=
  c2_main_v61 (val2 V) (res_D x) y lab (val2_main_v27 V x yh y lab hx hyh hy hl) (val2_main_v48 V x yh y lab hx hyh hy hl)
theorem val3_main_v50 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_v50) = res_cntpos y lab :=
  c2_main_v50 (val2 V) y lab (val2_main_v49 V x yh y lab hx hyh hy hl) (val2_main_c_7 V x yh y lab hx hyh hy hl)
theorem val3_main_v52 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val3 V (Proc.devRef .tc main_v52) = res_cntneg y lab :=
  c2_main_v52 (val2 V) y lab (val2_main_v48 V x yh y lab hx hyh hy hl)
theorem val4_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val4 V (Proc.devRef .tc main_arg0) = x :=
  (c3_keep (val3 V) main_arg0 (by decide)).trans (val3_main_arg0 V x yh y lab hx hyh hy hl)
theorem val4_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val4 V (Proc.devRef .tc main_arg1) = yh :=
  (c3_keep (val3 V) main_arg1 (by decide)).trans (val3_main_arg1 V x yh y lab hx hyh hy hl)
theorem val4_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val4 V (Proc.devRef .tc main_arg2) = y :=
  (c3_keep (val3 V) main_arg2 (by decide)).trans (val3_main_arg2 V x yh y lab hx hyh hy hl)
theorem val4_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val4 V (Proc.devRef .tc main_arg3) = lab :=
  (c3_keep (val3 V) main_arg3 (by decide)).trans (val3_main_arg3 V x yh y lab hx hyh hy hl)
theorem val4_main_v76 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val4 V (Proc.devRef .tc main_v76) = res_hterm (res_D x) y lab :=
  c3_main_v76 (val3 V) (res_D x) y lab (val3_main_v27 V x yh y lab hx hyh hy hl) (val3_main_v38 V x yh y lab hx hyh hy hl) (val3_main_v61 V x yh y lab hx hyh hy hl)
theorem val4_main_v50 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val4 V (Proc.devRef .tc main_v50) = res_cntpos y lab :=
  (c3_keep (val3 V) main_v50 (by decide)).trans (val3_main_v50 V x yh y lab hx hyh hy hl)
theorem val4_main_v52 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val4 V (Proc.devRef .tc main_v52) = res_cntneg y lab :=
  (c3_keep (val3 V) main_v52 (by decide)).trans (val3_main_v52 V x yh y lab hx hyh hy hl)
theorem val5_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val5 V (Proc.devRef .tc main_arg0) = x :=
  (c4_keep (val4 V) main_arg0 (by decide)).trans (val4_main_arg0 V x yh y lab hx hyh hy hl)
theorem val5_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val5 V (Proc.devRef .tc main_arg1) = yh :=
  (c4_keep (val4 V) main_arg1 (by decide)).trans (val4_main_arg1 V x yh y lab hx hyh hy hl)
theorem val5_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val5 V (Proc.devRef .tc main_arg2) = y :=
  (c4_keep (val4 V) main_arg2 (by decide)).trans (val4_main_arg2 V x yh y lab hx hyh hy hl)
theorem val5_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val5 V (Proc.devRef .tc main_arg3) = lab :=
  (c4_keep (val4 V) main_arg3 (by decide)).trans (val4_main_arg3 V x yh y lab hx hyh hy hl)
theorem val5_main_v92 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val5 V (Proc.devRef .tc main_v92) = res_total (res_hsum (res_D x) y lab) y lab :=
  c4_main_v92 (val4 V) (res_D x) y lab (val4_main_v76 V x yh y lab hx hyh hy hl) (val4_main_v50 V x yh y lab hx hyh hy hl) (val4_main_v52 V x yh y lab hx hyh hy hl)
theorem val6_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val6 V (Proc.devRef .tc main_arg0) = x :=
  (c5_keep (val5 V) main_arg0 (by decide)).trans (val5_main_arg0 V x yh y lab hx hyh hy hl)
theorem val6_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val6 V (Proc.devRef .tc main_arg1) = yh :=
  (c5_keep (val5 V) main_arg1 (by decide)).trans (val5_main_arg1 V x yh y lab hx hyh hy hl)
theorem val6_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val6 V (Proc.devRef .tc main_arg2) = y :=
  (c5_keep (val5 V) main_arg2 (by decide)).trans (val5_main_arg2 V x yh y lab hx hyh hy hl)
theorem val6_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val6 V (Proc.devRef .tc main_arg3) = lab :=
  (c5_keep (val5 V) main_arg3 (by decide)).trans (val5_main_arg3 V x yh y lab hx hyh hy hl)
theorem val6_main_v92 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val6 V (Proc.devRef .tc main_v92) = res_total (res_hsum (res_D x) y lab) y lab :=
  (c5_keep (val5 V) main_v92 (by decide)).trans (val5_main_v92 V x yh y lab hx hyh hy hl)
theorem val6_main_v95 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val6 V (Proc.devRef .tc main_v95) = res_taken yh y :=
  c5_main_v95 (val5 V) yh y (val5_main_arg1 V x yh y lab hx hyh hy hl) (val5_main_arg2 V x yh y lab hx hyh hy hl)
theorem val7_main_arg0 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val7 V (Proc.devRef .tc main_arg0) = x :=
  (c6_keep (val6 V) main_arg0 (by decide)).trans (val6_main_arg0 V x yh y lab hx hyh hy hl)
theorem val7_main_arg1 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val7 V (Proc.devRef .tc main_arg1) = yh :=
  (c6_keep (val6 V) main_arg1 (by decide)).trans (val6_main_arg1 V x yh y lab hx hyh hy hl)
theorem val7_main_arg2 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val7 V (Proc.devRef .tc main_arg2) = y :=
  (c6_keep (val6 V) main_arg2 (by decide)).trans (val6_main_arg2 V x yh y lab hx hyh hy hl)
theorem val7_main_arg3 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val7 V (Proc.devRef .tc main_arg3) = lab :=
  (c6_keep (val6 V) main_arg3 (by decide)).trans (val6_main_arg3 V x yh y lab hx hyh hy hl)
theorem val7_main_v101 (V : Valuation τ sig (Elt F)) (x : (⟨S2048x768, .f32⟩ : BufTy).Contents (Elt F)) (yh : (⟨S2048x2, .f32⟩ : BufTy).Contents (Elt F))
    (y : (⟨S2048, .i32⟩ : BufTy).Contents (Elt F)) (lab : (⟨S2048, .i32⟩ : BufTy).Contents (Elt F))
    (hx : V (Proc.devRef .tc main_arg0) = x) (hyh : V (Proc.devRef .tc main_arg1) = yh) (hy : V (Proc.devRef .tc main_arg2) = y) (hl : V (Proc.devRef .tc main_arg3) = lab) :
    val7 V (Proc.devRef .tc main_v101) = res x yh y lab :=
  c6_main_v101 (val6 V) (res_hsum (res_D x) y lab) yh y lab (val6_main_v92 V x yh y lab hx hyh hy hl) (val6_main_v95 V x yh y lab hx hyh hy hl)

/-- The fold of all the operations is the stretches' folds in order. -/
theorem after_ops (V : Valuation τ sig (Elt F)) : after ops V = val7 V := by
  simp only [ops, after_append]
  rfl

/-- On every device, for any float values, from any memory with zero counters: every weakly fair execution of @main
    terminates with the result at the stages' composition of the arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v101) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v101).trans (by rw [after_ops]; exact val7_main_v101 (launchContents m c) _ _ _ _ rfl rfl rfl rfl),
      (h c main_arg0).trans (by rw [after_ops]; exact val7_main_arg0 (launchContents m c) _ _ _ _ rfl rfl rfl rfl),
      (h c main_arg1).trans (by rw [after_ops]; exact val7_main_arg1 (launchContents m c) _ _ _ _ rfl rfl rfl rfl),
      (h c main_arg2).trans (by rw [after_ops]; exact val7_main_arg2 (launchContents m c) _ _ _ _ rfl rfl rfl rfl),
      (h c main_arg3).trans (by rw [after_ops]; exact val7_main_arg3 (launchContents m c) _ _ _ _ rfl rfl rfl rfl)⟩)
    (run_fold m ρ)

end Cert.ReferenceIdeal.RefRun

end
-- ==== Proof.Spec.lean ====
/-
  The mathematics both programs compute, over the extended reals, stated once.

  Rows x_p (p < 2048) of 768 entries. With S(p) = Σ_k x_p(k)², s(p) = Σ_k x_p(k), G(p,q) = Σ_k x_p(k)·x_q(k), the
  scaled distance is  D(p,q) = sqrt(max(S(p) + S(q) − 2·G(p,q) + 2ε·(s(p) − s(q)) + 768·ε², 0)) · c  (the Gram expansion of
  ‖x_p − x_q + ε‖², c the float nearest 1/sqrt 768; every literal is kept as the binary word both programs print).
  For a cluster k with membership weights w_k(p) ∈ {0,1} and anchor distances a_k(p), a pair (p,q) contributes
  max(D(p,q) + margin − a_k(p), 0) · (w_k(p)·w_k(q)); the cluster's total is the sum over all pairs, which the tiled
  program accumulates tile by tile (8×8 tiles of 256×256 pairs, row-major) from zero.
-/
import Idealize.ShloMosaic.PureOps.Ideal

noncomputable section

namespace Cert.Spec

open Idealize.ShloMosaic

/-- The literals, as the binary words the programs print. -/
def zero : EReal := Ideal.ofBits .f32 0x00000000#32
def two : EReal := Ideal.ofBits .f32 0x40000000#32
def twoEps : EReal := Ideal.ofBits .f32 0x360637BD#32
def dEpsSq : EReal := Ideal.ofBits .f32 0x30531B32#32
def invSqrtD : EReal := Ideal.ofBits .f32 0x3D13CD3A#32
def margin : EReal := Ideal.ofBits .f32 0x3D4CCCCD#32

/-- A row's sum of squares, its sum, and two rows' inner product. -/
def sqNorm (x : Fin 2048 → Fin 768 → EReal) (p : Fin 2048) : EReal := ∑ k : Fin 768, x p k * x p k
def rowSum (x : Fin 2048 → Fin 768 → EReal) (p : Fin 2048) : EReal := ∑ k : Fin 768, x p k
def gram (x : Fin 2048 → Fin 768 → EReal) (p q : Fin 2048) : EReal := ∑ k : Fin 768, x p k * x q k

/-- The scaled pairwise distance, by the Gram expansion, in the order both programs add its terms. -/
def D (x : Fin 2048 → Fin 768 → EReal) (p q : Fin 2048) : EReal :=
  Ideal.sqrt (max ((((sqNorm x p + sqNorm x q) - two * gram x p q) + twoEps * (rowSum x p - rowSum x q)) + dEpsSq) zero)
    * invSqrtD

/-- One pair's hinge term for a cluster: distance d, anchor distance a. -/
def hinge (d a : EReal) : EReal := max ((d + margin) - a) zero

/-- Row I·256 + a of the a-th row of tile I. -/
def row (I : Fin 8) (a : Fin 256) : Fin 2048 := ⟨I.val * 256 + a.val, by have := I.isLt; have := a.isLt; omega⟩

/-- Cluster k's weighted hinge sum over tile (I, J): rows first, then the tile's columns inside each row. -/
def tile (Dm : Fin 2048 → Fin 2048 → EReal) (w a : Fin 16 → Fin 2048 → EReal) (k : Fin 16) (I J : Fin 8) : EReal :=
  ∑ r : Fin 256, ∑ s : Fin 256, hinge (Dm (row I r) (row J s)) (a k (row I r)) * (w k (row I r) * w k (row J s))

/-- The accumulator after the first n tiles in row-major order (tile n is (n / 8, n % 8)), from zero. -/
def acc (Dm : Fin 2048 → Fin 2048 → EReal) (w a : Fin 16 → Fin 2048 → EReal) (k : Fin 16) : ℕ → EReal
  | 0 => zero
  | n + 1 => acc Dm w a k n + (if h : n < 64 then tile Dm w a k ⟨n / 8, by omega⟩ ⟨n % 8, by omega⟩ else 0)

/-- The whole sum over all pairs, a masked term per pair (mask b_k(p) ∧ b_k(q) as a proposition). -/
def whole (Dm : Fin 2048 → Fin 2048 → EReal) (b : Fin 16 → Fin 2048 → Prop) [∀ k p, Decidable (b k p)]
    (a : Fin 16 → Fin 2048 → EReal) (k : Fin 16) : EReal :=
  ∑ p : Fin 2048, ∑ q : Fin 2048, if b k p ∧ b k q then hinge (Dm p q) (a k p) else zero

end Cert.Spec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.Region0Value.lean ====
/- What region 0 leaves in the distance matrix, as one function of the array of rows, over the extended reals.

   The body's arithmetic at one entry.  For two loaded 512 x 768 blocks X and Y, entry (a, b) of the stored block
   depends only on row a of X and row b of Y: with S the sum of squares of a row, s its sum and G the inner product of the
   two rows, it is sqrt(max(S(a) + S(b) - 2 G(a, b) + 2 eps (s(a) - s(b)) + 768 eps^2, 0)) c.

   From blocks to the matrix.  Grid point t = 4 i + j writes block (i, j) of the 2048 x 2048 matrix; the two input
   windows hold row-blocks i and j of the one 2048 x 768 array, so entry (a, b) of that block is the distance of rows
   512 i + a and 512 j + b.  The sixteen blocks tile the matrix, so after the region entry (p, q) is the distance of
   rows p and q. -/
import proofs.«148920_j31516470018602_1_alg».proof.Proof.Region0
import proofs.«148920_j31516470018602_1_alg».proof.Proof.Spec
import proofs.«148920_j31516470018602_1_alg».proof.Proof.LibDenseRows
import proofs.«148920_j31516470018602_1_alg».proof.Proof.LibColumnLayout
import proofs.«148920_j31516470018602_1_alg».proof.Proof.LibRowLift
import Idealize.ShloMosaic.Lib.Pipeline.Value

set_option maxRecDepth 16384

noncomputable section

namespace Cert.KernelIdeal.Hand0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an entry -/

/-- The scaled distance of two rows, each given as a function of the column. -/
def rowDist (a b : Fin 768 → EReal) : EReal :=
  Ideal.sqrt (max ((((∑ k : Fin 768, a k * a k + ∑ k : Fin 768, b k * b k) - Cert.Spec.two * ∑ k : Fin 768, a k * b k)
      + Cert.Spec.twoEps * (∑ k : Fin 768, a k - ∑ k : Fin 768, b k)) + Cert.Spec.dEpsSq) Cert.Spec.zero)
    * Cert.Spec.invSqrtD

/-- The specification's distance of rows p and q of an array is the distance of those two rows. -/
theorem spec_D_eq (x : Fin 2048 → Fin 768 → EReal) (p q : Fin 2048) : Cert.Spec.D x p q = rowDist (x p) (x q) := rfl

/-- A block's row sums, kept as a column and laid over the columns of the square block: entry (p, q) is the sum of row p. -/
theorem rowSum_col_apply (v : FVec Ideal S512x768 .f32) (p q : Fin 512) :
    broadcastTo S512x512 (shapeCast S512x1 (multiReduction .add [1] S512 v 0x00000000#32 reduces_S512x768_S512 (.inl rfl) rfl)
        shapeCasts_S512_S512x1) broadcasts_S512x1_S512x512 (ix2 p q)
      = ∑ k : Fin 768, v (ix2 p k) :=
  (Cert.ColumnLayout.broadcastTo_a1_ab_apply _ broadcasts_S512x1_S512x512 p q).trans
    ((Cert.ColumnLayout.shapeCast_a_a1_apply _ shapeCasts_S512_S512x1 p 0).trans
      (Cert.DenseRows.laneSum_apply v reduces_S512x768_S512 _ _ (Cert.RowLift.lift_row _) p))

/-- A block's row sums, kept as a column, transposed to a row and laid over the rows of the square block: entry (p, q) is
    the sum of row q. -/
theorem rowSum_row_apply (v : FVec Ideal S512x768 .f32) (p q : Fin 512) :
    broadcastTo S512x512 (transpose S1x512 [1, 0] (shapeCast S512x1
        (multiReduction .add [1] S512 v 0x00000000#32 reduces_S512x768_S512 (.inl rfl) rfl) shapeCasts_S512_S512x1)
        transposes_S512x1_p1_0_S1x512) broadcasts_S1x512_S512x512 (ix2 p q)
      = ∑ k : Fin 768, v (ix2 q k) :=
  (broadcastTo_1b_ab_apply _ broadcasts_S1x512_S512x512 p q).trans
    ((transpose_ix2_apply _ transposes_S512x1_p1_0_S1x512 (0 : Fin 1) q).trans
      ((Cert.ColumnLayout.shapeCast_a_a1_apply _ shapeCasts_S512_S512x1 q 0).trans
        (Cert.DenseRows.laneSum_apply v reduces_S512x768_S512 _ _ (Cert.RowLift.lift_row _) q)))

/-- The matrix product of the first block with the transposed second block into the zero accumulator: entry (p, q) is
    the inner product of row p of the first with row q of the second (the change of format before it is the identity). -/
theorem gram_apply (x0 x1 : FVec Ideal S512x768 .f32) (p q : Fin 512) :
    matmul dot_S512x768_S768x512_S512x512_1_0_0_1_n_n none (truncf .bf16 x0 bitsLt_bf16_f32)
        (transpose S768x512 [1, 0] (truncf .bf16 x1 bitsLt_bf16_f32) transposes_S512x768_p1_0_S768x512)
        (constant S512x512 .f32 0x00000000#32) (ix2 p q)
      = ∑ k : Fin 768, x0 (ix2 p k) * x1 (ix2 q k) :=
  (Cert.DenseRows.matmul_zero_plain_apply dot_S512x768_S768x512_S512x512_1_0_0_1_n_n rfl rfl rfl rfl
      (fun _ _ => rfl) (fun _ _ => rfl) _ _ p q).trans
    (Finset.sum_congr rfl fun k _ => congrArg (x0 (ix2 p k) * ·)
      (transpose_ix2_apply (truncf .bf16 x1 bitsLt_bf16_f32) transposes_S512x768_p1_0_S768x512 k q))

/-- A square root of a block, read at an entry, is the square root of the entry. -/
theorem sqrt_apply {s : Shape} {φ : FTy} (a : FVec Ideal s φ) (i : s.Idx) : sqrt a i = Ideal.sqrt (a i) := rfl

/-- THE BODY'S ARITHMETIC AT AN ENTRY: entry (p, q) of the stored block is the distance of row p of the first loaded block
    and row q of the second. -/
theorem pay_apply (x0 x1 : FVec Ideal S512x768 .f32) (p q : Fin 512) :
    k0_pay1 (F := Ideal) x0 x1 (ix2 p q) = rowDist (fun k => x0 (ix2 p k)) (fun k => x1 (ix2 q k)) := by
  unfold k0_pay1 rowDist
  dsimp only
  simp only [mulf_apply, addf_apply, subf_apply, maximumf_apply, broadcast_apply, sqrt_apply]
  rw [rowSum_col_apply (mulf x0 x0) p q, rowSum_col_apply x0 p q, rowSum_row_apply (mulf x1 x1) p q,
    rowSum_row_apply x1 p q, gram_apply x0 x1 p q]
  rfl

/-! ## From blocks to the matrix -/

variable (V : (c : Dev nD) → (b : Ref sig .tc) → Buf (Elt Ideal) ((c : Thread nD τ).loc b))

/-- The zero offsets of a whole-block access. -/
theorem hz0 : (![0, 0] : Fin 2 → Nat) = fun _ => 0 := funext fun a => by fin_cases a <;> rfl

/-- The 2048 x 768 array as the region finds it, as rows. -/
def rows0 (c : Dev nD) : Fin 2048 → Fin 768 → EReal := fun p k => V c main_arg0 (ix2 p k)

/-- The distance matrix of those rows. -/
def G0 (c : Dev nD) : S2048x2048.Idx → EReal := fun i => Cert.Spec.D (rows0 V c) (i 0) (i 1)

/-- An entry of the stored block, for blocks whose rows are rows P and Q of an array X. -/
theorem blk_entry (x0 x1 : FVec Ideal S512x768 .f32) (X : Fin 2048 → Fin 768 → EReal) (j : S512x512.Idx) (P Q : Fin 2048)
    (h0 : ∀ k : Fin 768, x0 (ix2 (j 0) k) = X P k) (h1 : ∀ k : Fin 768, x1 (ix2 (j 1) k) = X Q k) :
    k0_pay1 (F := Ideal) x0 x1 j = Cert.Spec.D X P Q := by
  obtain ⟨p, q, rfl⟩ : ∃ (p : Fin 512) (q : Fin 512), j = ix2 p q := ⟨j 0, j 1, eq_ix2 j⟩
  rw [pay_apply, spec_D_eq]
  exact congrArg₂ rowDist (funext h0) (funext h1)

/-- The printed index maps over the grid: window 0 moves with the output's row-block, window 1 with its column-block,
    both at column-block 0; the output's block at point t is (t / 4, t % 4). -/
theorem idx_facts0 : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) = t.val / 4 ∧ win0_2.index t (1 : Fin 2) = t.val % 4 :=
  (by decide +kernel : ∀ t : Fin grid0.N, _)

/-- WHAT POINT t WRITES BACK is block t of the distance matrix of the array's rows. -/
theorem flushed0_2_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S512x768) hz0]
  obtain ⟨e0, e1, e2, e3, -, -⟩ := idx_facts0 t
  funext j
  show k0_pay1 (F := Ideal) (iblk0 V c 0 t) (iblk0 V c 1 t) j
    = Cert.Spec.D (rows0 V c) ((((cfg0.win 2).blk t).view.emb j) 0) ((((cfg0.win 2).blk t).view.emb j) 1)
  refine blk_entry (iblk0 V c 0 t) (iblk0 V c 1 t) (rows0 V c) j _ _ (fun k => ?_) (fun k => ?_)
  · show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 768 + 1 * k.val = k.val; omega
  · show V c main_arg0 (((cfg0.win 1).blk t).view.emb (ix2 (j 1) k))
      = V c main_arg0 (ix2 ((((cfg0.win 2).blk t).view.emb j) 1) k)
    refine congrArg _ (funext fun a => Fin.ext ?_)
    match a with
    | ⟨0, _⟩ => show win0_1.index t (0 : Fin 2) * 512 + 1 * (j 1).val = win0_2.index t (1 : Fin 2) * 512 + 1 * (j 1).val; omega
    | ⟨1, _⟩ => show win0_1.index t (1 : Fin 2) * 768 + 1 * k.val = k.val; omega

/-- An index of the matrix is in point t's block iff each coordinate is in the block's range on its axis. -/
theorem mem_blk0_2 (t : Fin cfg0.N) (i : S2048x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- Every entry (p, q) of the matrix is in the block of point (p / 512) * 4 + q / 512, which is written back. -/
theorem covered0_2 (i : S2048x2048.Idx) :
    ∃ t : Fin cfg0.N, (cfg0.win 2).flush t = true ∧ i ∈ ((cfg0.win 2).blk t).view.set := by
  have hi0 : (i 0).val < 2048 := idx2_lt0 i
  have hi1 : (i 1).val < 2048 := idx2_lt1 i
  have hN : grid0.N = 16 := N_0
  have ht : (i 0).val / 512 * 4 + (i 1).val / 512 < grid0.N := by rw [hN]; omega
  obtain ⟨-, -, -, -, e4, e5⟩ := idx_facts0 ⟨(i 0).val / 512 * 4 + (i 1).val / 512, ht⟩
  have q0 : win0_2.index ⟨(i 0).val / 512 * 4 + (i 1).val / 512, ht⟩ (0 : Fin 2) = (i 0).val / 512 := by
    rw [e4]; show ((i 0).val / 512 * 4 + (i 1).val / 512) / 4 = (i 0).val / 512; omega
  have q1 : win0_2.index ⟨(i 0).val / 512 * 4 + (i 1).val / 512, ht⟩ (1 : Fin 2) = (i 1).val / 512 := by
    rw [e5]; show ((i 0).val / 512 * 4 + (i 1).val / 512) % 4 = (i 1).val / 512; omega
  refine ⟨⟨(i 0).val / 512 * 4 + (i 1).val / 512, ht⟩, flush0_2 _, ?_⟩
  rw [mem_blk0_2]
  intro a
  match a with
  | ⟨0, _⟩ =>
    show win0_2.index ⟨(i 0).val / 512 * 4 + (i 1).val / 512, ht⟩ (0 : Fin 2) * 512 ≤ (i 0).val
      ∧ (i 0).val < win0_2.index ⟨(i 0).val / 512 * 4 + (i 1).val / 512, ht⟩ (0 : Fin 2) * 512 + 512
    rw [q0]; omega
  | ⟨1, _⟩ =>
    show win0_2.index ⟨(i 0).val / 512 * 4 + (i 1).val / 512, ht⟩ (1 : Fin 2) * 512 ≤ (i 1).val
      ∧ (i 1).val < win0_2.index ⟨(i 0).val / 512 * 4 + (i 1).val / 512, ht⟩ (1 : Fin 2) * 512 + 512
    rw [q1]; omega

/-- THE DISTANCE MATRIX AFTER THE REGION: entry (p, q) is the distance of rows p and q of the array of rows as the
    region found it. -/
theorem arrAt0_2 (c : Dev nD) :
    (dat0 (F := Ideal) V c).arrAt 2 cfg0.N
      = fun i => Cert.Spec.D (fun p k => V c main_arg0 (ix2 p k)) (i 0) (i 1) :=
  (dat0 V c).arrAt_eq_of_cover 2 (G0 V c) (fun t _ => flushed0_2_eq V c t) covered0_2

end Cert.KernelIdeal.Hand0

end
-- ==== Proof.Region1Pieces.lean ====
import proofs.«148920_j31516470018602_1_alg».proof.Proof.Region1
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Hand1

open Cert.KernelIdeal Cert.KernelIdeal.Gen

variable {F : FTy → Type} [FloatOps F]

/-! # What each case of the second call's body leaves, as the payloads of the point's blocks

Every store of the body writes a whole `[1,16]` buffer at offset zero, so what a buffer holds afterwards is the last
store's payload, and a load after a store reads that store's payload. -/

theorem hz : (![0, 0] : Fin 2 → Nat) = fun _ => 0 := funext fun a => by fin_cases a <;> rfl

/-- The first point leaves in the accumulator the tile's sums added to the zeros it has just stored. -/
theorem soutA_eq (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : cond1_0 i) (hc1 : ¬cond1_1 i) (x0 : Vec F S256x256 .f32) (x1 : Vec F S16x256 .f32) (x2 : Vec F S16x256 .f32) (x3 : Vec F S16x256 .f32) :
    sout1_A_0 c i arg2 harg2 arg3 harg3 arg4 harg4 arg5 harg5 arg6 harg6 arg7 harg7 hc0 hc1 x0 x1 x2 x3 = k1_pay2 x0 x1 x2 x3 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  try sl_unfold_words
  rw [View.canon_cons_unit_zero hz, View.readCov_unit_zero (S := S1x16) _ hz]
  simp only [View.readAt_eq_ld, harg2.read_unread, harg3.read_unread, harg4.read_unread, harg5.read_unread,
    View.ld_unit_zero (S := S256x256) hz, View.ld_unit_zero (S := S16x256) hz]

/-- A middle point leaves in the accumulator the tile's sums added to what it held. -/
theorem soutB_eq (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : ¬cond1_1 i) (x0 : Vec F S256x256 .f32) (x1 : Vec F S16x256 .f32) (x2 : Vec F S16x256 .f32) (x3 : Vec F S16x256 .f32) (xs0 : Vec F S1x16 .f32) :
    sout1_B_0 c i arg2 harg2 arg3 harg3 arg4 harg4 arg5 harg5 arg6 harg6 arg7 harg7 hc0 hc1 x0 x1 x2 x3 xs0 = k1_pay2 x0 x1 x2 x3 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  try sl_unfold_words
  rw [View.canon_unit_zero hz]
  simp only [View.readAt_eq_ld, harg2.read_unread, harg3.read_unread, harg4.read_unread, harg5.read_unread, harg7.read_unread,
    View.ld_unit_zero (S := S256x256) hz, View.ld_unit_zero (S := S16x256) hz, View.ld_unit_zero (S := S1x16) hz]

/-- The last point leaves in the accumulator the tile's sums added to what it held, -/
theorem soutC_eq (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i) (x0 : Vec F S256x256 .f32) (x1 : Vec F S16x256 .f32) (x2 : Vec F S16x256 .f32) (x3 : Vec F S16x256 .f32) (xs0 : Vec F S1x16 .f32) :
    sout1_C_0 c i arg2 harg2 arg3 harg3 arg4 harg4 arg5 harg5 arg6 harg6 arg7 harg7 hc0 hc1 x0 x1 x2 x3 xs0 = k1_pay2 x0 x1 x2 x3 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  try sl_unfold_words
  rw [View.canon_unit_zero hz]
  simp only [View.readAt_eq_ld, harg2.read_unread, harg3.read_unread, harg4.read_unread, harg5.read_unread, harg7.read_unread,
    View.ld_unit_zero (S := S256x256) hz, View.ld_unit_zero (S := S16x256) hz, View.ld_unit_zero (S := S1x16) hz]

/-- and copies exactly that into the output's staging buffer. -/
theorem outC_eq (c : Dev nD) (i : grid1.Coords) (arg2 : Memref sig .tc .vmem S256x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x16 .f32) (harg6 : arg6.IsWhole) (arg7 : Memref sig .tc .vmem S1x16 .f32) (harg7 : arg7.IsWhole) (hc0 : ¬cond1_0 i) (hc1 : cond1_1 i) (x0 : Vec F S256x256 .f32) (x1 : Vec F S16x256 .f32) (x2 : Vec F S16x256 .f32) (x3 : Vec F S16x256 .f32) (xs0 : Vec F S1x16 .f32) :
    out1_C_4 c i arg2 harg2 arg3 harg3 arg4 harg4 arg5 harg5 arg6 harg6 arg7 harg7 hc0 hc1 x0 x1 x2 x3 xs0 = k1_pay2 x0 x1 x2 x3 xs0 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  try sl_unfold_words
  rw [View.canon_unit_zero hz, View.readCov_unit_zero (S := S1x16) _ hz]
  simp only [View.readAt_eq_ld, harg2.read_unread, harg3.read_unread, harg4.read_unread, harg5.read_unread, harg7.read_unread,
    View.ld_unit_zero (S := S256x256) hz, View.ld_unit_zero (S := S16x256) hz, View.ld_unit_zero (S := S1x16) hz]

end Cert.KernelIdeal.Hand1

end
-- ==== Proof.LibPairLayout.lean ====
/-
  Rank-3 layout operations read at an index given by coordinates, for a pairwise difference `u[p, d] − v[d, q]` laid out
  as `[a, c, n]`: a middle unit axis dropped (`[a, 1, c]` to `[a, c]`), a trailing unit axis added (`[a, c]` to `[a, c, 1]`),
  that trailing axis broadcast (`[a, c, 1]` to `[a, c, n]`), a leading unit axis broadcast (`[1, c, n]` to `[a, c, n]`),
  the index a reduction over the middle axis inserts (`[a, c, n]` to `[a, n]`), the one a reduction over the last axis of
  a matrix inserts (`[a, n]` to `[a]`), and a rank-3 transpose that brings the leading axis last.
-/
import Idealize.ShloMosaic.Lib.ValueLayout
import Idealize.ShloMosaic.PureOps.Ideal.Laws

namespace Cert.PairLayout

open Idealize.ShloMosaic Idealize.ShloMosaic.ValueIdx

variable {α : Type}

/-- An `[a, 1, c]` array cast to `[a, c]` reads, at `(p, d)`, the operand at `(p, 0, d)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- An `[a, c]` array cast to `[a, c, 1]` reads, at `(p, d, u)`, the operand at `(p, d)`. -/
theorem shapeCast_ac_ac1_apply {a c : ℕ} (x : (⟨2, ![a, c]⟩ : Shape).Idx → α)
    (h : (⟨2, ![a, c]⟩ : Shape).ShapeCasts ⟨3, ![a, c, 1]⟩) (p : Fin a) (d : Fin c) (u : Fin 1) :
    shapeCast ⟨3, ![a, c, 1]⟩ x h (ix3 p d u) = x (ix2 p d) :=
  shapeCast_apply x h _ _ (by
    have hu : u.val = 0 := by omega
    rw [Shape.rowMajor_val_three, Shape.rowMajor_val_two]
    show p.val * c + d.val = (p.val * c + d.val) * 1 + u.val
    rw [hu, Nat.mul_one, Nat.add_zero])

/-- An `[a, c, 1]` array broadcast to `[a, c, n]` reads, at `(p, d, q)`, the operand at `(p, d, 0)`. -/
theorem broadcastTo_ac1_acn_apply {a c n : ℕ} (v : (⟨3, ![a, c, 1]⟩ : Shape).Idx → α)
    (h : (⟨3, ![a, c, 1]⟩ : Shape).Broadcasts ⟨3, ![a, c, n]⟩) (p : Fin a) (d : Fin c) (q : Fin n) :
    broadcastTo ⟨3, ![a, c, n]⟩ v h (ix3 p d q) = v (ix3 p d (0 : Fin 1)) := by
  refine broadcastTo_apply v h (ix3 p d q) (ix3 p d (0 : Fin 1)) fun ax => ?_
  match ax with
  | ⟨0, _⟩ =>
    show p.val = if a = 1 then 0 else p.val
    split
    · have := p.isLt; omega
    · rfl
  | ⟨1, _⟩ =>
    show d.val = if c = 1 then 0 else d.val
    split
    · have := d.isLt; omega
    · rfl
  | ⟨2, _⟩ => rfl

/-- A `[1, c, n]` array broadcast to `[a, c, n]` reads, at `(p, d, q)`, the operand at `(0, d, q)`. -/
theorem broadcastTo_1cn_acn_apply {a c n : ℕ} (v : (⟨3, ![1, c, n]⟩ : Shape).Idx → α)
    (h : (⟨3, ![1, c, n]⟩ : Shape).Broadcasts ⟨3, ![a, c, n]⟩) (p : Fin a) (d : Fin c) (q : Fin n) :
    broadcastTo ⟨3, ![a, c, n]⟩ v h (ix3 p d q) = v (ix3 (0 : Fin 1) d q) := by
  refine broadcastTo_apply v h (ix3 p d q) (ix3 (0 : Fin 1) d q) fun ax => ?_
  match ax with
  | ⟨0, _⟩ => rfl
  | ⟨1, _⟩ =>
    show d.val = if c = 1 then 0 else d.val
    split
    · have := d.isLt; omega
    · rfl
  | ⟨2, _⟩ =>
    show q.val = if n = 1 then 0 else q.val
    split
    · have := q.isLt; omega
    · rfl

/-- The source index a reduction of `[a, c, n]` over its middle axis visits for result index `(p, q)` and
    coordinate `d` is `(p, d, q)`. -/
theorem lift_middle {a c n : ℕ} (h : (⟨3, ![a, c, n]⟩ : Shape).Reduces [(1 : Fin 3)] ⟨2, ![a, n]⟩)
    (p : Fin a) (q : Fin n) (d : Fin c) : h.lift (ix2 p q) d = ix3 p d q :=
  funext fun ax => Fin.ext (by
    match ax with
    | ⟨0, _⟩ => rfl
    | ⟨1, _⟩ => rfl
    | ⟨2, _⟩ => rfl)

/-- The source index a reduction of `[a, n]` over its columns visits for row `p` and coordinate `q` is `(p, q)`. -/
theorem lift_cols {a n : ℕ} (h : (⟨2, ![a, n]⟩ : Shape).Reduces [(1 : Fin 2)] ⟨1, ![a]⟩)
    (p : Fin a) (q : Fin n) : h.lift (ix1 p) q = ix2 p q :=
  funext fun ax => Fin.ext (by
    match ax with
    | ⟨0, _⟩ => rfl
    | ⟨1, _⟩ => rfl)

/-- The lane reduction of `[a, c, n]` over its middle axis from the zero word, at `(p, q)`: the sum over `d` of the
    source at `(p, d, q)`. -/
theorem middleSum_apply {a c n : ℕ} (src : FVec Ideal ⟨3, ![a, c, n]⟩ .f32)
    (h : (⟨3, ![a, c, n]⟩ : Shape).Reduces [(1 : Fin 3)] ⟨2, ![a, n]⟩)
    (hφ : FKind.Formats .f32) (hacc : (0x00000000#32 : BitVec 32) = FKind.add.neutral .f32 hφ) (p : Fin a) (q : Fin n) :
    multiReduction .add [(1 : Fin 3)] ⟨2, ![a, n]⟩ src 0x00000000#32 h hφ hacc (ix2 p q) = ∑ d : Fin c, src (ix3 p d q) :=
  (Ideal.multiReduction_add_single src 0x00000000#32 h hφ hacc (ix2 p q)).trans
    (Finset.sum_congr rfl fun d _ => congrArg src (lift_middle h p q d))

/-- An `[m, a, b]` array transposed by the permutation `[1, 2, 0]` (result axes are source axes 1, 2, 0) reads, at
    `(i, j, k)`, the operand at `(k, i, j)`. -/
theorem transpose_ix3_120_apply {m a b : ℕ} (x : (⟨3, ![m, a, b]⟩ : Shape).Idx → α)
    (h : (⟨3, ![m, a, b]⟩ : Shape).Transposes [1, 2, 0] ⟨3, ![a, b, m]⟩) (i : Fin a) (j : Fin b) (k : Fin m) :
    transpose ⟨3, ![a, b, m]⟩ [1, 2, 0] x h (ix3 i j k) = x (ix3 k i j) :=
  transpose_apply _ x h _ _ fun c => match c with | ⟨0, _⟩ => rfl | ⟨1, _⟩ => rfl | ⟨2, _⟩ => rfl

end Cert.PairLayout
-- ==== Proof.Region1Pay.lean ====
import proofs.«148920_j31516470018602_1_alg».proof.Proof.Gen.KernelIdeal.Skeleton
import proofs.«148920_j31516470018602_1_alg».proof.Proof.Spec
import proofs.«148920_j31516470018602_1_alg».proof.Proof.LibPairLayout
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Hand1

open Cert.KernelIdeal Cert.KernelIdeal.Gen Cert.PairLayout

/-! # The tile's payload read at an index, over the extended reals

The body lays the `[256,256]` tile of distances along a leading cluster axis, the anchor distances and the row weights
along a trailing column axis, the column weights along a middle row axis, multiplies pointwise, and sums the columns and
then the rows. Read at cluster `k` this is the accumulator's entry plus the double sum of the pairs' weighted hinge terms. -/

variable {α : Type}

/-- An `[a, c]` array cast to `[a, 1, c]` reads, at `(p, u, d)`, the operand at `(p, d)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- An `[a, 1, n]` array broadcast to `[a, c, n]` reads, at `(p, d, q)`, the operand at `(p, 0, q)`. -/
theorem broadcastTo_a1n_acn_apply {a c n : ℕ} (v : (⟨3, ![a, 1, n]⟩ : Shape).Idx → α)
    (h : (⟨3, ![a, 1, n]⟩ : Shape).Broadcasts ⟨3, ![a, c, n]⟩) (p : Fin a) (d : Fin c) (q : Fin n) :
    broadcastTo ⟨3, ![a, c, n]⟩ v h (ix3 p d q) = v (ix3 p (0 : Fin 1) q) := by
  refine broadcastTo_apply v h (ix3 p d q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if n = 1 then 0 else q.val
    split
    · have := q.isLt; omega
    · rfl

/-- The source index a reduction of `[a, c, n]` over its last axis visits for result index `(p, d)` and coordinate `q`
    is `(p, d, q)`. -/
theorem lift_last {a c n : ℕ} (h : (⟨3, ![a, c, n]⟩ : Shape).Reduces [(2 : Fin 3)] ⟨2, ![a, c]⟩)
    (p : Fin a) (d : Fin c) (q : Fin n) : h.lift (ix2 p d) q = ix3 p d q :=
  funext fun ax => Fin.ext (by
    match ax with
    | ⟨0, _⟩ => rfl
    | ⟨1, _⟩ => rfl
    | ⟨2, _⟩ => rfl)

/-- The lane reduction of `[a, c, n]` over its last axis from the zero word, at `(p, d)`: the sum over `q` of the source
    at `(p, d, q)`. -/
theorem lastSum_apply {a c n : ℕ} (src : FVec Ideal ⟨3, ![a, c, n]⟩ .f32)
    (h : (⟨3, ![a, c, n]⟩ : Shape).Reduces [(2 : Fin 3)] ⟨2, ![a, c]⟩)
    (hφ : FKind.Formats .f32) (hacc : (0x00000000#32 : BitVec 32) = FKind.add.neutral .f32 hφ) (p : Fin a) (d : Fin c) :
    multiReduction .add [(2 : Fin 3)] ⟨2, ![a, c]⟩ src 0x00000000#32 h hφ hacc (ix2 p d) = ∑ q : Fin n, src (ix3 p d q) :=
  (Ideal.multiReduction_add_single src 0x00000000#32 h hφ hacc (ix2 p d)).trans
    (Finset.sum_congr rfl fun q _ => congrArg src (lift_last h p d q))

/-- The lane reduction of `[a, n]` over its columns from the zero word, at `p`: the row's sum. -/
theorem colsSum_apply {a n : ℕ} (src : FVec Ideal ⟨2, ![a, n]⟩ .f32)
    (h : (⟨2, ![a, n]⟩ : Shape).Reduces [(1 : Fin 2)] ⟨1, ![a]⟩)
    (hφ : FKind.Formats .f32) (hacc : (0x00000000#32 : BitVec 32) = FKind.add.neutral .f32 hφ) (p : Fin a) :
    multiReduction .add [(1 : Fin 2)] ⟨1, ![a]⟩ src 0x00000000#32 h hφ hacc (ix1 p) = ∑ q : Fin n, src (ix2 p q) :=
  (Ideal.multiReduction_add_single src 0x00000000#32 h hφ hacc (ix1 p)).trans
    (Finset.sum_congr rfl fun q _ => congrArg src (lift_cols h p q))

/-- The zeros the first point stores: the zero word at every entry. -/
theorem pay1_apply (j : S1x16.Idx) : k1_pay1 (F := Ideal) j = Cert.Spec.zero := by
  unfold k1_pay1
  exact congrFun (shapeCast_self _ _) j

/-- THE PAYLOAD at cluster `k`: the accumulator's entry plus, over the tile's rows `r` and columns `s`, the hinge of
    the distance at `(r, s)` against the anchor distance at `(k, r)`, weighted by the row's and the column's weights. -/
theorem pay2_apply (x0 : Vec Ideal S256x256 .f32) (x1 x2 x3 : Vec Ideal S16x256 .f32) (xs : Vec Ideal S1x16 .f32) (k : Fin 16) :
    k1_pay2 (F := Ideal) x0 x1 x2 x3 xs (ix2 (0 : Fin 1) k)
      = xs (ix2 (0 : Fin 1) k) + ∑ r : Fin 256, ∑ s : Fin 256,
          Cert.Spec.hinge (x0 (ix2 r s)) (x3 (ix2 k r)) * (x1 (ix2 k r) * x2 (ix2 k s)) := by
  unfold k1_pay2
  refine (congrFun (shapeCast_self _ _) _).trans ?_
  refine (addf_apply _ _ _).trans ?_
  refine congrArg (xs (ix2 (0 : Fin 1) k) + ·) ?_
  refine (shapeCast_a_1a_apply _ _ (0 : Fin 1) k).trans ?_
  refine (colsSum_apply _ _ _ _ k).trans ?_
  refine Finset.sum_congr rfl fun r _ => ?_
  refine (lastSum_apply _ _ _ _ k r).trans ?_
  refine Finset.sum_congr rfl fun s _ => ?_
  refine (mulf_apply _ _ _).trans ?_
  refine congrArg₂ (· * ·) ?_ ?_
  · -- the hinge
    unfold Cert.Spec.hinge
    refine (maximumf_apply _ _ _).trans ?_
    refine congrArg₂ max ?_ rfl
    refine (subf_apply _ _ _).trans ?_
    refine congrArg₂ (· - ·) ?_ ?_
    · refine (broadcastTo_1cn_acn_apply _ _ k r s).trans ?_
      refine (addf_apply _ _ _).trans ?_
      refine congrArg₂ (· + ·) ?_ rfl
      refine (shapeCast_ab_1ab_apply _ _ (0 : Fin 1) r s).trans ?_
      exact congrFun (shapeCast_self x0 _) _
    · refine (broadcastTo_ac1_acn_apply _ _ k r s).trans ?_
      refine (shapeCast_ac_ac1_apply _ _ k r (0 : Fin 1)).trans ?_
      exact congrFun (shapeCast_self x3 _) _
  · -- the two weights
    refine (mulf_apply _ _ _).trans ?_
    refine congrArg₂ (· * ·) ?_ ?_
    · refine (broadcastTo_ac1_acn_apply _ _ k r s).trans ?_
      refine (shapeCast_ac_ac1_apply _ _ k r (0 : Fin 1)).trans ?_
      exact congrFun (shapeCast_self x1 _) _
    · refine (broadcastTo_a1n_acn_apply _ _ k r s).trans ?_
      refine (shapeCast_ac_a1c_apply _ _ k (0 : Fin 1) s).trans ?_
      exact congrFun (shapeCast_self x2 _) _

end Cert.KernelIdeal.Hand1

end
-- ==== Proof.Region1Value.lean ====
import proofs.«148920_j31516470018602_1_alg».proof.Proof.Region1Pieces
import proofs.«148920_j31516470018602_1_alg».proof.Proof.Region1Pay
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand1

open Cert.KernelIdeal Cert.KernelIdeal.Gen

/-! # What the second call leaves in its result array

Tile `t` of the 8 × 8 grid is `(t / 8, t % 8)`: the distance block has rows `(t / 8) · 256 …` and columns
`(t % 8) · 256 …`; the row weights and anchor distances are read at the rows' positions, the column weights at the
columns'. After point `n` the accumulator holds the first `n + 1` tiles' sums, from zero; the last point copies it out,
and that one write-back is the whole `[1,16]` result. -/

section Generic

variable {F : FTy → Type} [FloatOps F]
variable (V : (c : Dev nD) → (b : Ref sig .tc) → Buf (Elt F) ((c : Thread nD τ).loc b))

/-! ## The index maps, decided over the grid -/

theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idx1_1 : ∀ t : Fin cfg1.N, win1_1.index t (0 : Fin 2) = 0 ∧ win1_1.index t (1 : Fin 2) = t.val / 8 :=
  (by decide +kernel : ∀ t : Fin grid1.N, win1_1.index t (0 : Fin 2) = 0 ∧ win1_1.index t (1 : Fin 2) = t.val / 8)
theorem idx1_2 : ∀ t : Fin cfg1.N, win1_2.index t (0 : Fin 2) = 0 ∧ win1_2.index t (1 : Fin 2) = t.val % 8 :=
  (by decide +kernel : ∀ t : Fin grid1.N, win1_2.index t (0 : Fin 2) = 0 ∧ win1_2.index t (1 : Fin 2) = t.val % 8)
theorem idx1_3 : ∀ t : Fin cfg1.N, win1_3.index t (0 : Fin 2) = 0 ∧ win1_3.index t (1 : Fin 2) = t.val / 8 :=
  (by decide +kernel : ∀ t : Fin grid1.N, win1_3.index t (0 : Fin 2) = 0 ∧ win1_3.index t (1 : Fin 2) = t.val / 8)

/-! ## Each input block, read where the tile says -/

/-- The distance block at point `t` sits at rows `(t / 8) · 256 …` and columns `(t % 8) · 256 …` of the matrix. -/
theorem iblk1_0_at (c : Dev nD) (t : Fin cfg1.N) (x : S256x256.Idx) (k : S2048x2048.Idx)
    (hk0 : (k 0).val = t.val / 8 * 256 + (x 0).val) (hk1 : (k 1).val = t.val % 8 * 256 + (x 1).val) :
    (iblk1 V c 0 t : Vec F S256x256 .f32) x = (V c main_v0 : S2048x2048.Idx → Elt F .f32) k := by
  have hi := idx1_0 t
  unfold iblk1
  rw [View.read_apply]
  show V c main_v0 _ = V c main_v0 _
  congr 1
  funext a
  apply Fin.ext
  match a with
  | ⟨0, _⟩ => show win1_0.index t 0 * 256 + 1 * (x 0).val = (k 0).val; rw [hi.1, hk0]; omega
  | ⟨1, _⟩ => show win1_0.index t 1 * 256 + 1 * (x 1).val = (k 1).val; rw [hi.2, hk1]; omega

/-- Window 1's block at point `t` (all 16 clusters, 256 columns) sits at columns `(t.val / 8) · 256 …` of its array. -/
theorem iblk1_1_at (c : Dev nD) (t : Fin cfg1.N) (x : S16x256.Idx) (k : S16x2048.Idx)
    (hk0 : (k 0).val = (x 0).val) (hk1 : (k 1).val = t.val / 8 * 256 + (x 1).val) :
    (iblk1 V c 1 t : Vec F S16x256 .f32) x = (V c main_v35 : S16x2048.Idx → Elt F .f32) k := by
  have hi := idx1_1 t
  unfold iblk1
  rw [View.read_apply]
  show V c main_v35 _ = V c main_v35 _
  congr 1
  funext a
  apply Fin.ext
  match a with
  | ⟨0, _⟩ => show win1_1.index t 0 * 16 + 1 * (x 0).val = (k 0).val; rw [hi.1, hk0]; omega
  | ⟨1, _⟩ => show win1_1.index t 1 * 256 + 1 * (x 1).val = (k 1).val; rw [hi.2, hk1]; omega

/-- Window 2's block at point `t` (all 16 clusters, 256 columns) sits at columns `(t.val % 8) · 256 …` of its array. -/
theorem iblk1_2_at (c : Dev nD) (t : Fin cfg1.N) (x : S16x256.Idx) (k : S16x2048.Idx)
    (hk0 : (k 0).val = (x 0).val) (hk1 : (k 1).val = t.val % 8 * 256 + (x 1).val) :
    (iblk1 V c 2 t : Vec F S16x256 .f32) x = (V c main_v35 : S16x2048.Idx → Elt F .f32) k := by
  have hi := idx1_2 t
  unfold iblk1
  rw [View.read_apply]
  show V c main_v35 _ = V c main_v35 _
  congr 1
  funext a
  apply Fin.ext
  match a with
  | ⟨0, _⟩ => show win1_2.index t 0 * 16 + 1 * (x 0).val = (k 0).val; rw [hi.1, hk0]; omega
  | ⟨1, _⟩ => show win1_2.index t 1 * 256 + 1 * (x 1).val = (k 1).val; rw [hi.2, hk1]; omega

/-- Window 3's block at point `t` (all 16 clusters, 256 columns) sits at columns `(t.val / 8) · 256 …` of its array. -/
theorem iblk1_3_at (c : Dev nD) (t : Fin cfg1.N) (x : S16x256.Idx) (k : S16x2048.Idx)
    (hk0 : (k 0).val = (x 0).val) (hk1 : (k 1).val = t.val / 8 * 256 + (x 1).val) :
    (iblk1 V c 3 t : Vec F S16x256 .f32) x = (V c main_v34 : S16x2048.Idx → Elt F .f32) k := by
  have hi := idx1_3 t
  unfold iblk1
  rw [View.read_apply]
  show V c main_v34 _ = V c main_v34 _
  congr 1
  funext a
  apply Fin.ext
  match a with
  | ⟨0, _⟩ => show win1_3.index t 0 * 16 + 1 * (x 0).val = (k 0).val; rw [hi.1, hk0]; omega
  | ⟨1, _⟩ => show win1_3.index t 1 * 256 + 1 * (x 1).val = (k 1).val; rw [hi.2, hk1]; omega

/-! ## The accumulator and the output's buffer after each point, as payloads -/

theorem accA (c : Dev nD) (t : Fin cfg1.N) (h0 : t.val = 0) (h1 : ¬t.val = 63) :
    (outsAt1 V c t.val t.isLt).2 = k1_pay2 (iblk1 V c 0 t) (iblk1 V c 1 t) (iblk1 V c 2 t) (iblk1 V c 3 t) (k1_pay1 (F := F)) := by
  rw [outsAt1_A V c t h0 h1]
  exact soutA_eq c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

theorem accB (c : Dev nD) (t : Fin cfg1.N) (h0 : ¬t.val = 0) (h1 : ¬t.val = 63) :
    (outsAt1 V c t.val t.isLt).2 = k1_pay2 (iblk1 V c 0 t) (iblk1 V c 1 t) (iblk1 V c 2 t) (iblk1 V c 3 t) (outsAt1 V c (t.val - 1) (Nat.lt_of_le_of_lt (Nat.sub_le _ _) t.isLt)).2 := by
  rw [outsAt1_B V c t h0 h1]
  exact soutB_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

theorem accC (c : Dev nD) (t : Fin cfg1.N) (h0 : ¬t.val = 0) (h1 : t.val = 63) :
    (outsAt1 V c t.val t.isLt).2 = k1_pay2 (iblk1 V c 0 t) (iblk1 V c 1 t) (iblk1 V c 2 t) (iblk1 V c 3 t) (outsAt1 V c (t.val - 1) (Nat.lt_of_le_of_lt (Nat.sub_le _ _) t.isLt)).2 := by
  rw [outsAt1_C V c t h0 h1]
  exact soutC_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

theorem outC (c : Dev nD) (t : Fin cfg1.N) (h0 : ¬t.val = 0) (h1 : t.val = 63) :
    (outsAt1 V c t.val t.isLt).1 = k1_pay2 (iblk1 V c 0 t) (iblk1 V c 1 t) (iblk1 V c 2 t) (iblk1 V c 3 t) (outsAt1 V c (t.val - 1) (Nat.lt_of_le_of_lt (Nat.sub_le _ _) t.isLt)).2 := by
  rw [outsAt1_C V c t h0 h1]
  exact outC_eq c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

/-! ## The one write-back -/

/-- The grid's last point. -/
def t63 : Fin cfg1.N := ⟨63, by rw [show cfg1.N = 64 from N_1]; decide⟩

/-- The one write-back, at the last point, writes what the body left in the output's buffer there: the block is the whole
    `[1,16]` array read through zero offsets. -/
theorem flushed1_4 (c : Dev nD) (t : Fin cfg1.N) (hf : (cfg1.win 4).flush t = true) :
    (dat1 V c).flushed 4 t = ((cfg1.win 4).blk t).view.read (Elt F) ((outsAt1 V c t63.val t63.isLt).1) := by
  have hN : cfg1.N = 64 := N_1
  have h1 : t.val = 63 := by have := (flush1_4 t).mp hf; have := t.isLt; omega
  obtain rfl : t = t63 := Fin.ext h1
  show (cfg1.win 4).cut (grid1.coords t63) ((dat1 V c).after 4 t63) = _
  rw [after1_4]
  have hz' : (fun a => win1_4.index t63 a * main_v46.ty.shape.size a) = fun _ => 0 := funext fun a => by fin_cases a <;> decide +kernel
  exact (Memref.read_access_unit_zero (Elt F) main_v46 hz' (fun a => by rw [congrFun hz' a]; simp) ((outsAt1 V c t63.val t63.isLt).1)).symm

/-- So the result array ends holding what the last point left in the output's buffer. -/
theorem final1_4 (c : Dev nD) : (dat1 V c).arrAt 4 cfg1.N = (outsAt1 V c t63.val t63.isLt).1 :=
  (dat1 V c).arrAt_eq_of_cover 4 ((outsAt1 V c t63.val t63.isLt).1) (flushed1_4 V c) fun i =>
    ⟨t63, (flush1_4 t63).mpr rfl, by
      show i ∈ ((View.whole main_v46).slice (win1_4.rect t63)).set
      rw [View.set_slice_whole, Rect.mem_set_unit]
      intro a
      have h0 : (i 0 : Nat) < 1 := (i 0).isLt
      have h1 : (i 1 : Nat) < 16 := (i 1).isLt
      match a with
      | ⟨0, _⟩ => show win1_4.index t63 0 * win1_4.size 0 ≤ (i 0 : Nat) ∧ (i 0 : Nat) < win1_4.index t63 0 * win1_4.size 0 + win1_4.xsize (grid1.coords t63) 0
                  rw [show win1_4.index t63 0 * win1_4.size 0 = 0 from by decide +kernel, show win1_4.xsize (grid1.coords t63) 0 = 1 from by decide +kernel]; omega
      | ⟨1, _⟩ => show win1_4.index t63 1 * win1_4.size 1 ≤ (i 1 : Nat) ∧ (i 1 : Nat) < win1_4.index t63 1 * win1_4.size 1 + win1_4.xsize (grid1.coords t63) 1
                  rw [show win1_4.index t63 1 * win1_4.size 1 = 0 from by decide +kernel, show win1_4.xsize (grid1.coords t63) 1 = 16 from by decide +kernel]; omega⟩

end Generic

/-! ## Over the extended reals -/

section AtIdeal

variable (V : (c : Dev nD) → (b : Ref sig .tc) → Buf (Elt Ideal) ((c : Thread nD τ).loc b))

/-- The distance matrix, the weights and the anchor distances as the region finds them, by coordinates. -/
abbrev Dm (c : Dev nD) : Fin 2048 → Fin 2048 → EReal := fun p q => (V c main_v0 : S2048x2048.Idx → EReal) (ix2 p q)
abbrev Wm (c : Dev nD) : Fin 16 → Fin 2048 → EReal := fun k p => (V c main_v35 : S16x2048.Idx → EReal) (ix2 k p)
abbrev Am (c : Dev nD) : Fin 16 → Fin 2048 → EReal := fun k p => (V c main_v34 : S16x2048.Idx → EReal) (ix2 k p)

/-- One more tile: the accumulator after `n + 1` tiles is the one after `n` plus tile `n`'s sum. -/
theorem acc_succ (D : Fin 2048 → Fin 2048 → EReal) (w a : Fin 16 → Fin 2048 → EReal) (k : Fin 16) (n : ℕ) (h : n < 64) :
    Cert.Spec.acc D w a k (n + 1) = Cert.Spec.acc D w a k n + Cert.Spec.tile D w a k ⟨n / 8, by omega⟩ ⟨n % 8, by omega⟩ := by
  rw [Cert.Spec.acc, dif_pos h]

/-- The payload at point `t`'s blocks: the accumulator's entry plus tile `(t / 8, t % 8)`'s sum for the cluster. -/
theorem tile_step (c : Dev nD) (t : Fin cfg1.N) (xs : Vec Ideal S1x16 .f32) (k : Fin 16) :
    k1_pay2 (F := Ideal) (iblk1 V c 0 t) (iblk1 V c 1 t) (iblk1 V c 2 t) (iblk1 V c 3 t) xs (ix2 (0 : Fin 1) k)
      = xs (ix2 (0 : Fin 1) k) + Cert.Spec.tile (Dm V c) (Wm V c) (Am V c) k
          ⟨t.val / 8, by have := t.isLt; have hN : cfg1.N = 64 := N_1; omega⟩ ⟨t.val % 8, by omega⟩ := by
  refine (pay2_apply (iblk1 V c 0 t) (iblk1 V c 1 t) (iblk1 V c 2 t) (iblk1 V c 3 t) xs k).trans ?_
  refine congrArg (xs (ix2 (0 : Fin 1) k) + ·) ?_
  unfold Cert.Spec.tile
  refine Finset.sum_congr rfl fun r _ => Finset.sum_congr rfl fun s _ => ?_
  exact congrArg₂ (· * ·)
    (congrArg₂ Cert.Spec.hinge
      (iblk1_0_at V c t (ix2 r s) (ix2 (Cert.Spec.row ⟨t.val / 8, by have := t.isLt; have hN : cfg1.N = 64 := N_1; omega⟩ r) (Cert.Spec.row ⟨t.val % 8, by omega⟩ s)) rfl rfl)
      (iblk1_3_at V c t (ix2 k r) (ix2 k (Cert.Spec.row ⟨t.val / 8, by have := t.isLt; have hN : cfg1.N = 64 := N_1; omega⟩ r)) rfl rfl))
    (congrArg₂ (· * ·)
      (iblk1_1_at V c t (ix2 k r) (ix2 k (Cert.Spec.row ⟨t.val / 8, by have := t.isLt; have hN : cfg1.N = 64 := N_1; omega⟩ r)) rfl rfl)
      (iblk1_2_at V c t (ix2 k s) (ix2 k (Cert.Spec.row ⟨t.val % 8, by omega⟩ s)) rfl rfl))

/-- THE INVARIANT: after point `n` the accumulator holds, for each cluster, the first `n + 1` tiles' sums from zero. -/
theorem acc_inv (c : Dev nD) (k : Fin 16) : ∀ (n : ℕ) (hn : n < cfg1.N),
    (outsAt1 V c n hn).2 (ix2 (0 : Fin 1) k) = Cert.Spec.acc (Dm V c) (Wm V c) (Am V c) k (n + 1) := by
  intro n
  induction n with
  | zero =>
    intro hn
    refine (congrFun (accA V c ⟨0, hn⟩ rfl (show ¬(0 : ℕ) = 63 by decide)) _).trans ?_
    refine (tile_step V c ⟨0, hn⟩ (k1_pay1 (F := Ideal)) k).trans ?_
    rw [pay1_apply, acc_succ _ _ _ k 0 (by decide)]
    rfl
  | succ n ih =>
    intro hn
    have hN : cfg1.N = 64 := N_1
    by_cases h1 : n + 1 = 63
    · refine (congrFun (accC V c ⟨n + 1, hn⟩ (Nat.succ_ne_zero n) h1) _).trans ?_
      refine (tile_step V c ⟨n + 1, hn⟩ _ k).trans ?_
      rw [acc_succ _ _ _ k (n + 1) (by omega)]
      exact congrArg (· + _) (ih (Nat.lt_of_succ_lt hn))
    · refine (congrFun (accB V c ⟨n + 1, hn⟩ (Nat.succ_ne_zero n) h1) _).trans ?_
      refine (tile_step V c ⟨n + 1, hn⟩ _ k).trans ?_
      rw [acc_succ _ _ _ k (n + 1) (by omega)]
      exact congrArg (· + _) (ih (Nat.lt_of_succ_lt hn))

/-- THE RESULT: after the region the `[1,16]` result array holds, for each cluster, all 64 tiles' sums. -/
theorem arrAt1_4' (c : Dev nD) (k : Fin 16) :
    (dat1 (F := Ideal) V c).arrAt 4 cfg1.N (ix2 (0 : Fin 1) k) = Cert.Spec.acc (Dm V c) (Wm V c) (Am V c) k 64 := by
  refine (congrFun (final1_4 V c) _).trans ?_
  refine (congrFun (outC V c t63 (by decide) rfl) _).trans ?_
  refine (tile_step V c t63 _ k).trans ?_
  rw [acc_succ _ _ _ k 63 (by decide)]
  exact congrArg (· + _) (acc_inv V c k 62 _)

/-- The same, with the three arrays written out. -/
theorem arrAt1_4 (c : Dev nD) (k : Fin 16) :
    (dat1 (F := Ideal) V c).arrAt 4 cfg1.N (ValueIdx.ix2 0 k)
      = Cert.Spec.acc (fun p q => V c main_v0 (ValueIdx.ix2 p q)) (fun k p => V c main_v35 (ValueIdx.ix2 k p))
          (fun k p => V c main_v34 (ValueIdx.ix2 k p)) k 64 :=
  arrAt1_4' V c k

end AtIdeal

end Cert.KernelIdeal.Hand1

end
-- ==== Proof.SpecBridge.lean ====
/-
  The tiled accumulation is the whole masked sum.

  The 2048 rows are 8 blocks of 256: row 256 I + r.  The accumulator adds, tile after tile in row-major order, the sum over
  the tile's 256 x 256 pairs of  hinge * (w(p) w(q)).  Addition on the extended reals is commutative and associative, so
  the 64 tile sums are one sum over all pairs (p, q); and with weights w in {0, 1} marking membership, the product
  hinge * (w(p) w(q)) is the hinge term where both rows are members and zero elsewhere.  Nothing here needs finiteness.
-/
import proofs.«148920_j31516470018602_1_alg».proof.Proof.Spec
import Mathlib.Algebra.BigOperators.Fin
import Mathlib.Algebra.BigOperators.Intervals
import Mathlib.Data.Fintype.BigOperators

noncomputable section

namespace Cert.Spec

open Idealize.ShloMosaic
open scoped BigOperators

namespace Bridge

/-- The zero word is the extended real 0. -/
theorem zero_eq : zero = 0 := by simp [zero, Ideal.ofBits, Ideal.ieee]

/-! ## Rows as blocks of 256, tiles as an 8 x 8 grid -/

/-- (I, r) ↦ row 256 I + r is a bijection from 8 x 256 onto the 2048 rows. -/
def rowEquiv : Fin 8 × Fin 256 ≃ Fin 2048 where
  toFun x := row x.1 x.2
  invFun p := (⟨p.val / 256, by have := p.isLt; omega⟩, ⟨p.val % 256, by omega⟩)
  left_inv x := by
    obtain ⟨I, r⟩ := x
    have hI := I.isLt
    have hr := r.isLt
    exact Prod.ext (Fin.ext (by show (I.val * 256 + r.val) / 256 = I.val; omega))
      (Fin.ext (by show (I.val * 256 + r.val) % 256 = r.val; omega))
  right_inv p := Fin.ext (by show p.val / 256 * 256 + p.val % 256 = p.val; omega)

/-- A sum over the blocks and, inside each, over its rows is the sum over all rows. -/
theorem sum_rows {M : Type*} [AddCommMonoid M] (f : Fin 2048 → M) :
    ∑ I : Fin 8, ∑ r : Fin 256, f (row I r) = ∑ p : Fin 2048, f p := by
  rw [← Fintype.sum_prod_type' (fun I r => f (row I r))]
  exact Equiv.sum_comp rowEquiv f

/-- The sum over the tiles and, inside each, over its pairs is the sum over all pairs of rows. -/
theorem sum_tiles {M : Type*} [AddCommMonoid M] (F : Fin 2048 → Fin 2048 → M) :
    ∑ I : Fin 8, ∑ J : Fin 8, ∑ r : Fin 256, ∑ s : Fin 256, F (row I r) (row J s) = ∑ p : Fin 2048, ∑ q : Fin 2048, F p q :=
  calc ∑ I : Fin 8, ∑ J : Fin 8, ∑ r : Fin 256, ∑ s : Fin 256, F (row I r) (row J s)
      = ∑ I : Fin 8, ∑ r : Fin 256, ∑ J : Fin 8, ∑ s : Fin 256, F (row I r) (row J s) :=
        Finset.sum_congr rfl fun I _ => Finset.sum_comm
    _ = ∑ p : Fin 2048, ∑ J : Fin 8, ∑ s : Fin 256, F p (row J s) :=
        sum_rows (fun p => ∑ J : Fin 8, ∑ s : Fin 256, F p (row J s))
    _ = ∑ p : Fin 2048, ∑ q : Fin 2048, F p q := Finset.sum_congr rfl fun p _ => sum_rows (F p)

/-- (I, J) ↦ 8 I + J is a bijection from the 8 x 8 tiles onto their 64 row-major positions. -/
def tileEquiv : Fin 8 × Fin 8 ≃ Fin 64 where
  toFun x := ⟨x.1.val * 8 + x.2.val, by have := x.1.isLt; have := x.2.isLt; omega⟩
  invFun n := (⟨n.val / 8, by have := n.isLt; omega⟩, ⟨n.val % 8, by omega⟩)
  left_inv x := by
    obtain ⟨I, J⟩ := x
    have hI := I.isLt
    have hJ := J.isLt
    exact Prod.ext (Fin.ext (by show (I.val * 8 + J.val) / 8 = I.val; omega))
      (Fin.ext (by show (I.val * 8 + J.val) % 8 = J.val; omega))
  right_inv n := Fin.ext (by show n.val / 8 * 8 + n.val % 8 = n.val; omega)

/-! ## The accumulator is the sum of the tiles -/

section
variable (Dm : Fin 2048 → Fin 2048 → EReal) (w a : Fin 16 → Fin 2048 → EReal) (k : Fin 16)

/-- What the n-th step adds: tile (n / 8, n % 8) for the 64 tiles, nothing after them. -/
def step (n : ℕ) : EReal :=
  if h : n < 64 then tile Dm w a k ⟨n / 8, by omega⟩ ⟨n % 8, by omega⟩ else 0

theorem acc_succ (n : ℕ) : acc Dm w a k (n + 1) = acc Dm w a k n + step Dm w a k n := rfl

/-- The accumulator after n steps is the sum of what the first n steps add. -/
theorem acc_eq_range (n : ℕ) : acc Dm w a k n = ∑ m ∈ Finset.range n, step Dm w a k m := by
  induction n with
  | zero => rw [Finset.range_zero, Finset.sum_empty]; exact zero_eq
  | succ n ih => rw [acc_succ, Finset.sum_range_succ, ih]

/-- The step at position 8 I + J adds tile (I, J). -/
theorem step_tile (I J : Fin 8) : step Dm w a k (I.val * 8 + J.val) = tile Dm w a k I J := by
  have hI := I.isLt
  have hJ := J.isLt
  have e1 : (⟨(I.val * 8 + J.val) / 8, by omega⟩ : Fin 8) = I := Fin.ext (by show (I.val * 8 + J.val) / 8 = I.val; omega)
  have e2 : (⟨(I.val * 8 + J.val) % 8, by omega⟩ : Fin 8) = J := Fin.ext (by show (I.val * 8 + J.val) % 8 = J.val; omega)
  unfold step
  rw [dif_pos (by omega), e1, e2]

/-- After all 64 tiles the accumulator is the sum over the 8 x 8 tiles. -/
theorem acc_eq_tiles : acc Dm w a k 64 = ∑ I : Fin 8, ∑ J : Fin 8, tile Dm w a k I J := by
  rw [acc_eq_range, ← Fin.sum_univ_eq_sum_range (fun m => step Dm w a k m) 64,
    ← Equiv.sum_comp tileEquiv (fun m : Fin 64 => step Dm w a k m.val), Fintype.sum_prod_type]
  exact Finset.sum_congr rfl fun I _ => Finset.sum_congr rfl fun J _ => step_tile Dm w a k I J

/-- So it is the sum over all pairs of rows of the weighted hinge term. -/
theorem acc_eq_pairs :
    acc Dm w a k 64 = ∑ p : Fin 2048, ∑ q : Fin 2048, hinge (Dm p q) (a k p) * (w k p * w k q) :=
  (acc_eq_tiles Dm w a k).trans (sum_tiles fun p q => hinge (Dm p q) (a k p) * (w k p * w k q))

end

/-! ## Weights in {0, 1} are a mask -/

/-- A hinge term times the product of two membership weights is the term where both are members, zero elsewhere. -/
theorem weighted_eq_masked (d x : EReal) (P Q : Prop) [Decidable P] [Decidable Q] :
    hinge d x * ((if P then (1 : EReal) else 0) * (if Q then (1 : EReal) else 0)) = if P ∧ Q then hinge d x else zero := by
  rw [zero_eq]
  by_cases hP : P <;> by_cases hQ : Q <;> simp [hP, hQ]

/-- A one-bit word read as an unsigned number, as an extended real, is 1 for the bit 1 and 0 for the bit 0. -/
theorem bit_weight (m : BitVec 1) : (((m.toNat : ℕ) : ℝ) : EReal) = if m = 1#1 then (1 : EReal) else 0 := by
  rcases BitVec.eq_zero_or_eq_one m with h | h <;> subst h <;> simp

end Bridge

open Bridge

/-- THE TILED ACCUMULATION IS THE WHOLE MASKED SUM, for weights that are 1 on the members and 0 elsewhere. -/
theorem acc_eq_whole (Dm : Fin 2048 → Fin 2048 → EReal) (b : Fin 16 → Fin 2048 → Prop) [∀ k p, Decidable (b k p)]
    (w a : Fin 16 → Fin 2048 → EReal) (hw : ∀ k p, w k p = if b k p then (1 : EReal) else 0) (k : Fin 16) :
    acc Dm w a k 64 = whole Dm b a k := by
  rw [acc_eq_pairs]
  unfold whole
  refine Finset.sum_congr rfl fun p _ => Finset.sum_congr rfl fun q _ => ?_
  rw [hw k p, hw k q]
  exact weighted_eq_masked _ _ _ _

/-- The same for weights given as one-bit words read as unsigned numbers (a mask converted to a float): the members are
    the rows whose bit is 1. -/
theorem acc_eq_whole_bits (Dm : Fin 2048 → Fin 2048 → EReal) (m : Fin 16 → Fin 2048 → BitVec 1)
    (w a : Fin 16 → Fin 2048 → EReal) (hw : ∀ k p, w k p = (((m k p).toNat : ℝ) : EReal)) (k : Fin 16) :
    acc Dm w a k 64 = whole Dm (fun k p => m k p = 1#1) a k :=
  acc_eq_whole Dm (fun k p => m k p = 1#1) w a (fun k p => (hw k p).trans (bit_weight (m k p))) k

end Cert.Spec

end
-- ==== Proof.HostK1.lean ====
/- The host operations of the kernel program before its second call, as pure terms of the argument arrays.
   From the class labels lab and the binary targets y (2048 entries each) the program builds, for each of 16 classes k,
   the membership mask pos(k, p) = (lab p = k and y p = 1) and the mask neg(k, p) = (lab p = k and y p = 0); the weights are
   the mask pos converted to a float; the counts are the masks' row sums; the anchor of class k is the first index of
   neg(k, .) (the argmax of the mask), wrapped if negative, and the anchor distances are that column of the distance
   matrix, gathered and transposed. Each stretch is read from an ARBITRARY valuation W, so that no earlier stretch is
   ever evaluated again. -/
import proofs.«148920_j31516470018602_1_alg».proof.Proof.Gen.KernelIdeal.Regions
import Idealize.ShloMosaic.Lib.StableHlo.Run
import Idealize.ShloMosaic.PureOps.Ideal

set_option maxRecDepth 16384

noncomputable section

namespace Cert.KernelIdeal.HostK

open Cert.KernelIdeal Cert.KernelIdeal.Gen
open Idealize.ShloMosaic Idealize.ShloMosaic.TcCoe Idealize.SL.Sem
open Idealize.ShloMosaic.StableHlo (after_cons after_nil)

variable {F : FTy → Type} [FloatOps F]

/-! ## The terms -/

/-- (k, p) ↦ lab p = k, as a one-bit word. -/
def labEqK (lab : IVec S2048 32) : IVec S16x2048 1 :=
  cmpi .eq (broadcastInDim S16x2048 ![0, 1] bcast_S1x2048_S16x2048_0_1 (broadcastInDim S1x2048 ![1] bcast_S2048_S1x2048_1 lab))
    (broadcastInDim S16x2048 ![0, 1] bcast_S16x1_S16x2048_0_1 (broadcastInDim S16x1 ![0] bcast_S16_S16x1_0 (iotaInDim S16 32 0)))

/-- (k, p) ↦ y p = v, as a one-bit word. -/
def yEqK (v : BitVec 32) (y : IVec S2048 32) : IVec S16x2048 1 :=
  broadcastInDim S16x2048 ![0, 1] bcast_S1x2048_S16x2048_0_1
    (cmpi .eq (broadcastInDim S1x2048 ![1] bcast_S2048_S1x2048_1 y) (broadcastInDim S1x2048 ![] bcast_S_S1x2048 (constantI S_ 32 v)))

/-- The membership mask: lab p = k and y p = 1. -/
def posK (y lab : IVec S2048 32) : IVec S16x2048 1 := andi (labEqK lab) (yEqK 1#32 y)
/-- The other mask: lab p = k and y p = 0. -/
def negK (y lab : IVec S2048 32) : IVec S16x2048 1 := andi (labEqK lab) (yEqK 0#32 y)
/-- The membership weights: the mask converted to a float. -/
def posfK (y lab : IVec S2048 32) : FVec F S16x2048 .f32 := uitofp .f32 (posK y lab)
/-- A mask's row counts. -/
def cntK (msk : IVec S16x2048 1) : IVec S16 32 :=
  Host.reduce IntOp.addi (extui 32 msk natLt_1_32) (constantI S_ 32 0#32) reducesTo_S16x2048_S16_d1 h_S_
/-- A mask's row-wise argmax (the index component of the two-operand reduce). -/
def argmaxK (msk : IVec S16x2048 1) : IVec S16 32 := fun j =>
  (Host.reduce2 reducer_argmax_i1_i32 msk (iotaInDim S16x2048 32 1) (constantI S_ 1 0#1) (constantI S_ 32 0#32)
    reducesTo_S16x2048_S16_d1 h_S_ j).2
/-- A negative index wrapped by the extent. -/
def wrapK (a : IVec S16 32) : IVec S16 32 :=
  select (cmpi .slt a (broadcastInDim S16 ![] bcast_S_S16 (constantI S_ 32 0#32)))
    (addi a (broadcastInDim S16 ![] bcast_S_S16 (constantI S_ 32 2048#32))) a
/-- The columns of the matrix at the given indices, gathered and transposed: [16, 2048]. -/
def colsK (Dm : FVec F S2048x2048 .f32) (a : IVec S16 32) : FVec F S16x2048 .f32 :=
  transpose S16x2048 [1, 0]
    (Host.gather gather_S2048x2048_S16x1_S2048x16_0_1_n_n_1_1_20481 Dm (broadcastInDim S16x1 ![0] bcast_S16_S16x1_0 (wrapK a)))
    transposes_S2048x16_S16x2048_1_0
/-- The anchor distances. -/
def dpnK (Dm : FVec F S2048x2048 .f32) (y lab : IVec S2048 32) : FVec F S16x2048 .f32 := colsK Dm (argmaxK (negK y lab))
/-- The denominators: max(count - 1, 1) as a float. -/
def denK (cnt : IVec S16 32) : FVec F S16 .f32 :=
  sitofp .f32 (maxsi (subi cnt (broadcastInDim S16 ![] bcast_S_S16 (constantI S_ 32 1#32)))
    (broadcastInDim S16 ![] bcast_S_S16 (constantI S_ 32 1#32)))
/-- The valid classes: more than one member and at least one non-member. -/
def validK (cp cn : IVec S16 32) : IVec S16 1 :=
  andi (cmpi .sgt cp (broadcastInDim S16 ![] bcast_S_S16 (constantI S_ 32 1#32)))
    (cmpi .sgt cn (broadcastInDim S16 ![] bcast_S_S16 (constantI S_ 32 0#32)))

/-! ## The first stretch, from any valuation -/

theorem s1_v11 (W : Valuation τ sig (Elt F)) :
    StableHlo.after (hostOps1 (F := F)) W (Proc.devRef .tc main_v11) = posK (W (Proc.devRef .tc main_arg2)) (W (Proc.devRef .tc main_arg3)) := by
  dsimp only [hostOps1]; after_results_simp <;> rfl
theorem s1_v21 (W : Valuation τ sig (Elt F)) :
    StableHlo.after (hostOps1 (F := F)) W (Proc.devRef .tc main_v21) = negK (W (Proc.devRef .tc main_arg2)) (W (Proc.devRef .tc main_arg3)) := by
  dsimp only [hostOps1]; after_results_simp <;> rfl
theorem s1_v23 (W : Valuation τ sig (Elt F)) :
    StableHlo.after (hostOps1 (F := F)) W (Proc.devRef .tc main_v23) = cntK (posK (W (Proc.devRef .tc main_arg2)) (W (Proc.devRef .tc main_arg3))) := by
  dsimp only [hostOps1]; after_results_simp <;> rfl
theorem s1_v25 (W : Valuation τ sig (Elt F)) :
    StableHlo.after (hostOps1 (F := F)) W (Proc.devRef .tc main_v25) = cntK (negK (W (Proc.devRef .tc main_arg2)) (W (Proc.devRef .tc main_arg3))) := by
  dsimp only [hostOps1]; after_results_simp <;> rfl

/-! ## The argmax, from any valuation -/

theorem s2_v26 (W : Valuation τ sig (Elt F)) :
    StableHlo.after (hostOps1_1 (F := F)) W (Proc.devRef .tc main_v26) = argmaxK (W (Proc.devRef .tc main_v21)) := by
  dsimp only [hostOps1_1]; after_results <;> rfl

/-! ## The third stretch, from any valuation -/

theorem s3_v34 (W : Valuation τ sig (Elt F)) :
    StableHlo.after (hostOps1_2 (F := F)) W (Proc.devRef .tc main_v34) = colsK (W (Proc.devRef .tc main_v0)) (W (Proc.devRef .tc main_v26)) := by
  dsimp only [hostOps1_2]; after_results_simp <;> rfl
theorem s3_v35 (W : Valuation τ sig (Elt F)) :
    StableHlo.after (hostOps1_2 (F := F)) W (Proc.devRef .tc main_v35) = uitofp .f32 (W (Proc.devRef .tc main_v11)) := by
  dsimp only [hostOps1_2]; after_results_simp <;> rfl
theorem s3_v40 (W : Valuation τ sig (Elt F)) :
    StableHlo.after (hostOps1_2 (F := F)) W (Proc.devRef .tc main_v40) = denK (W (Proc.devRef .tc main_v23)) := by
  dsimp only [hostOps1_2]; after_results_simp <;> rfl
theorem s3_v45 (W : Valuation τ sig (Elt F)) :
    StableHlo.after (hostOps1_2 (F := F)) W (Proc.devRef .tc main_v45) = validK (W (Proc.devRef .tc main_v23)) (W (Proc.devRef .tc main_v25)) := by
  dsimp only [hostOps1_2]; after_results_simp <;> rfl

/-! ## The valuations between the items, read at the buffers the second call and the tail take -/

section Valuations
variable (m : (ℓ : Loc nD τ sig) → Buf (Elt F) ℓ) (outs : Outs (F := F)) (c : Dev nD)

theorem V1_arg2 : V1 m outs c main_arg2 = m ((c : Thread nD τ).loc main_arg2) := (V1_of m outs c main_arg2 (by decide)).trans rfl
theorem V1_arg3 : V1 m outs c main_arg3 = m ((c : Thread nD τ).loc main_arg3) := (V1_of m outs c main_arg3 (by decide)).trans rfl
/-- The first call's result buffer holds what the call left. -/
theorem V1_v0 : V1 m outs c main_v0 = outs 1 main_v0 c := by simp only [V1, Function.update_self]

theorem V2_v11 : V2 m outs c main_v11 = posK (m ((c : Thread nD τ).loc main_arg2)) (m ((c : Thread nD τ).loc main_arg3)) :=
  (s1_v11 (V1 m outs c)).trans (congrArg₂ posK (V1_arg2 m outs c) (V1_arg3 m outs c))
theorem V2_v21 : V2 m outs c main_v21 = negK (m ((c : Thread nD τ).loc main_arg2)) (m ((c : Thread nD τ).loc main_arg3)) :=
  (s1_v21 (V1 m outs c)).trans (congrArg₂ negK (V1_arg2 m outs c) (V1_arg3 m outs c))
theorem V2_v23 : V2 m outs c main_v23 = cntK (posK (m ((c : Thread nD τ).loc main_arg2)) (m ((c : Thread nD τ).loc main_arg3))) :=
  (s1_v23 (V1 m outs c)).trans (congrArg cntK (congrArg₂ posK (V1_arg2 m outs c) (V1_arg3 m outs c)))
theorem V2_v25 : V2 m outs c main_v25 = cntK (negK (m ((c : Thread nD τ).loc main_arg2)) (m ((c : Thread nD τ).loc main_arg3))) :=
  (s1_v25 (V1 m outs c)).trans (congrArg cntK (congrArg₂ negK (V1_arg2 m outs c) (V1_arg3 m outs c)))
theorem V3_v26 : V3 m outs c main_v26 = argmaxK (negK (m ((c : Thread nD τ).loc main_arg2)) (m ((c : Thread nD τ).loc main_arg3))) :=
  (s2_v26 (V2 m outs c)).trans (congrArg argmaxK (V2_v21 m outs c))

/-- (1) No host stretch before the second call writes the distance matrix: it is what the first call left. -/
theorem V4_v0 : V4 m outs c main_v0 = outs 1 main_v0 c :=
  (V4_of m outs c main_v0 (by decide)).trans <| (V3_of m outs c main_v0 (by decide)).trans <|
    (V2_of m outs c main_v0 (by decide)).trans (V1_v0 m outs c)

/-- (2) The membership weights the second call reads. -/
theorem V4_v35 : V4 m outs c main_v35 = posfK (m ((c : Thread nD τ).loc main_arg2)) (m ((c : Thread nD τ).loc main_arg3)) :=
  (s3_v35 (V3 m outs c)).trans (congrArg (uitofp .f32) ((V3_of m outs c main_v11 (by decide)).trans (V2_v11 m outs c)))

/-- (3) The anchor distances the second call reads. -/
theorem V4_v34 : V4 m outs c main_v34
    = dpnK (outs 1 main_v0 c) (m ((c : Thread nD τ).loc main_arg2)) (m ((c : Thread nD τ).loc main_arg3)) :=
  (s3_v34 (V3 m outs c)).trans (congrArg₂ colsK
    ((V3_of m outs c main_v0 (by decide)).trans <| (V2_of m outs c main_v0 (by decide)).trans (V1_v0 m outs c))
    (V3_v26 m outs c))

/-- The denominators and the valid classes, which the tail reads. -/
theorem V4_v40 : V4 m outs c main_v40
    = denK (cntK (posK (m ((c : Thread nD τ).loc main_arg2)) (m ((c : Thread nD τ).loc main_arg3)))) :=
  (s3_v40 (V3 m outs c)).trans (congrArg denK ((V3_of m outs c main_v23 (by decide)).trans (V2_v23 m outs c)))
theorem V4_v45 : V4 m outs c main_v45
    = validK (cntK (posK (m ((c : Thread nD τ).loc main_arg2)) (m ((c : Thread nD τ).loc main_arg3))))
        (cntK (negK (m ((c : Thread nD τ).loc main_arg2)) (m ((c : Thread nD τ).loc main_arg3)))) :=
  (s3_v45 (V3 m outs c)).trans (congrArg₂ validK ((V3_of m outs c main_v23 (by decide)).trans (V2_v23 m outs c))
    ((V3_of m outs c main_v25 (by decide)).trans (V2_v25 m outs c)))
theorem V4_arg1 : V4 m outs c main_arg1 = m ((c : Thread nD τ).loc main_arg1) :=
  (V4_of m outs c main_arg1 (by decide)).trans <| (V3_of m outs c main_arg1 (by decide)).trans <|
    (V2_of m outs c main_arg1 (by decide)).trans <| (V1_of m outs c main_arg1 (by decide)).trans rfl
theorem V4_arg2 : V4 m outs c main_arg2 = m ((c : Thread nD τ).loc main_arg2) :=
  (V4_of m outs c main_arg2 (by decide)).trans <| (V3_of m outs c main_arg2 (by decide)).trans <|
    (V2_of m outs c main_arg2 (by decide)).trans (V1_arg2 m outs c)

end Valuations

/-! ## The weights at an entry, over the extended reals -/

/-- A weight is its mask bit read as an unsigned number. -/
theorem posfK_apply (y lab : IVec S2048 32) (i : S16x2048.Idx) :
    posfK (F := Ideal) y lab i = (((posK y lab i).toNat : ℝ) : EReal) := rfl

end Cert.KernelIdeal.HostK

end
-- ==== Proof.HostK2.lean ====
/- The host operations of the kernel program after its second call, as ONE pure function of what the call left and of the
   argument arrays: the sixteen class sums reshaped, divided by the denominators, clipped at zero, kept for the valid
   classes and summed; the cross-entropy of the two-class scores yh against the targets y (log-softmax, the target's
   entry taken along the class axis, the mean); and their combination. Each stretch is read from an arbitrary valuation. -/
import proofs.«148920_j31516470018602_1_alg».proof.Proof.HostK1

set_option maxRecDepth 16384

noncomputable section

namespace Cert.KernelIdeal.HostK

open Cert.KernelIdeal Cert.KernelIdeal.Gen
open Idealize.ShloMosaic Idealize.ShloMosaic.TcCoe Idealize.SL.Sem
open Idealize.ShloMosaic.StableHlo (after_cons after_nil)

variable {F : FTy → Type} [FloatOps F]

/-! ## The terms -/

/-- The class sums [1,16] as [16], divided by the denominators, clipped at zero. -/
def hingeMeanK (s : FVec F S1x16 .f32) (den : FVec F S16 .f32) : FVec F S16 .f32 :=
  maximumf (Host.divf (shapeCast S16 s shapeCasts_S1x16_S16) den) (broadcastInDim S16 ![] bcast_S_S16 (constant S_ .f32 0x00000000#32))
/-- Kept where the class is valid, a given scalar elsewhere. -/
def whereK (valid : IVec S16 1) (v : FVec F S16 .f32) (z : FVec F S_ .f32) : FVec F S16 .f32 :=
  select valid v (broadcastInDim S16 ![] bcast_S_S16 z)
/-- The sum over the sixteen classes. -/
def sumK (v : FVec F S16 .f32) : FVec F S_ .f32 := Host.reduceAdd v (constant S_ .f32 0x00000000#32) reducesTo_S16_S_d0 h_S_
/-- The class term of the loss. -/
def lossK (s : FVec F S1x16 .f32) (den : FVec F S16 .f32) (valid : IVec S16 1) : FVec F S_ .f32 :=
  sumK (whereK valid (hingeMeanK s den) (constant S_ .f32 0x00000000#32))

/-- Row-wise log-softmax of the [2048, 2] scores. -/
def logSoftmaxK (x : FVec F S2048x2 .f32) : FVec F S2048x2 .f32 :=
  subf
    (subf x (broadcastInDim S2048x2 ![0, 1] bcast_S2048x1_S2048x2_0_1 (broadcastInDim S2048x1 ![0] bcast_S2048_S2048x1_0
      (maximumf (broadcastInDim S2048 ![] bcast_S_S2048 (constant S_ .f32 0xFF800000#32))
        (Host.reduce FloatOps.maximumf x (constant S_ .f32 0xFF800000#32) reducesTo_S2048x2_S2048_d1 h_S_)))))
    (broadcastInDim S2048x2 ![0, 1] bcast_S2048x1_S2048x2_0_1 (Host.log (broadcastInDim S2048x1 ![0] bcast_S2048_S2048x1_0
      (Host.reduceAdd
        (Host.exp (subf x (broadcastInDim S2048x2 ![0, 1] bcast_S2048x1_S2048x2_0_1 (broadcastInDim S2048x1 ![0] bcast_S2048_S2048x1_0
          (maximumf (broadcastInDim S2048 ![] bcast_S_S2048 (constant S_ .f32 0xFF800000#32))
            (Host.reduce FloatOps.maximumf x (constant S_ .f32 0xFF800000#32) reducesTo_S2048x2_S2048_d1 h_S_))))))
        (constant S_ .f32 0x00000000#32) reducesTo_S2048x2_S2048_d1 h_S_))))

/-- The index wrapped and laid out as the gather's start indices [2048, 1, 1]. -/
def takeIdxK (yb : IVec S2048x1 32) : IVec S2048x1x1 32 :=
  shapeCast S2048x1x1
    (select (cmpi .slt yb (broadcastInDim S2048x1 ![] bcast_S_S2048x1 (constantI S_ 32 0#32)))
      (addi yb (broadcastInDim S2048x1 ![] bcast_S_S2048x1 (constantI S_ 32 2#32))) yb)
    shapeCasts_S2048x1_S2048x1x1
/-- Each row's entry at its index along the class axis (not-a-number where the index is out of range). -/
def takeK (ls : FVec F S2048x2 .f32) (yb : IVec S2048x1 32) : FVec F S2048x1 .f32 :=
  select
    (Host.reduce IntOp.andi
      (andi (cmpi .sge (takeIdxK yb) (broadcastInDim S2048x1x1 ![] bcast_S_S2048x1x1 (constantI S_ 32 0#32)))
        (cmpi .sle (takeIdxK yb) (broadcastInDim S2048x1x1 ![0, 1, 2] bcast_S1x1x1_S2048x1x1_0_1_2
          (broadcastInDim S1x1x1 ![2] bcast_S1_S1x1x1_2 (constantI S1 32 1#32)))))
      (constantI S_ 1 1#1) reducesTo_S2048x1x1_S2048x1_d2 h_S_)
    (Host.gather gather_S2048x2_S2048x1x1_S2048x1_n_1_0_0_1_2_11 ls (takeIdxK yb))
    (broadcastInDim S2048x1 ![] bcast_S_S2048x1 (constant S_ .f32 0x7FC00000#32))
/-- The cross-entropy terms, one per row. -/
def ceK (yh : FVec F S2048x2 .f32) (y : IVec S2048 32) : FVec F S2048x1 .f32 :=
  takeK (logSoftmaxK yh) (broadcastInDim S2048x1 ![0] bcast_S2048_S2048x1_0 y)
/-- The final combination of the mean cross-entropy and the class term. -/
def combineK (ce : FVec F S2048x1 .f32) (l : FVec F S_ .f32) : FVec F S_ .f32 :=
  addf
    (mulf (constant S_ .f32 0x40000000#32)
      (Host.negf (Host.divf (Host.reduceAdd ce (constant S_ .f32 0x00000000#32) reducesTo_S2048x1_S_d0_1 h_S_) (constant S_ .f32 0x45000000#32))))
    (mulf (constant S_ .f32 0xBF800000#32) l)

/-- EVERYTHING AFTER THE SECOND CALL: the result from the class sums s the call left, the targets y, the labels lab and
    the scores yh. -/
def tailK (s : FVec F S1x16 .f32) (y lab : IVec S2048 32) (yh : FVec F S2048x2 .f32) : FVec F S_ .f32 :=
  combineK (ceK yh y)
    (lossK s (denK (cntK (posK y lab))) (validK (cntK (posK y lab)) (cntK (negK y lab))))

/-! ## The stretches after the second call, each from any valuation -/

theorem s4_v50 (W : Valuation τ sig (Elt F)) :
    StableHlo.after (hostOps2 (F := F)) W (Proc.devRef .tc main_v50) = hingeMeanK (W (Proc.devRef .tc main_v46)) (W (Proc.devRef .tc main_v40)) := by
  dsimp only [hostOps2]; after_results <;> rfl
theorem s4_cst9 (W : Valuation τ sig (Elt F)) :
    StableHlo.after (hostOps2 (F := F)) W (Proc.devRef .tc main_cst_9) = constant S_ .f32 0x00000000#32 := by
  dsimp only [hostOps2]; after_results <;> rfl
theorem s5_v51 (W : Valuation τ sig (Elt F)) :
    StableHlo.after (hostOps2_1 (F := F)) W (Proc.devRef .tc main_v51)
      = whereK (W (Proc.devRef .tc main_v45)) (W (Proc.devRef .tc main_v50)) (W (Proc.devRef .tc main_cst_9)) := by
  dsimp only [hostOps2_1]; after_results <;> rfl
theorem s6_v52 (W : Valuation τ sig (Elt F)) :
    StableHlo.after (hostOps2_2 (F := F)) W (Proc.devRef .tc main_v52) = sumK (W (Proc.devRef .tc main_v51)) := by
  dsimp only [hostOps2_2]; after_results <;> rfl
theorem s7_v53 (W : Valuation τ sig (Elt F)) :
    StableHlo.after (hostOps2_3 (F := F)) W (Proc.devRef .tc main_v53) = logSoftmaxK (W (Proc.devRef .tc main_arg1)) := by
  dsimp only [hostOps2_3]; after_results_simp <;> rfl
theorem s8_v54 (W : Valuation τ sig (Elt F)) :
    StableHlo.after (hostOps2_4 (F := F)) W (Proc.devRef .tc main_v54)
      = broadcastInDim S2048x1 ![0] bcast_S2048_S2048x1_0 (W (Proc.devRef .tc main_arg2)) := by
  dsimp only [hostOps2_4]; after_results <;> rfl
theorem s9_v55 (W : Valuation τ sig (Elt F)) :
    StableHlo.after (hostOps2_5 (F := F)) W (Proc.devRef .tc main_v55) = takeK (W (Proc.devRef .tc main_v53)) (W (Proc.devRef .tc main_v54)) := by
  dsimp only [hostOps2_5]; after_results_simp <;> rfl
theorem s10_v61 (W : Valuation τ sig (Elt F)) :
    StableHlo.after (hostOps2_6 (F := F)) W (Proc.devRef .tc main_v61) = combineK (W (Proc.devRef .tc main_v55)) (W (Proc.devRef .tc main_v52)) := by
  dsimp only [hostOps2_6]; after_results <;> rfl

/-! ## The valuations after the second call -/

section Valuations
variable (m : (ℓ : Loc nD τ sig) → Buf (Elt F) ℓ) (outs : Outs (F := F)) (c : Dev nD)

/-- The second call's result buffer holds what the call left. -/
theorem V5_v46 : V5 m outs c main_v46 = outs 5 main_v46 c := by simp only [V5, Function.update_self]
theorem V5_v40 : V5 m outs c main_v40 = denK (cntK (posK (m ((c : Thread nD τ).loc main_arg2)) (m ((c : Thread nD τ).loc main_arg3)))) :=
  (V5_of m outs c main_v40 (by decide)).trans (V4_v40 m outs c)
theorem V5_v45 : V5 m outs c main_v45 = validK (cntK (posK (m ((c : Thread nD τ).loc main_arg2)) (m ((c : Thread nD τ).loc main_arg3)))) (cntK (negK (m ((c : Thread nD τ).loc main_arg2)) (m ((c : Thread nD τ).loc main_arg3)))) :=
  (V5_of m outs c main_v45 (by decide)).trans (V4_v45 m outs c)
theorem V6_v50 : V6 m outs c main_v50 = hingeMeanK (outs 5 main_v46 c) (denK (cntK (posK (m ((c : Thread nD τ).loc main_arg2)) (m ((c : Thread nD τ).loc main_arg3))))) :=
  (s4_v50 (V5 m outs c)).trans (congrArg₂ hingeMeanK (V5_v46 m outs c) (V5_v40 m outs c))
theorem V6_cst9 : V6 m outs c main_cst_9 = constant S_ .f32 0x00000000#32 := s4_cst9 (V5 m outs c)
theorem V6_v45 : V6 m outs c main_v45 = validK (cntK (posK (m ((c : Thread nD τ).loc main_arg2)) (m ((c : Thread nD τ).loc main_arg3)))) (cntK (negK (m ((c : Thread nD τ).loc main_arg2)) (m ((c : Thread nD τ).loc main_arg3)))) :=
  (V6_of m outs c main_v45 (by decide)).trans (V5_v45 m outs c)
theorem V7_v51 : V7 m outs c main_v51
    = whereK (validK (cntK (posK (m ((c : Thread nD τ).loc main_arg2)) (m ((c : Thread nD τ).loc main_arg3)))) (cntK (negK (m ((c : Thread nD τ).loc main_arg2)) (m ((c : Thread nD τ).loc main_arg3))))) (hingeMeanK (outs 5 main_v46 c) (denK (cntK (posK (m ((c : Thread nD τ).loc main_arg2)) (m ((c : Thread nD τ).loc main_arg3))))))
        (constant S_ .f32 0x00000000#32) :=
  (s5_v51 (V6 m outs c)).trans (by rw [V6_v45, V6_v50, V6_cst9])
theorem V8_v52 : V8 m outs c main_v52
    = lossK (outs 5 main_v46 c) (denK (cntK (posK (m ((c : Thread nD τ).loc main_arg2)) (m ((c : Thread nD τ).loc main_arg3))))) (validK (cntK (posK (m ((c : Thread nD τ).loc main_arg2)) (m ((c : Thread nD τ).loc main_arg3)))) (cntK (negK (m ((c : Thread nD τ).loc main_arg2)) (m ((c : Thread nD τ).loc main_arg3))))) :=
  (s6_v52 (V7 m outs c)).trans (congrArg sumK (V7_v51 m outs c))
theorem V8_arg1 : V8 m outs c main_arg1 = (m ((c : Thread nD τ).loc main_arg1)) :=
  (V8_of m outs c main_arg1 (by decide)).trans <| (V7_of m outs c main_arg1 (by decide)).trans <|
    (V6_of m outs c main_arg1 (by decide)).trans <| (V5_of m outs c main_arg1 (by decide)).trans (V4_arg1 m outs c)
theorem V9_v53 : V9 m outs c main_v53 = logSoftmaxK (m ((c : Thread nD τ).loc main_arg1)) :=
  (s7_v53 (V8 m outs c)).trans (congrArg logSoftmaxK (V8_arg1 m outs c))
theorem V9_arg2 : V9 m outs c main_arg2 = (m ((c : Thread nD τ).loc main_arg2)) :=
  (V9_of m outs c main_arg2 (by decide)).trans <| (V8_of m outs c main_arg2 (by decide)).trans <|
    (V7_of m outs c main_arg2 (by decide)).trans <| (V6_of m outs c main_arg2 (by decide)).trans <|
    (V5_of m outs c main_arg2 (by decide)).trans (V4_arg2 m outs c)
theorem V10_v54 : V10 m outs c main_v54 = broadcastInDim S2048x1 ![0] bcast_S2048_S2048x1_0 (m ((c : Thread nD τ).loc main_arg2)) :=
  (s8_v54 (V9 m outs c)).trans (congrArg (fun v => broadcastInDim S2048x1 ![0] bcast_S2048_S2048x1_0 v) (V9_arg2 m outs c))
theorem V10_v53 : V10 m outs c main_v53 = logSoftmaxK (m ((c : Thread nD τ).loc main_arg1)) :=
  (V10_of m outs c main_v53 (by decide)).trans (V9_v53 m outs c)
theorem V11_v55 : V11 m outs c main_v55 = ceK (m ((c : Thread nD τ).loc main_arg1)) (m ((c : Thread nD τ).loc main_arg2)) :=
  (s9_v55 (V10 m outs c)).trans (congrArg₂ takeK (V10_v53 m outs c) (V10_v54 m outs c))
theorem V11_v52 : V11 m outs c main_v52
    = lossK (outs 5 main_v46 c) (denK (cntK (posK (m ((c : Thread nD τ).loc main_arg2)) (m ((c : Thread nD τ).loc main_arg3))))) (validK (cntK (posK (m ((c : Thread nD τ).loc main_arg2)) (m ((c : Thread nD τ).loc main_arg3)))) (cntK (negK (m ((c : Thread nD τ).loc main_arg2)) (m ((c : Thread nD τ).loc main_arg3))))) :=
  (V11_of m outs c main_v52 (by decide)).trans <| (V10_of m outs c main_v52 (by decide)).trans <|
    (V9_of m outs c main_v52 (by decide)).trans (V8_v52 m outs c)

/-- (4) THE RESULT: the tail applied to what the second call left and to the argument arrays. -/
theorem V12_v61 : V12 m outs c main_v61 = tailK (outs 5 main_v46 c) (m ((c : Thread nD τ).loc main_arg2)) (m ((c : Thread nD τ).loc main_arg3)) (m ((c : Thread nD τ).loc main_arg1)) :=
  (s10_v61 (V11 m outs c)).trans (congrArg₂ combineK (V11_v55 m outs c) (V11_v52 m outs c))

end Valuations

end Cert.KernelIdeal.HostK

end
-- ==== Proof.HostK.lean ====
/- The kernel program's host stretches as pure terms: before the second call (the membership weights, the anchor
   distances, the counts) and after it (the tail). -/
import proofs.«148920_j31516470018602_1_alg».proof.Proof.HostK1
import proofs.«148920_j31516470018602_1_alg».proof.Proof.HostK2
-- ==== Proof.RefRead.lean ====
/-
  The reference's distance matrix and hinge sums read entry by entry, at the ideal values.

  Entry (p, q) of the distance matrix is the specification's D: the rows' sums of squares and sums are sums over the
  768 columns, the Gram entry is the inner product of rows p and q, and the column and row copies of a vector read the
  vector at p and at q. Entry k of the hinge sums is the sum, over all pairs (p, q), of the hinge term of the pair
  where both members carry cluster k's mask bit and of zero elsewhere: the three-dimensional copies of the mask, of
  the distance matrix and of the anchor distances read (k, p), (k, q), (p, q) and (k, p), and a sum over the last two
  axes of a three-dimensional array is the double sum over their coordinates.
-/
import proofs.«148920_j31516470018602_1_alg».proof.Proof.RefRun2
import proofs.«148920_j31516470018602_1_alg».proof.Proof.Spec
import proofs.«148920_j31516470018602_1_alg».proof.Proof.LibDenseRows
import proofs.«148920_j31516470018602_1_alg».proof.Proof.LibRowLift
import Idealize.ShloMosaic.Lib.ValueIdx
import Idealize.ShloMosaic.Lib.Pipeline.Value
import Idealize.ShloMosaic.Lib.IdealHost
import Idealize.ShloMosaic.Lib.Affine
import Idealize.ShloMosaic.PureOps.Ideal.Laws

set_option pp.maxSteps 5000
set_option pp.deepTerms false

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## Layout operations at an index -/

section Layout
variable {α : Type}

/-- A scalar laid over any shape reads the scalar everywhere. -/
theorem bcast_scalar_apply {t : Shape} (h : (⟨0, ![]⟩ : Shape).BroadcastsInDim t ![]) (v : (⟨0, ![]⟩ : Shape).Idx → α)
    (j : t.Idx) : broadcastInDim t ![] h v j = v ix0 :=
  broadcastInDim_apply ![] h v j ix0 fun a => a.elim0

/-- A matrix `[a, b]` placed on the first two axes of `[a, b, 1]` reads, at `(p, q, u)`, the matrix at `(p, q)`. -/
theorem bcast_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h v (ix3 p q u) = v (ix2 p q) := by
  refine broadcastInDim_apply ![0, 1] h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An array `[a, b, 1]` laid along a third axis of extent `c` reads, at `(p, q, r)`, the array at `(p, q, 0)`. -/
theorem bcast_ab1_abc_apply {a b c : ℕ} (v : (⟨3, ![a, b, 1]⟩ : Shape).Idx → α)
    (h : (⟨3, ![a, b, 1]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 p q (0 : Fin 1)) := by
  refine broadcastInDim_apply ![0, 1, 2] h v (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A matrix `[a, c]` placed on the first and third axes of `[a, 1, c]` reads, at `(p, u, r)`, the matrix at `(p, r)`. -/
theorem bcast_ac_a1c_apply {a c : ℕ} (v : (⟨2, ![a, c]⟩ : Shape).Idx → α)
    (h : (⟨2, ![a, c]⟩ : Shape).BroadcastsInDim ⟨3, ![a, 1, c]⟩ ![0, 2]) (p : Fin a) (u : Fin 1) (r : Fin c) :
    broadcastInDim ⟨3, ![a, 1, c]⟩ ![0, 2] h v (ix3 p u r) = v (ix2 p r) := by
  refine broadcastInDim_apply ![0, 2] h v (ix3 p u r) (ix2 p r) fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- An array `[a, 1, c]` laid along a second axis of extent `b` reads, at `(p, q, r)`, the array at `(p, 0, r)`. -/
theorem bcast_a1c_abc_apply {a b c : ℕ} (v : (⟨3, ![a, 1, c]⟩ : Shape).Idx → α)
    (h : (⟨3, ![a, 1, c]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 p (0 : Fin 1) r) := by
  refine broadcastInDim_apply ![0, 1, 2] h v (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A matrix `[b, c]` placed on the last two axes of `[1, b, c]` reads, at `(u, q, r)`, the matrix at `(q, r)`. -/
theorem bcast_bc_1bc_apply {b c : ℕ} (v : (⟨2, ![b, c]⟩ : Shape).Idx → α)
    (h : (⟨2, ![b, c]⟩ : Shape).BroadcastsInDim ⟨3, ![1, b, c]⟩ ![1, 2]) (u : Fin 1) (q : Fin b) (r : Fin c) :
    broadcastInDim ⟨3, ![1, b, c]⟩ ![1, 2] h v (ix3 u q r) = v (ix2 q r) := by
  refine broadcastInDim_apply ![1, 2] h v (ix3 u q r) (ix2 q r) fun ax => ?_
  match ax with
  | ⟨0, _⟩ =>
    show q.val = if b = 1 then 0 else q.val
    split
    · have := q.isLt; omega
    · rfl
  | ⟨1, _⟩ =>
    show r.val = if c = 1 then 0 else r.val
    split
    · have := r.isLt; omega
    · rfl

/-- An array `[1, b, c]` laid along a first axis of extent `a` reads, at `(p, q, r)`, the array at `(0, q, r)`. -/
theorem bcast_1bc_abc_apply {a b c : ℕ} (v : (⟨3, ![1, b, c]⟩ : Shape).Idx → α)
    (h : (⟨3, ![1, b, c]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 (0 : Fin 1) q r) := by
  refine broadcastInDim_apply ![0, 1, 2] h v (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Layout

/-! ## A sum over the last two axes of a three-dimensional array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- The host's sum of `[a, b, c]` over its last two axes from an initial value, at `k`: the initial value plus the double
    sum over the coordinates of the two summed axes. -/
theorem hostReduceAdd_12_apply {a b c : ℕ} (h' : (⟨3, ![a, b, c]⟩ : Shape).ReducesTo [1, 2] ⟨1, ![a]⟩)
    (x : (⟨3, ![a, b, c]⟩ : Shape).Idx → EReal) (init : EReal) (k : Fin a) :
    Ideal.hostReduceAdd h' x init (ix1 k) = init + ∑ p : Fin b, ∑ q : Fin c, x (ix3 k p q) := by
  have hd : ∀ (a' : Fin a) (p : Fin b) (q : Fin c), h'.drop (ix3 a' p q) = ix1 a' := fun a' p q => by
    funext d
    apply Fin.ext
    match d with
    | ⟨0, _⟩ => rfl
  unfold Ideal.hostReduceAdd
  congr 1
  rw [Finset.sum_filter, sum_idx3, Finset.sum_eq_single k]
  · refine Finset.sum_congr rfl fun p _ => Finset.sum_congr rfl fun q _ => ?_
    rw [if_pos (hd k p q)]
  · intro a' _ hne
    refine Finset.sum_eq_zero fun p _ => Finset.sum_eq_zero fun q _ => ?_
    rw [if_neg]
    intro h
    rw [hd] at h
    exact hne (congrFun h (0 : Fin 1))
  · intro hk
    exact absurd (Finset.mem_univ k) hk

/-! ## The distance matrix -/

theorem reduces_rows : S2048x768.Reduces [1] S2048 := by decide

/-- A square root of an array, read at an entry, is the square root of the entry. -/
theorem hostSqrt_apply {s : Shape} {φ : FTy} (v : FVec Ideal s φ) (i : s.Idx) : Host.sqrt v i = Ideal.sqrt (v i) := rfl

/-- Row p's sum of squares. -/
theorem res_sq_apply (x : (⟨S2048x768, .f32⟩ : BufTy).Contents (Elt Ideal)) (p : Fin 2048) :
    res_sq (F := Ideal) x (ix1 p) = ∑ k : Fin 768, x (ix2 p k) * x (ix2 p k) := by
  unfold res_sq
  refine (Cert.DenseRows.hostRowSum_apply (mulf x x) (constant (F := Ideal) S_ .f32 0x00000000#32)
    reducesTo_S2048x768_S2048_d1 h_S_ reduces_rows (Cert.RowLift.lift_row reduces_rows) p).trans ?_
  rw [constant_apply, Ideal.ofBits_zero_f32, zero_add]
  rfl

/-- Row p's sum. -/
theorem res_rs_apply (x : (⟨S2048x768, .f32⟩ : BufTy).Contents (Elt Ideal)) (p : Fin 2048) :
    res_rs (F := Ideal) x (ix1 p) = ∑ k : Fin 768, x (ix2 p k) := by
  unfold res_rs
  refine (Cert.DenseRows.hostRowSum_apply x (constant (F := Ideal) S_ .f32 0x00000000#32)
    reducesTo_S2048x768_S2048_d1 h_S_ reduces_rows (Cert.RowLift.lift_row reduces_rows) p).trans ?_
  rw [constant_apply, Ideal.ofBits_zero_f32, zero_add]

/-- The Gram entry of rows p and q. -/
theorem res_gram_apply (x : (⟨S2048x768, .f32⟩ : BufTy).Contents (Elt Ideal)) (p q : Fin 2048) :
    res_gram (F := Ideal) x (ix2 p q) = ∑ k : Fin 768, x (ix2 p k) * x (ix2 q k) := by
  unfold res_gram
  refine (Cert.DenseRows.dotGeneral_plain_apply dot_S2048x768_S768x2048_S2048x2048_1_0_0_1_n_n rfl rfl rfl rfl
    (fun _ _ => rfl) (fun _ _ => rfl) x (transpose S768x2048 [1, 0] x transposes_S2048x768_S768x2048_1_0) p q).trans ?_
  refine Finset.sum_congr rfl fun k _ => congrArg (x (ix2 p k) * ·) ?_
  exact transpose_apply [1, 0] x transposes_S2048x768_S768x2048_1_0 (ix2 k q) (ix2 q k)
    (fun b => match b with | ⟨0, _⟩ => rfl | ⟨1, _⟩ => rfl)

/-- Entry (p, q) of the reference's distance matrix is the specification's D of the rows. -/
theorem res_D_apply (x : (⟨S2048x768, .f32⟩ : BufTy).Contents (Elt Ideal)) (p q : Fin 2048) :
    res_D (F := Ideal) x (ix2 p q) = Cert.Spec.D (fun p k => x (ix2 p k)) p q := by
  -- a vector copied down the columns reads its entry p, copied along the rows its entry q, a scalar itself
  have c1 : ∀ (v : FVec Ideal S2048 .f32),
      broadcastInDim S2048x2048 ![0, 1] bcast_S2048x1_S2048x2048_0_1 (broadcastInDim S2048x1 ![0] bcast_S2048_S2048x1_0 v) (ix2 p q)
        = v (ix1 p) := fun v =>
    (Cert.DenseRows.broadcastInDim_a1_ab_apply _ bcast_S2048x1_S2048x2048_0_1 p q).trans
      (Cert.DenseRows.broadcastInDim_a_a1_apply v bcast_S2048_S2048x1_0 p 0)
  have c2 : ∀ (v : FVec Ideal S2048 .f32),
      broadcastInDim S2048x2048 ![0, 1] bcast_S1x2048_S2048x2048_0_1 (broadcastInDim S1x2048 ![1] bcast_S2048_S1x2048_1 v) (ix2 p q)
        = v (ix1 q) := fun v =>
    Cert.DenseRows.rowBias_inDim_apply v bcast_S2048_S1x2048_1 bcast_S1x2048_S2048x2048_0_1 p q
  have c0 : ∀ (w : BitVec 32),
      broadcastInDim S2048x2048 ![] bcast_S_S2048x2048 (constant (F := Ideal) S_ .f32 w) (ix2 p q) = Ideal.ofBits .f32 w := fun w =>
    (bcast_scalar_apply bcast_S_S2048x2048 _ (ix2 p q)).trans (constant_apply (s := S_) (φ := .f32) w ix0)
  unfold res_D
  simp only [mulf_apply, addf_apply, subf_apply, maximumf_apply, hostSqrt_apply, c0, c1, c2,
    res_sq_apply, res_rs_apply, res_gram_apply]
  rfl

/-! ## The hinge sums -/

/-- The conjunction of two mask arrays, read at an entry, is the conjunction of the entries. -/
theorem andi_apply {s : Shape} {w : Nat} (a b : IVec s w) (i : s.Idx) : andi a b i = IntOp.andi (a i) (b i) := rfl

/-- Entry (k, p, q) of the masked hinge terms: the hinge term of the pair (p, q) against cluster k's anchor distance at p
    where both p and q carry cluster k's mask bit, zero elsewhere. -/
theorem res_hterm_apply (Dm : (⟨S2048x2048, .f32⟩ : BufTy).Contents (Elt Ideal)) (y lab : (⟨S2048, .i32⟩ : BufTy).Contents (Elt Ideal)) (k : Fin 16) (p q : Fin 2048) :
    res_hterm (F := Ideal) Dm y lab (ix3 k p q)
      = if res_pos (F := Ideal) y lab (ix2 k p) = 1#1 ∧ res_pos (F := Ideal) y lab (ix2 k q) = 1#1
        then Cert.Spec.hinge (Dm (ix2 p q)) (res_dpn (F := Ideal) Dm y lab (ix2 k p)) else Cert.Spec.zero := by
  have m1 : ∀ {α : Type} (v : S16x2048.Idx → α),
      broadcastInDim S16x2048x2048 ![0, 1, 2] bcast_S16x2048x1_S16x2048x2048_0_1_2
        (broadcastInDim S16x2048x1 ![0, 1] bcast_S16x2048_S16x2048x1_0_1 v) (ix3 k p q) = v (ix2 k p) := fun v =>
    (bcast_ab1_abc_apply _ bcast_S16x2048x1_S16x2048x2048_0_1_2 k p q).trans (bcast_ab_ab1_apply v bcast_S16x2048_S16x2048x1_0_1 k p 0)
  have m2 : ∀ {α : Type} (v : S16x2048.Idx → α),
      broadcastInDim S16x2048x2048 ![0, 1, 2] bcast_S16x1x2048_S16x2048x2048_0_1_2
        (broadcastInDim S16x1x2048 ![0, 2] bcast_S16x2048_S16x1x2048_0_2 v) (ix3 k p q) = v (ix2 k q) := fun v =>
    (bcast_a1c_abc_apply _ bcast_S16x1x2048_S16x2048x2048_0_1_2 k p q).trans (bcast_ac_a1c_apply v bcast_S16x2048_S16x1x2048_0_2 k 0 q)
  have m3 : ∀ (v : S1x2048x2048.Idx → EReal),
      broadcastInDim S16x2048x2048 ![0, 1, 2] bcast_S1x2048x2048_S16x2048x2048_0_1_2 v (ix3 k p q) = v (ix3 (0 : Fin 1) p q) := fun v =>
    bcast_1bc_abc_apply v bcast_S1x2048x2048_S16x2048x2048_0_1_2 k p q
  have m4 : ∀ (v : S2048x2048.Idx → EReal),
      broadcastInDim S1x2048x2048 ![1, 2] bcast_S2048x2048_S1x2048x2048_1_2 v (ix3 (0 : Fin 1) p q) = v (ix2 p q) := fun v =>
    bcast_bc_1bc_apply v bcast_S2048x2048_S1x2048x2048_1_2 0 p q
  have z1 : ∀ (w : BitVec 32),
      broadcastInDim S1x2048x2048 ![] bcast_S_S1x2048x2048 (constant (F := Ideal) S_ .f32 w) (ix3 (0 : Fin 1) p q)
        = Ideal.ofBits .f32 w := fun w =>
    (bcast_scalar_apply bcast_S_S1x2048x2048 _ _).trans (constant_apply (s := S_) (φ := .f32) w ix0)
  have z2 : ∀ (w : BitVec 32),
      broadcastInDim S16x2048x2048 ![] bcast_S_S16x2048x2048 (constant (F := Ideal) S_ .f32 w) (ix3 k p q)
        = Ideal.ofBits .f32 w := fun w =>
    (bcast_scalar_apply bcast_S_S16x2048x2048 _ _).trans (constant_apply (s := S_) (φ := .f32) w ix0)
  unfold res_hterm
  simp only [select_apply, andi_apply, maximumf_apply, subf_apply, addf_apply, id_eq, m1, m2, m3, m4, z1, z2]
  unfold Scalar.select
  exact if_congr IntOp.andi_eq_one rfl rfl

/-- Entry k of the reference's hinge sums is the specification's sum over all pairs, with cluster k's mask bits as the
    membership proposition and the program's anchor distances. -/
theorem res_hsum_apply (Dm : (⟨S2048x2048, .f32⟩ : BufTy).Contents (Elt Ideal)) (y lab : (⟨S2048, .i32⟩ : BufTy).Contents (Elt Ideal)) (k : Fin 16) :
    res_hsum (F := Ideal) Dm y lab (ix1 k)
      = Cert.Spec.whole (fun p q => Dm (ix2 p q)) (fun k p => res_pos (F := Ideal) y lab (ix2 k p) = 1#1)
          (fun k p => res_dpn (F := Ideal) Dm y lab (ix2 k p)) k := by
  unfold res_hsum
  refine (hostReduceAdd_apply (res_hterm (F := Ideal) Dm y lab) (constant (F := Ideal) S_ .f32 0x00000000#32)
    reducesTo_S16x2048x2048_S16_d1_2 h_S_ (ix1 k)).trans ?_
  rw [hostReduceAdd_12_apply, constant_apply, Ideal.ofBits_zero_f32, zero_add]
  unfold Cert.Spec.whole
  exact Finset.sum_congr rfl fun p _ => Finset.sum_congr rfl fun q _ => res_hterm_apply Dm y lab k p q

end Cert.ReferenceIdeal.RefValue

end
-- ==== Proof.HostBridge.lean ====
/- The kernel program's host terms are the reference program's stages: the two programs print the same operations on the
   labels, the targets, the scores and the distance matrix, each over shapes and dimension records it names for itself;
   the two spellings unfold to the same terms. -/
import proofs.«148920_j31516470018602_1_alg».proof.Proof.HostK2
import proofs.«148920_j31516470018602_1_alg».proof.Proof.RefRun2
import Idealize.ShloMosaic.Lib.ValueLayout

set_option maxRecDepth 16384

noncomputable section

namespace Cert.Proof.Bridge

open Cert.KernelIdeal Cert.KernelIdeal.Gen Cert.KernelIdeal.HostK
open Idealize.ShloMosaic Idealize.ShloMosaic.ValueIdx

variable {F : FTy → Type} [FloatOps F]

/-- The membership mask is the reference's first mask. -/
theorem posK_eq_ref (y lab : IVec S2048 32) : posK y lab = Cert.ReferenceIdeal.RefRun.res_pos (F := F) y lab := rfl
/-- The other mask is the reference's second mask. -/
theorem negK_eq_ref (y lab : IVec S2048 32) : negK y lab = Cert.ReferenceIdeal.RefRun.res_neg (F := F) y lab := rfl
/-- The anchor distances are the reference's, of the same matrix. -/
theorem dpnK_eq_ref (Dm : FVec F S2048x2048 .f32) (y lab : IVec S2048 32) :
    dpnK Dm y lab = Cert.ReferenceIdeal.RefRun.res_dpn (F := F) Dm y lab := rfl
/-- The tail is the reference's tail at the class sums laid out as [16]. -/
theorem tailK_eq_ref (s : FVec F S1x16 .f32) (y lab : IVec S2048 32) (yh : FVec F S2048x2 .f32) :
    tailK s y lab yh = Cert.ReferenceIdeal.RefRun.res_tail (F := F) (shapeCast S16 s shapeCasts_S1x16_S16) yh y lab := rfl
/-- That layout: class k's entry is the [1, 16] array's entry (0, k). -/
theorem sums16_apply {α : Type} (s : S1x16.Idx → α) (k : Fin 16) : shapeCast S16 s shapeCasts_S1x16_S16 (ix1 k) = s (ix2 (0 : Fin 1) k) :=
  shapeCast_1a_a_apply s shapeCasts_S1x16_S16 k

end Cert.Proof.Bridge

end
-- ==== Proof.Algebraic.lean ====
/-
  The two programs' results are one extended real.

  Kernel side. The run ends with the result buffer at the host tail applied to the sixteen cluster sums the second call
  left. Those sums are the tile-by-tile accumulation over the distance matrix the first call left, the 0/1 weights and
  the anchor distances the host stretches in between computed — hence, the weights being mask bits read as numbers, the
  whole masked sum over all pairs. The first call's matrix is D of the rows at every entry.
  Reference side. The result is the same tail applied to the masked sums over its own D, masks and anchor distances,
  which are the same terms of the same arguments. So the results agree.
-/
import proofs.«148920_j31516470018602_1_alg».proof.Defs
import proofs.«148920_j31516470018602_1_alg».proof.Proof.RunK
import proofs.«148920_j31516470018602_1_alg».proof.Proof.Region0Value
import proofs.«148920_j31516470018602_1_alg».proof.Proof.Region1Value
import proofs.«148920_j31516470018602_1_alg».proof.Proof.SpecBridge
import proofs.«148920_j31516470018602_1_alg».proof.Proof.HostK
import proofs.«148920_j31516470018602_1_alg».proof.Proof.RefRun
import proofs.«148920_j31516470018602_1_alg».proof.Proof.RefRead
import proofs.«148920_j31516470018602_1_alg».proof.Proof.HostBridge
import Idealize.ShloMosaic.Lib.ValueIdx
import Idealize.ShloMosaic.Lib.Pipeline.Value

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen
open Cert.KernelIdeal.HandRun (VE0 VE1 X0 X1 outs outsA outs_v0 outsA_v0 outs_v46 run_full)
open Cert.KernelIdeal.HostK (posK posfK dpnK tailK posfK_apply)

variable (m : (ℓ : Loc nD τ sig) → Buf (Elt Ideal) ℓ) (c : Dev nD)

/-- The rows, the scores, the targets and the labels as launched. -/
abbrev xK := m ((c : Thread nD τ).loc main_arg0)
abbrev yhK := m ((c : Thread nD τ).loc main_arg1)
abbrev yK := m ((c : Thread nD τ).loc main_arg2)
abbrev labK := m ((c : Thread nD τ).loc main_arg3)

/-- The first call leaves the scaled distance of every pair of rows. -/
theorem X0_eq : X0 (F := Ideal) m c = fun i => Cert.Spec.D (fun p k => xK m c (ix2 p k)) (i 0) (i 1) :=
  Cert.KernelIdeal.Hand0.arrAt0_2 (VE0 m) c

theorem VE1_v0 : VE1 m c main_v0 = X0 m c := (Cert.KernelIdeal.HostK.V4_v0 m (outsA m) c).trans (outsA_v0 m 1 c)
theorem VE1_v35 : VE1 m c main_v35 = posfK (F := Ideal) (yK m c) (labK m c) := Cert.KernelIdeal.HostK.V4_v35 m (outsA m) c
theorem VE1_v34 : VE1 m c main_v34 = dpnK (F := Ideal) (X0 m c) (yK m c) (labK m c) :=
  (Cert.KernelIdeal.HostK.V4_v34 m (outsA m) c).trans (by rw [outsA_v0])

/-- The second call leaves, for every cluster, the whole masked hinge sum over all pairs. -/
theorem X1_eq (k : Fin 16) : X1 (F := Ideal) m c (ix2 0 k)
    = Cert.Spec.whole (fun p q => X0 m c (ix2 p q)) (fun k p => posK (yK m c) (labK m c) (ix2 k p) = 1#1)
        (fun k p => dpnK (F := Ideal) (X0 m c) (yK m c) (labK m c) (ix2 k p)) k := by
  unfold X1
  rw [Cert.KernelIdeal.Hand1.arrAt1_4 (VE1 m) c k, VE1_v0 m c, VE1_v35 m c, VE1_v34 m c]
  exact Cert.Spec.acc_eq_whole_bits _ (fun k p => posK (yK m c) (labK m c) (ix2 k p)) _ _
    (fun k p => posfK_apply (yK m c) (labK m c) (ix2 k p)) k

/-- The kernel program's result buffer at the end is the reference's composed term of the same arguments. -/
theorem result_eq : V12 m (outs m) c main_v61
    = Cert.ReferenceIdeal.RefRun.res (F := Ideal) (xK m c) (yhK m c) (yK m c) (labK m c) := by
  rw [Cert.KernelIdeal.HostK.V12_v61 m (outs m) c, outs_v46 m 5 c, Cert.Proof.Bridge.tailK_eq_ref (F := Ideal)]
  unfold Cert.ReferenceIdeal.RefRun.res
  refine congrArg (fun h => Cert.ReferenceIdeal.RefRun.res_tail (F := Ideal) h (yhK m c) (yK m c) (labK m c)) ?_
  funext j
  obtain ⟨k, rfl⟩ : ∃ k : Fin 16, j = ix1 k := ⟨j 0, eq_ix1 j⟩
  have hD : Cert.ReferenceIdeal.RefRun.res_D (F := Ideal) (xK m c) = X0 m c := by
    funext i
    obtain ⟨p, q, rfl⟩ : ∃ (p q : Fin 2048), i = ix2 p q := ⟨i 0, i 1, eq_ix2 i⟩
    rw [Cert.ReferenceIdeal.RefValue.res_D_apply, X0_eq m c]
    rfl
  rw [Cert.Proof.Bridge.sums16_apply, X1_eq m c k, Cert.ReferenceIdeal.RefValue.res_hsum_apply, hD,
    Cert.Proof.Bridge.posK_eq_ref (F := Ideal), Cert.Proof.Bridge.dpnK_eq_ref (F := Ideal)]

end Cert.Proof.Alg

end
-- ==== Proof.lean ====
/-
  The certificate's five claims for the pairwise-distance / cluster-hinge loss.

  Frames. The two kernel programs (the word-level one and its reading over the extended reals) run the same twelve
  items: the distance call, three host stretches, the hinge call, seven host stretches. Each call is a pipeline over
  its grid whose body is run symbolically once per control case; its windows' arrays are cut out of the core's
  unscoped buffers at entry — an array read through two windows in two halves — and put back at exit. The reference
  is a straight line of host operations. In all three the argument arrays are never written.

  Equal results over the extended reals. The first call leaves the scaled distance matrix D (Gram expansion, the same
  terms in the same order as the reference's host formula, a lane sum and a matrix product being plain finite sums).
  The second call accumulates, tile by tile from zero, each cluster's sum of hinge(D(p,q), a_k(p))·(w_k(p)·w_k(q)) with
  0/1 weights; the reference sums where(b_k(p) ∧ b_k(q), hinge, 0) over all pairs. A 0/1 product is the conjunction's
  indicator and a finite sum over 2048 × 2048 pairs is the sum over its 8 × 8 tiles of 256 × 256, so the sixteen sums
  agree; everything after them is one and the same chain of host operations on both sides.
-/
import proofs.«148920_j31516470018602_1_alg».proof.Defs
import proofs.«148920_j31516470018602_1_alg».proof.Proof.Gen.Kernel
import proofs.«148920_j31516470018602_1_alg».proof.Proof.Gen.KernelIdeal
import proofs.«148920_j31516470018602_1_alg».proof.Proof.Gen.ReferenceIdeal
import proofs.«148920_j31516470018602_1_alg».proof.Proof.Gen.Pre_finite_inputs
import proofs.«148920_j31516470018602_1_alg».proof.Proof.RunK
import proofs.«148920_j31516470018602_1_alg».proof.Proof.RunKK
import proofs.«148920_j31516470018602_1_alg».proof.Proof.RefRun
import proofs.«148920_j31516470018602_1_alg».proof.Proof.Algebraic
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.HandRun.frame m ρ

theorem frame_ki [Cert.KernelIdeal.Facts] [Cert.Pre_finite_inputs.Facts] : Cert.frame_KernelIdeal :=
  fun m ρ _ => Cert.KernelIdeal.HandRun.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RefRun.run (F := Ideal) m ρ)

/-- A TensorCore reference that no scope hides is among the buffers the run's last state holds. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- From memories that agree on the four arguments both programs run to the end and leave one extended real as their
    result: the kernel program's last valuation at its result buffer, which is the reference's composed term. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.V12 m (Cert.KernelIdeal.HandRun.outs m) c Cert.KernelIdeal.main_v61, ?_, ?_⟩
  · refine (θ_run Cert.KernelIdeal.defs _ _).mono (fun r h c => ⟨?_, ?_, ?_, ?_, ?_⟩) (Cert.KernelIdeal.HandRun.run_full m ρ)
    · exact h c _ (mem_uc Cert.KernelIdeal.main_v61 (by decide))
    · exact (h c _ (mem_uc Cert.KernelIdeal.main_arg0 (by decide))).trans (Cert.KernelIdeal.Gen.V12_main_arg0 m _ c)
    · exact (h c _ (mem_uc Cert.KernelIdeal.main_arg1 (by decide))).trans (Cert.KernelIdeal.Gen.V12_main_arg1 m _ c)
    · exact (h c _ (mem_uc Cert.KernelIdeal.main_arg2 (by decide))).trans (Cert.KernelIdeal.Gen.V12_main_arg2 m _ c)
    · exact (h c _ (mem_uc Cert.KernelIdeal.main_arg3 (by decide))).trans (Cert.KernelIdeal.Gen.V12_main_arg3 m _ c)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2]
    exact (Cert.Proof.Alg.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
